-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v134) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x512 : Shape := ⟨2, ![256, 512]⟩
abbrev S256 : Shape := ⟨1, ![256]⟩
abbrev S100000x32 : Shape := ⟨2, ![100000, 32]⟩
abbrev S8192 : Shape := ⟨1, ![8192]⟩
abbrev S10 : Shape := ⟨1, ![10]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x512 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S100000x256 .f32) (main_arg1 : FVec F S100000x256 .f32) (main_arg2 : FVec F S256x512 .f32) (main_arg3 : FVec F S256 .f32) (main_arg4 : FVec F S256x512 .f32) (main_arg5 : FVec F S256 .f32) (main_arg6 : IVec S100000x32 32) (main_arg7 : IVec S8192 32) (main_arg8 : IVec S8192 32) (main_arg9 : IVec S10 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S100000x256 : Shape := ⟨2, ![100000, 256]⟩
abbrev S256x512 : Shape := ⟨2, ![256, 512]⟩
abbrev S256 : Shape := ⟨1, ![256]⟩
abbrev S100000x32 : Shape := ⟨2, ![100000, 32]⟩
abbrev S8192 : Shape := ⟨1, ![8192]⟩
abbrev S10 : Shape := ⟨1, ![10]⟩
abbrev S512x256 : Shape := ⟨2, ![512, 256]⟩
abbrev S1x256 : Shape := ⟨2, ![1, 256]⟩
abbrev S16394 : Shape := ⟨1, ![16394]⟩
abbrev S_ : Shape := ⟨0, ![]⟩
abbrev S118 : Shape := ⟨1, ![118]⟩
abbrev S16512 : Shape := ⟨1, ![16512]⟩
abbrev S16512x1 : Shape := ⟨2, ![16512, 1]⟩
abbrev S16512x256 : Shape := ⟨2, ![16512, 256]⟩
abbrev S16512x32 : Shape := ⟨2, ![16512, 32]⟩
abbrev S16512x32x1 : Shape := ⟨3, ![16512, 32, 1]⟩
abbrev S16512x32x256 : Shape := ⟨3, ![16512, 32, 256]⟩
abbrev S128x32x256 : Shape := ⟨3, ![128, 32, 256]⟩
abbrev S128x256 : Shape := ⟨2, ![128, 256]⟩
abbrev S128x512 : Shape := ⟨2, ![128, 512]⟩
abbrev S128 : Shape := ⟨1, ![128]⟩
abbrev S128x1 : Shape := ⟨2, ![128, 1]⟩
abbrev S8192x256 : Shape := ⟨2, ![8192, 256]⟩
abbrev S10x256 : Shape := ⟨2, ![10, 256]⟩

abbrev nBuf : Space → Nat
  | .hbm => 62
  | .vmem => 12
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S256x512, .f32⟩
  | .hbm, ⟨3, _⟩ => ⟨S256, .f32⟩
  | .hbm, ⟨4, _⟩ => ⟨S256x512, .f32⟩
  | .hbm, ⟨5, _⟩ => ⟨S256, .f32⟩
  | .hbm, ⟨6, _⟩ => ⟨S100000x32, .i32⟩
  | .hbm, ⟨7, _⟩ => ⟨S8192, .i32⟩
  | .hbm, ⟨8, _⟩ => ⟨S8192, .i32⟩
  | .hbm, ⟨9, _⟩ => ⟨S10, .i32⟩
  | .hbm, ⟨10, _⟩ => ⟨S100000x256, .bf16⟩
  | .hbm, ⟨11, _⟩ => ⟨S100000x256, .bf16⟩
  | .hbm, ⟨12, _⟩ => ⟨S512x256, .f32⟩
  | .hbm, ⟨13, _⟩ => ⟨S512x256, .bf16⟩
  | .hbm, ⟨14, _⟩ => ⟨S512x256, .f32⟩
  | .hbm, ⟨15, _⟩ => ⟨S512x256, .bf16⟩
  | .hbm, ⟨16, _⟩ => ⟨S1x256, .f32⟩
  | .hbm, ⟨17, _⟩ => ⟨S1x256, .f32⟩
  | .hbm, ⟨18, _⟩ => ⟨S16394, .i32⟩
  | .hbm, ⟨19, _⟩ => ⟨S_, .i32⟩
  | .hbm, ⟨20, _⟩ => ⟨S118, .i32⟩
  | .hbm, ⟨21, _⟩ => ⟨S16512, .i32⟩
  | .hbm, ⟨22, _⟩ => ⟨S_, .i32⟩
  | .hbm, ⟨23, _⟩ => ⟨S16512, .i32⟩
  | .hbm, ⟨24, _⟩ => ⟨S16512, .i1⟩
  | .hbm, ⟨25, _⟩ => ⟨S_, .i32⟩
  | .hbm, ⟨26, _⟩ => ⟨S16512, .i32⟩
  | .hbm, ⟨27, _⟩ => ⟨S16512, .i32⟩
  | .hbm, ⟨28, _⟩ => ⟨S16512, .i32⟩
  | .hbm, ⟨29, _⟩ => ⟨S16512x1, .i32⟩
  | .hbm, ⟨30, _⟩ => ⟨S16512x256, .bf16⟩
  | .hbm, ⟨31, _⟩ => ⟨S_, .i32⟩
  | .hbm, ⟨32, _⟩ => ⟨S16512, .i32⟩
  | .hbm, ⟨33, _⟩ => ⟨S16512, .i1⟩
  | .hbm, ⟨34, _⟩ => ⟨S_, .i32⟩
  | .hbm, ⟨35, _⟩ => ⟨S16512, .i32⟩
  | .hbm, ⟨36, _⟩ => ⟨S16512, .i32⟩
  | .hbm, ⟨37, _⟩ => ⟨S16512, .i32⟩
  | .hbm, ⟨38, _⟩ => ⟨S16512x1, .i32⟩
  | .hbm, ⟨39, _⟩ => ⟨S16512x32, .i32⟩
  | .hbm, ⟨40, _⟩ => ⟨S_, .i32⟩
  | .hbm, ⟨41, _⟩ => ⟨S16512x32, .i32⟩
  | .hbm, ⟨42, _⟩ => ⟨S16512x32, .i1⟩
  | .hbm, ⟨43, _⟩ => ⟨S_, .i32⟩
  | .hbm, ⟨44, _⟩ => ⟨S16512x32, .i32⟩
  | .hbm, ⟨45, _⟩ => ⟨S16512x32, .i32⟩
  | .hbm, ⟨46, _⟩ => ⟨S16512x32, .i32⟩
  | .hbm, ⟨47, _⟩ => ⟨S16512x32x1, .i32⟩
  | .hbm, ⟨48, _⟩ => ⟨S16512x32x256, .bf16⟩
  | .hbm, ⟨49, _⟩ => ⟨S_, .i32⟩
  | .hbm, ⟨50, _⟩ => ⟨S16512x32, .i32⟩
  | .hbm, ⟨51, _⟩ => ⟨S16512x32, .i1⟩
  | .hbm, ⟨52, _⟩ => ⟨S_, .i32⟩
  | .hbm, ⟨53, _⟩ => ⟨S16512x32, .i32⟩
  | .hbm, ⟨54, _⟩ => ⟨S16512x32, .i32⟩
  | .hbm, ⟨55, _⟩ => ⟨S16512x32, .i32⟩
  | .hbm, ⟨56, _⟩ => ⟨S16512x32x1, .i32⟩
  | .hbm, ⟨57, _⟩ => ⟨S16512x32x256, .bf16⟩
  | .hbm, ⟨58, _⟩ => ⟨S16512x256, .f32⟩
  | .hbm, ⟨59, _⟩ => ⟨S8192x256, .f32⟩
  | .hbm, ⟨60, _⟩ => ⟨S8192x256, .f32⟩
  | .hbm, ⟨61, _⟩ => ⟨S10x256, .f32⟩
  | .local _ .vmem, ⟨0, _⟩ => ⟨S128x32x256, .bf16⟩
  | .local _ .vmem, ⟨1, _⟩ => ⟨S128x32x256, .bf16⟩
  | .local _ .vmem, ⟨2, _⟩ => ⟨S128x32x256, .bf16⟩
  | .local _ .vmem, ⟨3, _⟩ => ⟨S128x32x256, .bf16⟩
  | .local _ .vmem, ⟨4, _⟩ => ⟨S128x256, .bf16⟩
  | .local _ .vmem, ⟨5, _⟩ => ⟨S128x256, .bf16⟩
  | .local _ .vmem, ⟨6, _⟩ => ⟨S512x256, .bf16⟩
  | .local _ .vmem, ⟨7, _⟩ => ⟨S1x256, .f32⟩
  | .local _ .vmem, ⟨8, _⟩ => ⟨S512x256, .bf16⟩
  | .local _ .vmem, ⟨9, _⟩ => ⟨S1x256, .f32⟩
  | .local _ .vmem, ⟨10, _⟩ => ⟨S128x256, .f32⟩
  | .local _ .vmem, ⟨11, _⟩ => ⟨S128x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![129], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  transposes_S256x512_S512x256_1_0 : S256x512.Transposes [1, 0] S512x256
  shapeCasts_S256_S1x256 : S256.ShapeCasts S1x256
  concatenates_S8192_S8192_S10_S16394_d0 : Shape.Concatenates [S8192, S8192, S10] S16394 0
  bcast_S_S118 : S_.BroadcastsInDim S118 (![] : Fin 0 → Fin S118.rank)
  concatenates_S16394_S118_S16512_d0 : Shape.Concatenates [S16394, S118] S16512 0
  bcast_S_S16512 : S_.BroadcastsInDim S16512 (![] : Fin 0 → Fin S16512.rank)
  bcast_S16512_S16512x1_0 : S16512.BroadcastsInDim S16512x1 (![0] : Fin 1 → Fin S16512x1.rank)
  bcast_S_S16512x32 : S_.BroadcastsInDim S16512x32 (![] : Fin 0 → Fin S16512x32.rank)
  bcast_S16512x32_S16512x32x1_0_1 : S16512x32.BroadcastsInDim S16512x32x1 (![0, 1] : Fin 2 → Fin S16512x32x1.rank)
  inb_S128x32x256_S128x32x256_0_0_0 : ∀ a, (![0, 0, 0] : Fin 3 → Nat) a + S128x32x256.size a ≤ S128x32x256.size a
  h_S128x32x256 : 0 < S128x32x256.numel
  shapeCasts_S128x32x256_S128x32x256 : S128x32x256.ShapeCasts S128x32x256
  reduces_S128x32x256_S128x256 : S128x32x256.Reduces [1] S128x256
  concatenates_S128x256_S128x256_S128x512_d1 : Shape.Concatenates [S128x256, S128x256] S128x512 1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  reduces_S128x256_S128 : S128x256.Reduces [1] S128
  shapeCasts_S128_S128x1 : S128.ShapeCasts S128x1
  broadcasts_S128x1_S128x256 : S128x1.Broadcasts S128x256
  slices_S16512x256_S8192x256_0_0 : S16512x256.Slices ![0, 0] S8192x256
  slices_S16512x256_S8192x256_8192_0 : S16512x256.Slices ![8192, 0] S8192x256
  slices_S16512x256_S10x256_16384_0 : S16512x256.Slices ![16384, 0] S10x256
  gather_S100000x256_S16512x1_S16512x256_1_0_n_n_0_1_1256_wf : GatherDims.WF S100000x256 S16512x1 S16512x256 [1] [0] [] [0] [] 1 ![1, 256]
  gather_S100000x32_S16512x1_S16512x32_1_0_n_n_0_1_132_wf : GatherDims.WF S100000x32 S16512x1 S16512x32 [1] [0] [] [0] [] 1 ![1, 32]
  gather_S100000x256_S16512x32x1_S16512x32x256_2_0_n_n_0_2_1256_wf : GatherDims.WF S100000x256 S16512x32x1 S16512x32x256 [2] [0] [] [0] [] 2 ![1, 256]
  dot_S128x512_S512x256_S128x256_1_0_0_1_n_n_wf : DotDims.WF S128x512 S512x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x256.size a ≤ S16512x32x256.size a
  hwx0_0 : ∀ i : grid0.Coords, EltTy.bits .bf16 = 32 ∨ (Rect.block (s := S16512x32x256) S128x32x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32x256.size a ≤ S16512x32x256.size a
  hwx0_1 : ∀ i : grid0.Coords, EltTy.bits .bf16 = 32 ∨ (Rect.block (s := S16512x32x256) S128x32x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S16512x256.size a
  hwx0_2 : ∀ i : grid0.Coords, EltTy.bits .bf16 = 32 ∨ (Rect.block (s := S16512x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S16512x256.size a
  hwx0_7 : ∀ i : grid0.Coords, EltTy.bits .f32 = 32 ∨ (Rect.block (s := S16512x256) S128x256.size (cc0_transform_7 i) (hinb0_7 i)).WholeWords (EltTy.packing .f32)

variable [Facts₀]

def gather_S100000x256_S16512x1_S16512x256_1_0_n_n_0_1_1256 : GatherDims S100000x256 S16512x1 S16512x256 where
  offsetDims := [1]
  collapsedSliceDims := [0]
  operandBatchingDims := []
  startIndicesBatchingDims := []
  startIndexMap := [0]
  indexVectorDim := 1
  sliceSizes := ![1, 256]
  wf := gather_S100000x256_S16512x1_S16512x256_1_0_n_n_0_1_1256_wf
def gather_S100000x32_S16512x1_S16512x32_1_0_n_n_0_1_132 : GatherDims S100000x32 S16512x1 S16512x32 where
  offsetDims := [1]
  collapsedSliceDims := [0]
  operandBatchingDims := []
  startIndicesBatchingDims := []
  startIndexMap := [0]
  indexVectorDim := 1
  sliceSizes := ![1, 32]
  wf := gather_S100000x32_S16512x1_S16512x32_1_0_n_n_0_1_132_wf
def gather_S100000x256_S16512x32x1_S16512x32x256_2_0_n_n_0_2_1256 : GatherDims S100000x256 S16512x32x1 S16512x32x256 where
  offsetDims := [2]
  collapsedSliceDims := [0]
  operandBatchingDims := []
  startIndicesBatchingDims := []
  startIndexMap := [0]
  indexVectorDim := 2
  sliceSizes := ![1, 256]
  wf := gather_S100000x256_S16512x32x1_S16512x32x256_2_0_n_n_0_2_1256_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf

abbrev win0_0 : Pipeline.Window sig grid0 :=
  Pipeline.Window.ofSpec (Memref.whole main_v31) S128x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S128x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S128x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x256 : Shape := ⟨2, ![100000, 256]⟩
abbrev S256x512 : Shape := ⟨2, ![256, 512]⟩
abbrev S256 : Shape := ⟨1, ![256]⟩
abbrev S100000x32 : Shape := ⟨2, ![100000, 32]⟩
abbrev S8192 : Shape := ⟨1, ![8192]⟩
abbrev S10 : Shape := ⟨1, ![10]⟩
abbrev S_ : Shape := ⟨0, ![]⟩
abbrev S8192x1 : Shape := ⟨2, ![8192, 1]⟩
abbrev S8192x256 : Shape := ⟨2, ![8192, 256]⟩
abbrev S8192x32 : Shape := ⟨2, ![8192, 32]⟩
abbrev S8192x32x1 : Shape := ⟨3, ![8192, 32, 1]⟩
abbrev S8192x32x256 : Shape := ⟨3, ![8192, 32, 256]⟩
abbrev S8192x32x512 : Shape := ⟨3, ![8192, 32, 512]⟩
abbrev S1x1x256 : Shape := ⟨3, ![1, 1, 256]⟩
abbrev S8192x512 : Shape := ⟨2, ![8192, 512]⟩
abbrev S512x256 : Shape := ⟨2, ![512, 256]⟩
abbrev S1x256 : Shape := ⟨2, ![1, 256]⟩
abbrev S10x1 : Shape := ⟨2, ![10, 1]⟩
abbrev S10x256 : Shape := ⟨2, ![10, 256]⟩
abbrev S10x32 : Shape := ⟨2, ![10, 32]⟩
abbrev S10x32x1 : Shape := ⟨3, ![10, 32, 1]⟩
abbrev S10x32x256 : Shape := ⟨3, ![10, 32, 256]⟩
abbrev S10x32x512 : Shape := ⟨3, ![10, 32, 512]⟩
abbrev S10x512 : Shape := ⟨2, ![10, 512]⟩

abbrev nBuf : Space → Nat
  | .hbm => 187
  | .vmem => 0
  | .smem => 0
  | _ => 0

abbrev hbmTy0_0 (i : Nat) : BufTy := match i % 128 with
  | 0 => ⟨S100000x256, .f32⟩
  | 1 => ⟨S100000x256, .f32⟩
  | 2 => ⟨S256x512, .f32⟩
  | 3 => ⟨S256, .f32⟩
  | 4 => ⟨S256x512, .f32⟩
  | 5 => ⟨S256, .f32⟩
  | 6 => ⟨S100000x32, .i32⟩
  | 7 => ⟨S8192, .i32⟩
  | 8 => ⟨S8192, .i32⟩
  | 9 => ⟨S10, .i32⟩
  | 10 => ⟨S_, .i32⟩
  | 11 => ⟨S8192, .i32⟩
  | 12 => ⟨S8192, .i1⟩
  | 13 => ⟨S_, .i32⟩
  | 14 => ⟨S8192, .i32⟩
  | 15 => ⟨S8192, .i32⟩
  | 16 => ⟨S8192, .i32⟩
  | 17 => ⟨S8192x1, .i32⟩
  | 18 => ⟨S8192x256, .f32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S8192x32, .i32⟩
  | 28 => ⟨S_, .i32⟩
  | 29 => ⟨S8192x32, .i32⟩
  | 30 => ⟨S8192x32, .i1⟩
  | 31 => ⟨S_, .i32⟩
  | 32 => ⟨S8192x32, .i32⟩
  | 33 => ⟨S8192x32, .i32⟩
  | 34 => ⟨S8192x32, .i32⟩
  | 35 => ⟨S8192x32x1, .i32⟩
  | 36 => ⟨S8192x32x256, .f32⟩
  | 37 => ⟨S_, .i32⟩
  | 38 => ⟨S8192x32, .i32⟩
  | 39 => ⟨S8192x32, .i1⟩
  | 40 => ⟨S_, .i32⟩
  | 41 => ⟨S8192x32, .i32⟩
  | 42 => ⟨S8192x32, .i32⟩
  | 43 => ⟨S8192x32, .i32⟩
  | 44 => ⟨S8192x32x1, .i32⟩
  | 45 => ⟨S8192x32x256, .f32⟩
  | 46 => ⟨S8192x32x512, .f32⟩
  | 47 => ⟨S8192x32x256, .f32⟩
  | 48 => ⟨S1x1x256, .f32⟩
  | 49 => ⟨S8192x32x256, .f32⟩
  | 50 => ⟨S8192x32x256, .f32⟩
  | 51 => ⟨S_, .f32⟩
  | 52 => ⟨S8192x256, .f32⟩
  | 53 => ⟨S8192x512, .f32⟩
  | 54 => ⟨S512x256, .f32⟩
  | 55 => ⟨S8192x256, .f32⟩
  | 56 => ⟨S1x256, .f32⟩
  | 57 => ⟨S8192x256, .f32⟩
  | 58 => ⟨S8192x256, .f32⟩
  | 59 => ⟨S8192x256, .f32⟩
  | 60 => ⟨S_, .f32⟩
  | 61 => ⟨S8192, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x256, .f32⟩
  | 68 => ⟨S8192x256, .f32⟩
  | 69 => ⟨S_, .i32⟩
  | 70 => ⟨S8192, .i32⟩
  | 71 => ⟨S8192, .i1⟩
  | 72 => ⟨S_, .i32⟩
  | 73 => ⟨S8192, .i32⟩
  | 74 => ⟨S8192, .i32⟩
  | 75 => ⟨S8192, .i32⟩
  | 76 => ⟨S8192x1, .i32⟩
  | 77 => ⟨S8192x256, .f32⟩
  | 78 => ⟨S_, .i32⟩
  | 79 => ⟨S8192, .i32⟩
  | 80 => ⟨S8192, .i1⟩
  | 81 => ⟨S_, .i32⟩
  | 82 => ⟨S8192, .i32⟩
  | 83 => ⟨S8192, .i32⟩
  | 84 => ⟨S8192, .i32⟩
  | 85 => ⟨S8192x1, .i32⟩
  | 86 => ⟨S8192x32, .i32⟩
  | 87 => ⟨S_, .i32⟩
  | 88 => ⟨S8192x32, .i32⟩
  | 89 => ⟨S8192x32, .i1⟩
  | 90 => ⟨S_, .i32⟩
  | 91 => ⟨S8192x32, .i32⟩
  | 92 => ⟨S8192x32, .i32⟩
  | 93 => ⟨S8192x32, .i32⟩
  | 94 => ⟨S8192x32x1, .i32⟩
  | 95 => ⟨S8192x32x256, .f32⟩
  | 96 => ⟨S_, .i32⟩
  | 97 => ⟨S8192x32, .i32⟩
  | 98 => ⟨S8192x32, .i1⟩
  | 99 => ⟨S_, .i32⟩
  | 100 => ⟨S8192x32, .i32⟩
  | 101 => ⟨S8192x32, .i32⟩
  | 102 => ⟨S8192x32, .i32⟩
  | 103 => ⟨S8192x32x1, .i32⟩
  | 104 => ⟨S8192x32x256, .f32⟩
  | 105 => ⟨S8192x32x512, .f32⟩
  | 106 => ⟨S8192x32x256, .f32⟩
  | 107 => ⟨S1x1x256, .f32⟩
  | 108 => ⟨S8192x32x256, .f32⟩
  | 109 => ⟨S8192x32x256, .f32⟩
  | 110 => ⟨S_, .f32⟩
  | 111 => ⟨S8192x256, .f32⟩
  | 112 => ⟨S8192x512, .f32⟩
  | 113 => ⟨S512x256, .f32⟩
  | 114 => ⟨S8192x256, .f32⟩
  | 115 => ⟨S1x256, .f32⟩
  | 116 => ⟨S8192x256, .f32⟩
  | 117 => ⟨S8192x256, .f32⟩
  | 118 => ⟨S8192x256, .f32⟩
  | 119 => ⟨S_, .f32⟩
  | 120 => ⟨S8192, .f32⟩
  | 121 => ⟨S8192x1, .f32⟩
  | 122 => ⟨S8192x1, .f32⟩
  | 123 => ⟨S_, .f32⟩
  | 124 => ⟨S8192x1, .f32⟩
  | 125 => ⟨S8192x1, .f32⟩
  | 126 => ⟨S8192x256, .f32⟩
  | 127 => ⟨S8192x256, .f32⟩
  | _ => ⟨S100000x256, .f32⟩

abbrev hbmTy0_1 (i : Nat) : BufTy := match i % 128 with
  | 0 => ⟨S_, .i32⟩
  | 1 => ⟨S10, .i32⟩
  | 2 => ⟨S10, .i1⟩
  | 3 => ⟨S_, .i32⟩
  | 4 => ⟨S10, .i32⟩
  | 5 => ⟨S10, .i32⟩
  | 6 => ⟨S10, .i32⟩
  | 7 => ⟨S10x1, .i32⟩
  | 8 => ⟨S10x256, .f32⟩
  | 9 => ⟨S_, .i32⟩
  | 10 => ⟨S10, .i32⟩
  | 11 => ⟨S10, .i1⟩
  | 12 => ⟨S_, .i32⟩
  | 13 => ⟨S10, .i32⟩
  | 14 => ⟨S10, .i32⟩
  | 15 => ⟨S10, .i32⟩
  | 16 => ⟨S10x1, .i32⟩
  | 17 => ⟨S10x32, .i32⟩
  | 18 => ⟨S_, .i32⟩
  | 19 => ⟨S10x32, .i32⟩
  | 20 => ⟨S10x32, .i1⟩
  | 21 => ⟨S_, .i32⟩
  | 22 => ⟨S10x32, .i32⟩
  | 23 => ⟨S10x32, .i32⟩
  | 24 => ⟨S10x32, .i32⟩
  | 25 => ⟨S10x32x1, .i32⟩
  | 26 => ⟨S10x32x256, .f32⟩
  | 27 => ⟨S_, .i32⟩
  | 28 => ⟨S10x32, .i32⟩
  | 29 => ⟨S10x32, .i1⟩
  | 30 => ⟨S_, .i32⟩
  | 31 => ⟨S10x32, .i32⟩
  | 32 => ⟨S10x32, .i32⟩
  | 33 => ⟨S10x32, .i32⟩
  | 34 => ⟨S10x32x1, .i32⟩
  | 35 => ⟨S10x32x256, .f32⟩
  | 36 => ⟨S10x32x512, .f32⟩
  | 37 => ⟨S10x32x256, .f32⟩
  | 38 => ⟨S1x1x256, .f32⟩
  | 39 => ⟨S10x32x256, .f32⟩
  | 40 => ⟨S10x32x256, .f32⟩
  | 41 => ⟨S_, .f32⟩
  | 42 => ⟨S10x256, .f32⟩
  | 43 => ⟨S10x512, .f32⟩
  | 44 => ⟨S512x256, .f32⟩
  | 45 => ⟨S10x256, .f32⟩
  | 46 => ⟨S1x256, .f32⟩
  | 47 => ⟨S10x256, .f32⟩
  | 48 => ⟨S10x256, .f32⟩
  | 49 => ⟨S10x256, .f32⟩
  | 50 => ⟨S_, .f32⟩
  | 51 => ⟨S10, .f32⟩
  | 52 => ⟨S10x1, .f32⟩
  | 53 => ⟨S10x1, .f32⟩
  | 54 => ⟨S_, .f32⟩
  | 55 => ⟨S10x1, .f32⟩
  | 56 => ⟨S10x1, .f32⟩
  | 57 => ⟨S10x256, .f32⟩
  | 58 => ⟨S10x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call0_v0 : Ref sig .tc := ⟨.hbm, 59, rfl⟩
abbrev main_call0_cst : Ref sig .tc := ⟨.hbm, 60, rfl⟩
abbrev main_call0_v1 : Ref sig .tc := ⟨.hbm, 61, rfl⟩
abbrev main_call0_v2 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_8 : Ref sig .tc := ⟨.hbm, 69, rfl⟩
abbrev main_v45 : Ref sig .tc := ⟨.hbm, 70, rfl⟩
abbrev main_v46 : Ref sig .tc := ⟨.hbm, 71, rfl⟩
abbrev main_c_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_c_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_c_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_16 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_call1_v0 : Ref sig .tc := ⟨.hbm, 118, rfl⟩
abbrev main_call1_cst : Ref sig .tc := ⟨.hbm, 119, rfl⟩
abbrev main_call1_v1 : Ref sig .tc := ⟨.hbm, 120, rfl⟩
abbrev main_call1_v2 : Ref sig .tc := ⟨.hbm, 121, rfl⟩
abbrev main_v85 : Ref sig .tc := ⟨.hbm, 122, rfl⟩
abbrev main_cst_17 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_c_18 : Ref sig .tc := ⟨.hbm, 128, rfl⟩
abbrev main_v90 : Ref sig .tc := ⟨.hbm, 129, rfl⟩
abbrev main_v91 : Ref sig .tc := ⟨.hbm, 130, rfl⟩
abbrev main_c_19 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_c_20 : Ref sig .tc := ⟨.hbm, 137, rfl⟩
abbrev main_v97 : Ref sig .tc := ⟨.hbm, 138, rfl⟩
abbrev main_v98 : Ref sig .tc := ⟨.hbm, 139, rfl⟩
abbrev main_c_21 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_c_22 : Ref sig .tc := ⟨.hbm, 146, rfl⟩
abbrev main_v104 : Ref sig .tc := ⟨.hbm, 147, rfl⟩
abbrev main_v105 : Ref sig .tc := ⟨.hbm, 148, rfl⟩
abbrev main_c_23 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_c_24 : Ref sig .tc := ⟨.hbm, 155, rfl⟩
abbrev main_v111 : Ref sig .tc := ⟨.hbm, 156, rfl⟩
abbrev main_v112 : Ref sig .tc := ⟨.hbm, 157, rfl⟩
abbrev main_c_25 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_26 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_call2_v0 : Ref sig .tc := ⟨.hbm, 177, rfl⟩
abbrev main_call2_cst : Ref sig .tc := ⟨.hbm, 178, rfl⟩
abbrev main_call2_v1 : Ref sig .tc := ⟨.hbm, 179, rfl⟩
abbrev main_call2_v2 : Ref sig .tc := ⟨.hbm, 180, rfl⟩
abbrev main_v130 : Ref sig .tc := ⟨.hbm, 181, rfl⟩
abbrev main_cst_27 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  concatenates_S8192x32x256_S8192x32x256_S8192x32x512_d2 : Shape.Concatenates [S8192x32x256, S8192x32x256] S8192x32x512 2
  bcast_S256_S1x1x256_2 : S256.BroadcastsInDim S1x1x256 (![2] : Fin 1 → Fin S1x1x256.rank)
  bcast_S1x1x256_S8192x32x256_0_1_2 : S1x1x256.BroadcastsInDim S8192x32x256 (![0, 1, 2] : Fin 3 → Fin S8192x32x256.rank)
  reducesTo_S8192x32x256_S8192x256_d1 : S8192x32x256.ReducesTo [1] S8192x256
  h_S_ : 0 < S_.numel
  concatenates_S8192x256_S8192x256_S8192x512_d1 : Shape.Concatenates [S8192x256, S8192x256] S8192x512 1
  transposes_S256x512_S512x256_1_0 : S256x512.Transposes [1, 0] S512x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  reducesTo_S8192x256_S8192_d1 : S8192x256.ReducesTo [1] S8192
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S_S10 : S_.BroadcastsInDim S10 (![] : Fin 0 → Fin S10.rank)
  bcast_S10_S10x1_0 : S10.BroadcastsInDim S10x1 (![0] : Fin 1 → Fin S10x1.rank)
  bcast_S_S10x32 : S_.BroadcastsInDim S10x32 (![] : Fin 0 → Fin S10x32.rank)
  bcast_S10x32_S10x32x1_0_1 : S10x32.BroadcastsInDim S10x32x1 (![0, 1] : Fin 2 → Fin S10x32x1.rank)
  concatenates_S10x32x256_S10x32x256_S10x32x512_d2 : Shape.Concatenates [S10x32x256, S10x32x256] S10x32x512 2
  bcast_S1x1x256_S10x32x256_0_1_2 : S1x1x256.BroadcastsInDim S10x32x256 (![0, 1, 2] : Fin 3 → Fin S10x32x256.rank)
  reducesTo_S10x32x256_S10x256_d1 : S10x32x256.ReducesTo [1] S10x256
  concatenates_S10x256_S10x256_S10x512_d1 : Shape.Concatenates [S10x256, S10x256] S10x512 1
  bcast_S1x256_S10x256_0_1 : S1x256.BroadcastsInDim S10x256 (![0, 1] : Fin 2 → Fin S10x256.rank)
  reducesTo_S10x256_S10_d1 : S10x256.ReducesTo [1] S10
  bcast_S_S10x1 : S_.BroadcastsInDim S10x1 (![] : Fin 0 → Fin S10x1.rank)
  bcast_S10x1_S10x256_0_1 : S10x1.BroadcastsInDim S10x256 (![0, 1] : Fin 2 → Fin S10x256.rank)
  gather_S100000x256_S8192x1_S8192x256_1_0_n_n_0_1_1256_wf : GatherDims.WF S100000x256 S8192x1 S8192x256 [1] [0] [] [0] [] 1 ![1, 256]
  gather_S100000x32_S8192x1_S8192x32_1_0_n_n_0_1_132_wf : GatherDims.WF S100000x32 S8192x1 S8192x32 [1] [0] [] [0] [] 1 ![1, 32]
  gather_S100000x256_S8192x32x1_S8192x32x256_2_0_n_n_0_2_1256_wf : GatherDims.WF S100000x256 S8192x32x1 S8192x32x256 [2] [0] [] [0] [] 2 ![1, 256]
  dot_S8192x32x512_S256x512_S8192x32x256_2_1_01_0_n_n_wf : DotDims.WF S8192x32x512 S256x512 S8192x32x256 [2] [1] [0, 1] [0] [] []
  dot_S8192x512_S512x256_S8192x256_1_0_0_1_n_n_wf : DotDims.WF S8192x512 S512x256 S8192x256 [1] [0] [0] [1] [] []
  gather_S100000x256_S10x1_S10x256_1_0_n_n_0_1_1256_wf : GatherDims.WF S100000x256 S10x1 S10x256 [1] [0] [] [0] [] 1 ![1, 256]
  gather_S100000x32_S10x1_S10x32_1_0_n_n_0_1_132_wf : GatherDims.WF S100000x32 S10x1 S10x32 [1] [0] [] [0] [] 1 ![1, 32]
  gather_S100000x256_S10x32x1_S10x32x256_2_0_n_n_0_2_1256_wf : GatherDims.WF S100000x256 S10x32x1 S10x32x256 [2] [0] [] [0] [] 2 ![1, 256]
  dot_S10x32x512_S256x512_S10x32x256_2_1_01_0_n_n_wf : DotDims.WF S10x32x512 S256x512 S10x32x256 [2] [1] [0, 1] [0] [] []
  dot_S10x512_S512x256_S10x256_1_0_0_1_n_n_wf : DotDims.WF S10x512 S512x256 S10x256 [1] [0] [0] [1] [] []

variable [Facts₀]

def gather_S100000x256_S8192x1_S8192x256_1_0_n_n_0_1_1256 : GatherDims S100000x256 S8192x1 S8192x256 where
  offsetDims := [1]
  collapsedSliceDims := [0]
  operandBatchingDims := []
  startIndicesBatchingDims := []
  startIndexMap := [0]
  indexVectorDim := 1
  sliceSizes := ![1, 256]
  wf := gather_S100000x256_S8192x1_S8192x256_1_0_n_n_0_1_1256_wf
def gather_S100000x32_S8192x1_S8192x32_1_0_n_n_0_1_132 : GatherDims S100000x32 S8192x1 S8192x32 where
  offsetDims := [1]
  collapsedSliceDims := [0]
  operandBatchingDims := []
  startIndicesBatchingDims := []
  startIndexMap := [0]
  indexVectorDim := 1
  sliceSizes := ![1, 32]
  wf := gather_S100000x32_S8192x1_S8192x32_1_0_n_n_0_1_132_wf
def gather_S100000x256_S8192x32x1_S8192x32x256_2_0_n_n_0_2_1256 : GatherDims S100000x256 S8192x32x1 S8192x32x256 where
  offsetDims := [2]
  collapsedSliceDims := [0]
  operandBatchingDims := []
  startIndicesBatchingDims := []
  startIndexMap := [0]
  indexVectorDim := 2
  sliceSizes := ![1, 256]
  wf := gather_S100000x256_S8192x32x1_S8192x32x256_2_0_n_n_0_2_1256_wf
def dot_S8192x32x512_S256x512_S8192x32x256_2_1_01_0_n_n : DotDims S8192x32x512 S256x512 S8192x32x256 where
  lhsContracting := [2]
  rhsContracting := [1]
  lhsNonContracting := [0, 1]
  rhsNonContracting := [0]
  lhsBatch := []
  rhsBatch := []
  wf := dot_S8192x32x512_S256x512_S8192x32x256_2_1_01_0_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S100000x256_S10x1_S10x256_1_0_n_n_0_1_1256 : GatherDims S100000x256 S10x1 S10x256 where
  offsetDims := [1]
  collapsedSliceDims := [0]
  operandBatchingDims := []
  startIndicesBatchingDims := []
  startIndexMap := [0]
  indexVectorDim := 1
  sliceSizes := ![1, 256]
  wf := gather_S100000x256_S10x1_S10x256_1_0_n_n_0_1_1256_wf
def gather_S100000x32_S10x1_S10x32_1_0_n_n_0_1_132 : GatherDims S100000x32 S10x1 S10x32 where
  offsetDims := [1]
  collapsedSliceDims := [0]
  operandBatchingDims := []
  startIndicesBatchingDims := []
  startIndexMap := [0]
  indexVectorDim := 1
  sliceSizes := ![1, 32]
  wf := gather_S100000x32_S10x1_S10x32_1_0_n_n_0_1_132_wf
def gather_S100000x256_S10x32x1_S10x32x256_2_0_n_n_0_2_1256 : GatherDims S100000x256 S10x32x1 S10x32x256 where
  offsetDims := [2]
  collapsedSliceDims := [0]
  operandBatchingDims := []
  startIndicesBatchingDims := []
  startIndexMap := [0]
  indexVectorDim := 2
  sliceSizes := ![1, 256]
  wf := gather_S100000x256_S10x32x1_S10x32x256_2_0_n_n_0_2_1256_wf
def dot_S10x32x512_S256x512_S10x32x256_2_1_01_0_n_n : DotDims S10x32x512 S256x512 S10x32x256 where
  lhsContracting := [2]
  rhsContracting := [1]
  lhsNonContracting := [0, 1]
  rhsNonContracting := [0]
  lhsBatch := []
  rhsBatch := []
  wf := dot_S10x32x512_S256x512_S10x32x256_2_1_01_0_n_n_wf
def dot_S10x512_S512x256_S10x256_1_0_0_1_n_n : DotDims S10x512 S512x256 S10x256 where
  lhsContracting := [1]
  rhsContracting := [0]
  lhsNonContracting := [0]
  rhsNonContracting := [1]
  lhsBatch := []
  rhsBatch := []
  wf := dot_S10x512_S512x256_S10x256_1_0_0_1_n_n_wf

class Facts : Prop extends Facts₀ where

variable [Facts]
-- ==== Proof.AroundIdeal.lean ====
/-
  The frame of `KernelIdeal`, at any float instance: every weakly fair execution of @main terminates, nothing faults, the
  ten argument arrays end as they were launched — and, beyond that, what the run leaves in the result arrays.

  @main is 48 host lines (format changes, two transposes, two reshapes, the three node arrays joined and padded
  with zeros to 16512 words, the words wrapped, four row gathers), one region of 129 grid points, and three
  slices of the region's [16512, 256] result. At point `t` the region stages rows `128 t … 128 t + 127` of the two
  gathered neighbour arrays and of the gathered node rows, the two weight matrices and the two bias rows whole
  (fetched at the first point, kept afterwards), runs the body and writes its [128, 256] block back to rows
  `128 t …` of the result. The body loads its seven input blocks whole, stores ONE whole block — the payload
  `k0_pay1 (k0_pay2 …) (k0_pay3 …) k0_pay4` of the loads — and keeps nothing between points; so what the output's
  staging buffer holds after the body is a function of the seven input blocks alone (`blockOut`).
  The proof data below say exactly that, the body's triple is run symbolically, and the library's launch theorem
  for a region between host lines gives the run.
-/
import proofs.«111308_j49039936585979_2_alg».proof.Proof.Gen.KernelIdeal.Launch
import proofs.«111308_j49039936585979_2_alg».proof.Proof.Gen.KernelIdeal.Skeleton
import proofs.«111308_j49039936585979_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the 48 host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the three slices after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The slices touch unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the region's eight arrays (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host line before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg8`: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host line before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg9`: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or kept from the first
    point, for any proof data whose array is the region-entry contents and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The ten arguments are staged by no window and written by no host line: after the run each is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c)⟩) h

/-! ## The body's accesses -/

/-- The whole of a neighbour block, of a weight matrix, of a bias row, of a row block. -/
abbrev rA : Rect S128x32x256 := Rect.unit (s := S128x32x256) ![0, 0, 0] S128x32x256.size inb_S128x32x256_S128x32x256_0_0_0
abbrev rW : Rect S512x256 := Rect.unit (s := S512x256) ![0, 0] S512x256.size inb_S512x256_S512x256_0_0
abbrev rB : Rect S1x256 := Rect.unit (s := S1x256) ![0, 0] S1x256.size inb_S1x256_S1x256_0_0
abbrev rM : Rect S128x256 := Rect.unit (s := S128x256) ![0, 0] S128x256.size inb_S128x256_S128x256_0_0

/-! ## What the body leaves in the output window's buffer -/

/-- The output block after the body, from the seven input blocks: its one whole-block store of the payload. -/
def blockOut (x0 : Vec F S128x32x256 .bf16) (x1 : Vec F S128x32x256 .bf16) (x2 : Vec F S128x256 .bf16) (x3 : Vec F S512x256 .bf16) (x4 : Vec F S1x256 .f32) (x5 : Vec F S512x256 .bf16) (x6 : Vec F S1x256 .f32) : Vec F S128x256 .f32 :=
  View.canon [⟨rM, k0_pay1 (k0_pay2 (View.ld x0 rA) (View.ld x1 rA) (View.ld x3 rW) (View.ld x4 rB) (View.ld x2 rM) (View.ld x5 rW) (View.ld x6 rB)) (k0_pay3 (View.ld x0 rA) (View.ld x1 rA) (View.ld x3 rW) (View.ld x4 rB) (View.ld x2 rM) (View.ld x5 rW) (View.ld x6 rB)) (k0_pay4 (F := F))⟩]

/-- The one store covers the block. -/
theorem cover_out (p0 : Vec F S128x256 .f32) (y : S128x256.Idx) :
    ∃ pc ∈ ([⟨rM, p0⟩] : List (View.Piece (Elt F) S128x256 .f32)), y ∈ pc.1.set :=
  View.cover_of_tiled [⟨rM, p0⟩] S128x256.size (by rfl) y

/-! ## The body's triple -/

set_option maxHeartbeats 4000000 in
/-- The body on whole staging memrefs, the inputs' at contents `x0 … x6` and the output's at anything, runs to the
    continuation holding the inputs' as they were and the output's at `blockOut` of them. -/
theorem sound_kernel (c : Dev nD) (E : Set ℕ) (i : grid0.Coords) (arg1 : Memref sig .tc .vmem S128x32x256 .bf16) (harg1 : arg1.IsWhole) (arg2 : Memref sig .tc .vmem S128x32x256 .bf16) (harg2 : arg2.IsWhole) (arg3 : Memref sig .tc .vmem S128x256 .bf16) (harg3 : arg3.IsWhole) (arg4 : Memref sig .tc .vmem S512x256 .bf16) (harg4 : arg4.IsWhole) (arg5 : Memref sig .tc .vmem S1x256 .f32) (harg5 : arg5.IsWhole) (arg6 : Memref sig .tc .vmem S512x256 .bf16) (harg6 : arg6.IsWhole) (arg7 : Memref sig .tc .vmem S1x256 .f32) (harg7 : arg7.IsWhole) (arg8 : Memref sig .tc .vmem S128x256 .f32) (harg8 : arg8.IsWhole)
    (x0 : Vec F S128x32x256 .bf16) (x1 : Vec F S128x32x256 .bf16) (x2 : Vec F S128x256 .bf16) (x3 : Vec F S512x256 .bf16) (x4 : Vec F S1x256 .f32) (x5 : Vec F S512x256 .bf16) (x6 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (blockOut x0 x1 x2 x3 x4 x5 x6)) -∗ K ⟨⟩))
      ⊢ wp frame (wpE (defs₀ (F := F)) Variants.none c none) E (cc0__aggregate_kernel i arg1 harg1 arg2 harg2 arg3 harg3 arg4 harg4 arg5 harg5 arg6 harg6 arg7 harg7 arg8 harg8) K := by
  simp only [cc0__aggregate_kernel_eq_skeleton]; unfold cc0__aggregate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

/-! ## The pipeline's proof data -/

/-- The proof data of the one pipeline on core `c`: the arrays as the region finds them; after the body at point `t`
    each input's buffer at its block and the output's at `blockOut` of the input blocks; nothing else kept. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blockOut (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_out (c : Dev nD) (t : Fin cfg0.N) : (dats m 0 c).after 7 t = blockOut (iblk m c 0 t) (iblk m c 1 t) (iblk m c 2 t) (iblk m c 3 t) (iblk m c 4 t) (iblk m c 5 t) (iblk m c 6 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has the region's eight arrays at what the
    proof data compute and every other unscoped buffer as the three slices leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, nothing faults, the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (run_main m ρ)

end Cert.KernelIdeal.Around

end
-- ==== Proof.AroundBits.lean ====
/-
  The frame of `Kernel`, at any float instance: every weakly fair execution of @main terminates, nothing faults, the
  ten argument arrays end as they were launched — and, beyond that, what the run leaves in the result arrays.

  @main is 48 host lines (format changes, two transposes, two reshapes, the three node arrays joined and padded
  with zeros to 16512 words, the words wrapped, four row gathers), one region of 129 grid points, and three
  slices of the region's [16512, 256] result. At point `t` the region stages rows `128 t … 128 t + 127` of the two
  gathered neighbour arrays and of the gathered node rows, the two weight matrices and the two bias rows whole
  (fetched at the first point, kept afterwards), runs the body and writes its [128, 256] block back to rows
  `128 t …` of the result. The body loads its seven input blocks whole, stores ONE whole block — the payload
  `k0_pay1 (k0_pay2 …) (k0_pay3 …) k0_pay4` of the loads — and keeps nothing between points; so what the output's
  staging buffer holds after the body is a function of the seven input blocks alone (`blockOut`).
  The proof data below say exactly that, the body's triple is run symbolically, and the library's launch theorem
  for a region between host lines gives the run.
-/
import proofs.«111308_j49039936585979_2_alg».proof.Proof.Gen.Kernel.Launch
import proofs.«111308_j49039936585979_2_alg».proof.Proof.Gen.Kernel.Skeleton
import proofs.«111308_j49039936585979_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the 48 host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the three slices after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The slices touch unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the region's eight arrays (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host line before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg8`: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host line before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg9`: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or kept from the first
    point, for any proof data whose array is the region-entry contents and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The ten arguments are staged by no window and written by no host line: after the run each is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c)⟩) h

/-! ## The body's accesses -/

/-- The whole of a neighbour block, of a weight matrix, of a bias row, of a row block. -/
abbrev rA : Rect S128x32x256 := Rect.unit (s := S128x32x256) ![0, 0, 0] S128x32x256.size inb_S128x32x256_S128x32x256_0_0_0
abbrev rW : Rect S512x256 := Rect.unit (s := S512x256) ![0, 0] S512x256.size inb_S512x256_S512x256_0_0
abbrev rB : Rect S1x256 := Rect.unit (s := S1x256) ![0, 0] S1x256.size inb_S1x256_S1x256_0_0
abbrev rM : Rect S128x256 := Rect.unit (s := S128x256) ![0, 0] S128x256.size inb_S128x256_S128x256_0_0

/-! ## What the body leaves in the output window's buffer -/

/-- The output block after the body, from the seven input blocks: its one whole-block store of the payload. -/
def blockOut (x0 : Vec F S128x32x256 .bf16) (x1 : Vec F S128x32x256 .bf16) (x2 : Vec F S128x256 .bf16) (x3 : Vec F S512x256 .bf16) (x4 : Vec F S1x256 .f32) (x5 : Vec F S512x256 .bf16) (x6 : Vec F S1x256 .f32) : Vec F S128x256 .f32 :=
  View.canon [⟨rM, k0_pay1 (k0_pay2 (View.ld x0 rA) (View.ld x1 rA) (View.ld x3 rW) (View.ld x4 rB) (View.ld x2 rM) (View.ld x5 rW) (View.ld x6 rB)) (k0_pay3 (View.ld x0 rA) (View.ld x1 rA) (View.ld x3 rW) (View.ld x4 rB) (View.ld x2 rM) (View.ld x5 rW) (View.ld x6 rB)) (k0_pay4 (F := F))⟩]

/-- The one store covers the block. -/
theorem cover_out (p0 : Vec F S128x256 .f32) (y : S128x256.Idx) :
    ∃ pc ∈ ([⟨rM, p0⟩] : List (View.Piece (Elt F) S128x256 .f32)), y ∈ pc.1.set :=
  View.cover_of_tiled [⟨rM, p0⟩] S128x256.size (by rfl) y

/-! ## The body's triple -/

set_option maxHeartbeats 4000000 in
/-- The body on whole staging memrefs, the inputs' at contents `x0 … x6` and the output's at anything, runs to the
    continuation holding the inputs' as they were and the output's at `blockOut` of them. -/
theorem sound_kernel (c : Dev nD) (E : Set ℕ) (i : grid0.Coords) (arg1 : Memref sig .tc .vmem S128x32x256 .bf16) (harg1 : arg1.IsWhole) (arg2 : Memref sig .tc .vmem S128x32x256 .bf16) (harg2 : arg2.IsWhole) (arg3 : Memref sig .tc .vmem S128x256 .bf16) (harg3 : arg3.IsWhole) (arg4 : Memref sig .tc .vmem S512x256 .bf16) (harg4 : arg4.IsWhole) (arg5 : Memref sig .tc .vmem S1x256 .f32) (harg5 : arg5.IsWhole) (arg6 : Memref sig .tc .vmem S512x256 .bf16) (harg6 : arg6.IsWhole) (arg7 : Memref sig .tc .vmem S1x256 .f32) (harg7 : arg7.IsWhole) (arg8 : Memref sig .tc .vmem S128x256 .f32) (harg8 : arg8.IsWhole)
    (x0 : Vec F S128x32x256 .bf16) (x1 : Vec F S128x32x256 .bf16) (x2 : Vec F S128x256 .bf16) (x3 : Vec F S512x256 .bf16) (x4 : Vec F S1x256 .f32) (x5 : Vec F S512x256 .bf16) (x6 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (blockOut x0 x1 x2 x3 x4 x5 x6)) -∗ K ⟨⟩))
      ⊢ wp frame (wpE (defs₀ (F := F)) Variants.none c none) E (cc0__aggregate_kernel i arg1 harg1 arg2 harg2 arg3 harg3 arg4 harg4 arg5 harg5 arg6 harg6 arg7 harg7 arg8 harg8) K := by
  simp only [cc0__aggregate_kernel_eq_skeleton]; unfold cc0__aggregate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

/-! ## The pipeline's proof data -/

/-- The proof data of the one pipeline on core `c`: the arrays as the region finds them; after the body at point `t`
    each input's buffer at its block and the output's at `blockOut` of the input blocks; nothing else kept. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blockOut (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_out (c : Dev nD) (t : Fin cfg0.N) : (dats m 0 c).after 7 t = blockOut (iblk m c 0 t) (iblk m c 1 t) (iblk m c 2 t) (iblk m c 3 t) (iblk m c 4 t) (iblk m c 5 t) (iblk m c 6 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has the region's eight arrays at what the
    proof data compute and every other unscoped buffer as the three slices leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, nothing faults, the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (run_main m ρ)

end Cert.Kernel.Around

end
-- ==== Proof.SliceRows.lean ====
/-
  The three slices taken of the region's [16512, 256] result, read at an index: rows 0–8191, rows 8192–16383 and rows
  16384–16393 of the source, every column kept.
-/
import proofs.«111308_j49039936585979_2_alg».proof.KernelIdeal
import Idealize.ShloMosaic.Lib.ValueIdx
import Idealize.ShloMosaic.Lib.Pipeline.Value
import Idealize.ShloMosaic.Lib.ValueLayout

noncomputable section

namespace Cert.KernelIdeal.SliceRows

open Idealize.ShloMosaic Idealize.ShloMosaic.ValueIdx
open Cert.KernelIdeal Cert.KernelIdeal.Facts₀

variable [Cert.KernelIdeal.Facts] {F : FTy → Type} [FloatOps F]

/-- Rows `0 … 8191`: row `r` of the slice is row `r` of the source. -/
theorem slice_lo (y : (⟨S16512x256, .f32⟩ : BufTy).Contents (Elt F)) (r : Fin 8192) (o : Fin 256) :
    extractStridedSlice S8192x256 ![0, 0] y slices_S16512x256_S8192x256_0_0 (ValueIdx.ix2 r o)
      = y (ValueIdx.ix2 (⟨r.val, by omega⟩ : Fin 16512) o) :=
  slice2_axis0_apply 0 y slices_S16512x256_S8192x256_0_0 r o _ (Nat.zero_add _).symm

/-- Rows `8192 … 16383`: row `r` of the slice is row `8192 + r` of the source. -/
theorem slice_mid (y : (⟨S16512x256, .f32⟩ : BufTy).Contents (Elt F)) (r : Fin 8192) (o : Fin 256) :
    extractStridedSlice S8192x256 ![8192, 0] y slices_S16512x256_S8192x256_8192_0 (ValueIdx.ix2 r o)
      = y (ValueIdx.ix2 (⟨8192 + r.val, by omega⟩ : Fin 16512) o) :=
  slice2_axis0_apply 8192 y slices_S16512x256_S8192x256_8192_0 r o _ rfl

/-- Rows `16384 … 16393`: row `r` of the slice is row `16384 + r` of the source. -/
theorem slice_hi (y : (⟨S16512x256, .f32⟩ : BufTy).Contents (Elt F)) (r : Fin 10) (o : Fin 256) :
    extractStridedSlice S10x256 ![16384, 0] y slices_S16512x256_S10x256_16384_0 (ValueIdx.ix2 r o)
      = y (ValueIdx.ix2 (⟨16384 + r.val, by omega⟩ : Fin 16512) o) :=
  slice2_axis0_apply 16384 y slices_S16512x256_S10x256_16384_0 r o _ rfl

end Cert.KernelIdeal.SliceRows

end
-- ==== Proof.Spec.lean ====
/-
  The mathematics both programs compute for ONE node, as plain functions on the extended reals.

  A node word `x` selects a table row: a negative word wraps by the table length (`wrap`), the result is read signed and
  clamped into the table (`rowIx`). A node's own features are that row of the first table; its 32 neighbours are the
  words of that row of the adjacency table, each selecting a row of both feature tables the same way.

  Given the rows — the neighbours' rows `n0 d`, `n1 d` of the two tables and the node's own row — the first layer maps a
  512-vector (a neighbour's two rows side by side) through `w1`. The reference applies it to every neighbour, adds the
  bias and sums the 32 results (`aggRef`); the kernel sums the neighbours' rows first, applies the layer once and adds
  the bias 32 times over (`aggKer`). The second layer (the node's own row beside the aggregate, through `w2`, plus
  its bias) and the division by the Euclidean norm, floored at a small constant, are the same on both sides (`finish`).
-/
import Idealize.ShloMosaic.PureOps.Ideal
import Idealize.ShloMosaic.Lib.ValueIdx

noncomputable section

open scoped BigOperators

namespace Cert.Agg

open Idealize.ShloMosaic Idealize.ShloMosaic.ValueIdx

/-! ## One node, from its rows -/

/-- Two 256-vectors side by side. -/
def cat (u v : Fin 256 → EReal) (k : Fin 512) : EReal :=
  if h : k.val < 256 then u ⟨k.val, h⟩ else v ⟨k.val - 256, by omega⟩

/-- A 512-vector through a weight matrix of 256 output rows (no bias). -/
def layer (w : Fin 256 → Fin 512 → EReal) (row : Fin 512 → EReal) (o : Fin 256) : EReal :=
  ∑ k : Fin 512, row k * w o k

/-- The reference's aggregate: the first layer with its bias on every neighbour, summed over the neighbours. -/
def aggRef (n0 n1 : Fin 32 → Fin 256 → EReal) (w1 : Fin 256 → Fin 512 → EReal) (b1 : Fin 256 → EReal)
    (o : Fin 256) : EReal :=
  ∑ d : Fin 32, (layer w1 (cat (n0 d) (n1 d)) o + b1 o)

/-- The kernel's aggregate: the first layer once on the summed rows, plus 32 times the bias. -/
def aggKer (n0 n1 : Fin 32 → Fin 256 → EReal) (w1 : Fin 256 → Fin 512 → EReal) (b1 : Fin 256 → EReal)
    (o : Fin 256) : EReal :=
  layer w1 (cat (fun f => ∑ d : Fin 32, n0 d f) (fun f => ∑ d : Fin 32, n1 d f)) o
    + Ideal.ofBits .f32 0x42000000#32 * b1 o

/-- A row divided by its Euclidean norm, the norm floored at the constant both programs use. -/
def normalize (v : Fin 256 → EReal) (o : Fin 256) : EReal :=
  Ideal.div (v o) (max (Ideal.sqrt (∑ o' : Fin 256, v o' * v o')) (Ideal.ofBits .f32 0x2B8CBCCC#32))

/-- The second layer on the node's own row beside an aggregate, normalized. -/
def finish (own : Fin 256 → EReal) (w2 : Fin 256 → Fin 512 → EReal) (b2 : Fin 256 → EReal)
    (agg : Fin 256 → EReal) (o : Fin 256) : EReal :=
  normalize (fun o' => layer w2 (cat own agg) o' + b2 o') o

/-- The reference's output row of a node, from its rows. -/
def refRow (n0 n1 : Fin 32 → Fin 256 → EReal) (own : Fin 256 → EReal) (w1 w2 : Fin 256 → Fin 512 → EReal)
    (b1 b2 : Fin 256 → EReal) : Fin 256 → EReal :=
  finish own w2 b2 (aggRef n0 n1 w1 b1)

/-- The kernel's output row of a node, from its rows. -/
def kerRow (n0 n1 : Fin 32 → Fin 256 → EReal) (own : Fin 256 → EReal) (w1 w2 : Fin 256 → Fin 512 → EReal)
    (b1 b2 : Fin 256 → EReal) : Fin 256 → EReal :=
  finish own w2 b2 (aggKer n0 n1 w1 b1)

/-! ## The rows a node word selects -/

/-- A feature table: 100000 rows of 256 extended reals. -/
abbrev Feat := (⟨2, ![100000, 256]⟩ : Shape).Idx → EReal
/-- A weight matrix: 256 output rows of 512 input columns. -/
abbrev Wt := (⟨2, ![256, 512]⟩ : Shape).Idx → EReal
/-- A bias vector. -/
abbrev Bias := (⟨1, ![256]⟩ : Shape).Idx → EReal
/-- The adjacency table: 32 neighbour words per node. -/
abbrev Adj := (⟨2, ![100000, 32]⟩ : Shape).Idx → BitVec 32

/-- A negative index word counts from the end of the table. -/
def wrap (x : BitVec 32) : BitVec 32 := Scalar.select (IntOp.cmpi .slt x 0#32) (IntOp.addi x 100000#32) x

/-- The table row a word selects: read signed, clamped into `[0, 99999]`. -/
def rowIx (x : BitVec 32) : Fin 100000 := ⟨min x.toInt.toNat (100000 - 1), by omega⟩

/-- The row an index word selects after wrapping. -/
def pick (x : BitVec 32) : Fin 100000 := rowIx (wrap x)

section
variable (X0 X1 : Feat) (W1 W2 : Wt) (b1 b2 : Bias) (A : Adj) (x : BitVec 32)

/-- The table row of the node's `d`-th neighbour. -/
def nbr (d : Fin 32) : Fin 100000 := pick (A (ix2 (pick x) d))

/-- The reference's output row for the node word `x`. -/
def outRef : Fin 256 → EReal :=
  refRow (fun d f => X0 (ix2 (nbr A x d) f)) (fun d f => X1 (ix2 (nbr A x d) f)) (fun f => X0 (ix2 (pick x) f))
    (fun o k => W1 (ix2 o k)) (fun o k => W2 (ix2 o k)) (fun o => b1 (ix1 o)) (fun o => b2 (ix1 o))

/-- The kernel's output row for the node word `x`. -/
def outKer : Fin 256 → EReal :=
  kerRow (fun d f => X0 (ix2 (nbr A x d) f)) (fun d f => X1 (ix2 (nbr A x d) f)) (fun f => X0 (ix2 (pick x) f))
    (fun o k => W1 (ix2 o k)) (fun o k => W2 (ix2 o k)) (fun o => b1 (ix1 o)) (fun o => b2 (ix1 o))

end

end Cert.Agg

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.LibRowReads.lean ====
/-
  Three reads of a dense layer's vector operations at one entry, on the extended reals, for any extents.

  * `bias_row_apply`: a `[1, b]` bias row, recast to its own shape and spread over `a` rows, reads at `(r, e)` its one
    row at `e`.
  * `product_apply`: a plain `[M, K] × [K, N]` matrix product into the zero accumulator whose right operand is a weight
    block recast to its own shape reads at `(r, e)` the sum `∑ k, X[r, k] · W[k, e]` (any dimension record equal to
    the plain one, any operand formats: a change of float format is the identity here).
  * `two_columns_apply`: two `[a, 1]` columns set side by side into `[a, 2]` read at `(r, k)` the first column's row `r`
    for `k = 0` and the second's for `k = 1`.
  Built on this directory's `matmul_plain_zero_apply` (LibPlainMatmul.lean).
-/
import proofs.«111308_j49039936585979_2_alg».proof.Proof.LibPlainMatmul
import Idealize.ShloMosaic.Lib.Pipeline.Value
import Idealize.ShloMosaic.Lib.ValueLayout

noncomputable section

open scoped BigOperators

namespace Cert.LibRowReads

open Idealize.ShloMosaic Idealize.ShloMosaic.ValueIdx

/-- A `[1, b]` bias row, recast to its own shape and spread over `a` rows, reads its one row. -/
theorem bias_row_apply {a b : ℕ} (v : (⟨2, ![1, b]⟩ : Shape).Idx → EReal) (h1 : (⟨2, ![1, b]⟩ : Shape).ShapeCasts ⟨2, ![1, b]⟩)
    (h2 : (⟨2, ![1, b]⟩ : Shape).Broadcasts ⟨2, ![a, b]⟩) (r : Fin a) (e : Fin b) :
    broadcastTo ⟨2, ![a, b]⟩ (shapeCast ⟨2, ![1, b]⟩ v h1) h2 (ix2 r e) = v (ix2 (0 : Fin 1) e) :=
  (broadcastTo_1b_ab_apply _ h2 r e).trans (congrFun (shapeCast_self v h1) _)

/-- A plain product of an `[M, K]` block with a `[K, N]` weight block (recast to its own shape) into the zero
    accumulator: entry `(r, e)` is `∑ k, X[r, k] · W[k, e]`. -/
theorem product_apply {M K N : ℕ} {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (h : (⟨2, ![K, N]⟩ : Shape).ShapeCasts ⟨2, ![K, N]⟩) (r : Fin M) (e : Fin N) :
    FloatOps.matmul d none X (shapeCast ⟨2, ![K, N]⟩ W h) (constant ⟨2, ![M, N]⟩ .f32 0x00000000#32) (ix2 r e)
      = ∑ k : Fin K, X (ix2 r k) * W (ix2 k e) := by
  rw [shapeCast_self W h]
  exact matmul_plain_zero_apply d hd none X W r e

/-- Two `[a, 1]` columns set side by side: entry `(r, k)` of the `[a, 2]` result is the first column's entry of row `r`
    for `k = 0` and the second's for `k = 1`. -/
theorem two_columns_apply {a : ℕ} (X Y : (⟨2, ![a, 1]⟩ : Shape).Idx → EReal)
    (h : Shape.Concatenates [(⟨2, ![a, 1]⟩ : Shape), (⟨2, ![a, 1]⟩ : Shape)] (⟨2, ![a, 2]⟩ : Shape) (1 : Fin 2)) (r : Fin a) (k : Fin 2) :
    concatenate (⟨2, ![a, 2]⟩ : Shape) (1 : Fin 2) [⟨(⟨2, ![a, 1]⟩ : Shape), X⟩, ⟨(⟨2, ![a, 1]⟩ : Shape), Y⟩] h (ix2 r k)
      = if k.val = 0 then X (ix2 r (0 : Fin 1)) else Y (ix2 r (0 : Fin 1)) := by
  match k with
  | ⟨0, _⟩ =>
    rw [if_pos rfl]
    exact concatenate_pair_apply_left (1 : Fin 2) X Y h (ix2 r (⟨0, by decide⟩ : Fin 2)) rfl (ix2 r (0 : Fin 1))
      (fun b => match b with | ⟨0, _⟩ => rfl | ⟨1, _⟩ => rfl)
  | ⟨1, _⟩ =>
    rw [if_neg Nat.one_ne_zero]
    exact concatenate_pair_apply_right (1 : Fin 2) X Y h (ix2 r (⟨1, by decide⟩ : Fin 2)) rfl rfl (ix2 r (0 : Fin 1))
      (fun b hb => match b, hb with | ⟨0, _⟩, _ => rfl | ⟨1, _⟩, hb => absurd rfl hb) rfl

end Cert.LibRowReads

end
-- ==== Proof.BlockRow.lean ====
/-
  The kernel body's arithmetic at one entry, on the extended reals.

  The body reads seven blocks: the 32 neighbours' rows of both feature tables for 128 nodes (two [128, 32, 256]
  blocks), the nodes' own rows ([128, 256]), the two weight matrices transposed ([512, 256] each) and the two bias
  rows ([1, 256] each). It sums each node's neighbour rows over the neighbours, sets the two sums side by side, maps
  them through the first weight matrix and adds 32 times the first bias; sets the node's own row beside that
  aggregate, maps through the second weight matrix and adds the second bias; and divides each row by its Euclidean
  norm, floored at a small constant. On the extended reals a change of float format is the identity, so entry
  (p, q) of the result is exactly the specification's kernel row of node p at q.

  The lemmas go bottom-up, one per operation that is not pointwise, each over variables at explicit coordinates:
  the sum over the neighbours, two row blocks side by side, the row value before the division, the row's norm,
  and the division.
-/
import proofs.«111308_j49039936585979_2_alg».proof.Proof.Gen.KernelIdeal.Skeleton
import proofs.«111308_j49039936585979_2_alg».proof.Proof.Spec
import proofs.«111308_j49039936585979_2_alg».proof.Proof.LibPlainMatmul
import proofs.«111308_j49039936585979_2_alg».proof.Proof.LibKeepdims
import proofs.«111308_j49039936585979_2_alg».proof.Proof.LibRowReads
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockRow

open Idealize.ShloMosaic Idealize.ShloMosaic.ValueIdx Cert.KernelIdeal

/-! ## The operations that are not pointwise, read at an entry -/

/-- The sum over the 32 neighbours: a float sum over axis 1 of a [128, 32, 256] block reads, at (p, f), the sum over
    the neighbours d of the block at (p, d, f). -/
theorem laneSum_apply (x : FVec Ideal S128x32x256 .f32) (h : S128x32x256.Reduces [1] S128x256)
    (hφ : FKind.Formats .f32) (hacc : (0x00000000#32 : BitVec 32) = FKind.add.neutral .f32 hφ)
    (p : Fin 128) (f : Fin 256) :
    multiReduction (F := Ideal) .add [1] S128x256 x 0x00000000#32 h hφ hacc (ix2 p f) = ∑ d : Fin 32, x (ix3 p d f) := by
  refine (Ideal.multiReduction_add_single x _ h hφ hacc (ix2 p f)).trans ?_
  exact Finset.sum_congr rfl fun d _ => congrArg x (funext fun a => Fin.ext (by
    match a with
    | ⟨0, _⟩ => rfl
    | ⟨1, _⟩ => rfl
    | ⟨2, _⟩ => rfl))

/-- Two [128, 256] blocks side by side: row p of the [128, 512] result is the two rows side by side. -/
theorem sideBySide_apply (x y : S128x256.Idx → EReal) (h : Shape.Concatenates [S128x256, S128x256] S128x512 1)
    (p : Fin 128) (k : Fin 512) :
    concatenate S128x512 1 [⟨S128x256, x⟩, ⟨S128x256, y⟩] h (ix2 p k)
      = Cert.Agg.cat (fun f => x (ix2 p f)) (fun f => y (ix2 p f)) k := by
  unfold Cert.Agg.cat
  split
  · next hk =>
    exact concatenate_pair_apply_left (1 : Fin 2) x y h (ix2 p k) rfl (ix2 p (⟨k.val, hk⟩ : Fin 256))
      (fun b => match b with | ⟨0, _⟩ => rfl | ⟨1, _⟩ => rfl)
  · next hk =>
    exact concatenate_pair_apply_right (1 : Fin 2) x y h (ix2 p k) rfl rfl (ix2 p (⟨k.val - 256, by omega⟩ : Fin 256))
      (fun b hb => match b, hb with | ⟨0, _⟩, _ => rfl | ⟨1, _⟩, hb => absurd rfl hb)
      (by show (k.val - 256) + 256 = k.val; omega)

/-- A neighbour block as the body reads it (recast to its own shape, widened to f32) summed over the neighbours. -/
theorem nbrSum_apply (v : Vec Ideal S128x32x256 .bf16) (h1 : S128x32x256.ShapeCasts S128x32x256)
    (hlt : FTy.bits .bf16 < FTy.bits .f32) (h : S128x32x256.Reduces [1] S128x256)
    (hφ : FKind.Formats .f32) (hacc : (0x00000000#32 : BitVec 32) = FKind.add.neutral .f32 hφ)
    (p : Fin 128) (f : Fin 256) :
    multiReduction (F := Ideal) .add [1] S128x256 (extf .f32 (shapeCast S128x32x256 v h1 : FVec Ideal S128x32x256 .bf16) hlt) 0x00000000#32 h hφ hacc (ix2 p f)
      = ∑ d : Fin 32, v (ix3 p d f) :=
  (laneSum_apply _ h hφ hacc p f).trans
    (Finset.sum_congr rfl fun d _ => congrFun (shapeCast_self v h1) (ix3 p d f))

/-- The printed product's dimension record is the plain [128, 512] × [512, 256] one. -/
theorem dot_eq_plain : dot_S128x512_S512x256_S128x256_1_0_0_1_n_n = DotDims.plain 128 512 256 := rfl

/-- A [128, 512] block, narrowed to bf16, times a transposed weight block (recast to its own shape), into the zero
    accumulator: entry (p, o) is the block's row p through the weight matrix's output row o. -/
theorem dense_apply (X : FVec Ideal S128x512 .f32) (W : Vec Ideal S512x256 .bf16) (hlt : FTy.bits .bf16 < FTy.bits .f32)
    (hs : S512x256.ShapeCasts S512x256) (p : Fin 128) (o : Fin 256) :
    matmul (F := Ideal) dot_S128x512_S512x256_S128x256_1_0_0_1_n_n none (truncf .bf16 X hlt) (shapeCast S512x256 W hs : FVec Ideal S512x256 .bf16)
        (constant S128x256 .f32 0x00000000#32) (ix2 p o)
      = Cert.Agg.layer (fun o k => W (ix2 k o)) (fun k => X (ix2 p k)) o :=
  Cert.LibRowReads.product_apply (φ₁ := .bf16) (φ₂ := .bf16) _ dot_eq_plain (truncf .bf16 X hlt) W hs p o

/-! ## The two layers -/

/-- The first layer as the body computes it — the two neighbour sums side by side through the first weight matrix,
    plus 32 times the first bias — is the specification's aggregate of the node's rows. -/
theorem firstLayer_apply (v0 v4 : Vec Ideal S128x32x256 .bf16) (W : Vec Ideal S512x256 .bf16) (b : Vec Ideal S1x256 .f32)
    (h1 : S128x32x256.ShapeCasts S128x32x256) (hlt : FTy.bits .bf16 < FTy.bits .f32) (h : S128x32x256.Reduces [1] S128x256)
    (hφ : FKind.Formats .f32) (hacc : (0x00000000#32 : BitVec 32) = FKind.add.neutral .f32 hφ)
    (hc : Shape.Concatenates [S128x256, S128x256] S128x512 1) (hs : S512x256.ShapeCasts S512x256)
    (hb1 : S1x256.ShapeCasts S1x256) (hb : S1x256.Broadcasts S128x256) (p : Fin 128) (o : Fin 256) :
    addf (F := Ideal)
        (matmul dot_S128x512_S512x256_S128x256_1_0_0_1_n_n none
          (truncf .bf16
            (concatenate S128x512 1
              [⟨S128x256, multiReduction .add [1] S128x256 (extf .f32 (shapeCast S128x32x256 v0 h1 : FVec Ideal S128x32x256 .bf16) hlt) 0x00000000#32 h hφ hacc⟩,
               ⟨S128x256, multiReduction .add [1] S128x256 (extf .f32 (shapeCast S128x32x256 v4 h1 : FVec Ideal S128x32x256 .bf16) hlt) 0x00000000#32 h hφ hacc⟩] hc) hlt)
          (shapeCast S512x256 W hs : FVec Ideal S512x256 .bf16) (constant S128x256 .f32 0x00000000#32))
        (broadcastTo S128x256 (mulf (broadcast S1x256 (Scalar.ofBits .f32 0x42000000#32)) (shapeCast S1x256 b hb1 : FVec Ideal S1x256 .f32)) hb) (ix2 p o)
      = Cert.Agg.aggKer (fun d f => v0 (ix3 p d f)) (fun d f => v4 (ix3 p d f)) (fun o k => W (ix2 k o))
          (fun o => b (ix2 (0 : Fin 1) o)) o := by
  refine (addf_apply _ _ _).trans ?_
  unfold Cert.Agg.aggKer
  refine congrArg₂ (· + ·) ?_ ?_
  · refine (dense_apply _ W hlt hs p o).trans ?_
    refine congrArg (fun r => Cert.Agg.layer (fun o k => W (ix2 k o)) r o) (funext fun k => ?_)
    refine (sideBySide_apply _ _ hc p k).trans ?_
    exact congrArg₂ (fun u w => Cert.Agg.cat u w k)
      (funext fun f => nbrSum_apply v0 h1 hlt h hφ hacc p f) (funext fun f => nbrSum_apply v4 h1 hlt h hφ hacc p f)
  · refine (broadcastTo_1b_ab_apply _ hb p o).trans ?_
    exact congrArg (fun t => Ideal.ofBits .f32 0x42000000#32 * t) (congrFun (shapeCast_self b hb1) (ix2 (0 : Fin 1) o))

/-- The second layer as the body computes it — the node's own row (recast, widened) beside an aggregate block,
    through the second weight matrix, plus the second bias. -/
theorem secondLayer_apply (own : Vec Ideal S128x256 .bf16) (agg : FVec Ideal S128x256 .f32) (W : Vec Ideal S512x256 .bf16)
    (b : Vec Ideal S1x256 .f32) (ho : S128x256.ShapeCasts S128x256) (hlt : FTy.bits .bf16 < FTy.bits .f32)
    (hc : Shape.Concatenates [S128x256, S128x256] S128x512 1) (hs : S512x256.ShapeCasts S512x256)
    (hb1 : S1x256.ShapeCasts S1x256) (hb : S1x256.Broadcasts S128x256) (p : Fin 128) (o : Fin 256) :
    addf (F := Ideal)
        (matmul dot_S128x512_S512x256_S128x256_1_0_0_1_n_n none
          (truncf .bf16
            (concatenate S128x512 1 [⟨S128x256, extf .f32 (shapeCast S128x256 own ho : FVec Ideal S128x256 .bf16) hlt⟩, ⟨S128x256, agg⟩] hc) hlt)
          (shapeCast S512x256 W hs : FVec Ideal S512x256 .bf16) (constant S128x256 .f32 0x00000000#32))
        (broadcastTo S128x256 (shapeCast S1x256 b hb1 : FVec Ideal S1x256 .f32) hb) (ix2 p o)
      = Cert.Agg.layer (fun o k => W (ix2 k o)) (Cert.Agg.cat (fun f => own (ix2 p f)) (fun f => agg (ix2 p f))) o
          + b (ix2 (0 : Fin 1) o) := by
  refine (addf_apply _ _ _).trans ?_
  refine congrArg₂ (· + ·) ?_ ?_
  · refine (dense_apply _ W hlt hs p o).trans ?_
    refine congrArg (fun r => Cert.Agg.layer (fun o k => W (ix2 k o)) r o) (funext fun k => ?_)
    refine (sideBySide_apply _ _ hc p k).trans ?_
    exact congrArg (fun u => Cert.Agg.cat u (fun f => agg (ix2 p f)) k)
      (funext fun f => congrFun (shapeCast_self own ho) (ix2 p f))
  · exact Cert.LibRowReads.bias_row_apply b hb1 hb p o

/-! ## The body's row before the division, its norm, and the result -/

/-- The specification's row of node p before the division: the second layer on the node's own row beside the
    kernel's aggregate. -/
def rowVal (v0 v4 : Vec Ideal S128x32x256 .bf16) (v10 v24 : Vec Ideal S512x256 .bf16) (v13 v27 : Vec Ideal S1x256 .f32)
    (v19 : Vec Ideal S128x256 .bf16) (p : Fin 128) (o : Fin 256) : EReal :=
  Cert.Agg.layer (fun o k => v24 (ix2 k o))
      (Cert.Agg.cat (fun f => v19 (ix2 p f))
        (Cert.Agg.aggKer (fun d f => v0 (ix3 p d f)) (fun d f => v4 (ix3 p d f)) (fun o k => v10 (ix2 k o))
          (fun o => v13 (ix2 (0 : Fin 1) o)))) o
    + v27 (ix2 (0 : Fin 1) o)

/-- The body's block before the division, at (p, o). -/
theorem pay2_apply (v0 v4 : Vec Ideal S128x32x256 .bf16) (v10 v24 : Vec Ideal S512x256 .bf16) (v13 v27 : Vec Ideal S1x256 .f32)
    (v19 : Vec Ideal S128x256 .bf16) (p : Fin 128) (o : Fin 256) :
    Gen.k0_pay2 (F := Ideal) v0 v4 v10 v13 v19 v24 v27 (ix2 p o) = rowVal v0 v4 v10 v24 v13 v27 v19 p o := by
  unfold Gen.k0_pay2 rowVal
  refine (secondLayer_apply v19 _ v24 v27 _ _ _ _ _ _ p o).trans ?_
  refine congrArg (fun a => Cert.Agg.layer (fun o k => v24 (ix2 k o)) (Cert.Agg.cat (fun f => v19 (ix2 p f)) a) o
      + v27 (ix2 (0 : Fin 1) o)) (funext fun f => ?_)
  exact firstLayer_apply v0 v4 v10 v13 _ _ _ _ _ _ _ _ _ p f

/-- The norm column of a block: the row sums of the squares, kept as a column, under the square root. -/
theorem normCol_apply (P : FVec Ideal S128x256 .f32) (h : S128x256.Reduces [1] S128) (hφ : FKind.Formats .f32)
    (hacc : (0x00000000#32 : BitVec 32) = FKind.add.neutral .f32 hφ) (hc : S128.ShapeCasts S128x1) (p : Fin 128) (u : Fin 1) :
    sqrt (F := Ideal) (shapeCast S128x1 (multiReduction .add [1] S128 (mulf P P) 0x00000000#32 h hφ hacc) hc : FVec Ideal S128x1 .f32)
        (ix2 p u)
      = Ideal.sqrt (∑ o' : Fin 256, P (ix2 p o') * P (ix2 p o')) :=
  congrArg Ideal.sqrt ((Cert.LibKeepdims.shapeCast_a_a1_apply _ hc p u).trans
    (Cert.LibKeepdims.multiReduction_add_lastAxis_apply (mulf P P) _ h hφ hacc p))

/-- The body's norm column at (p, u): the Euclidean norm of the row before the division. -/
theorem pay3_apply (v0 v4 : Vec Ideal S128x32x256 .bf16) (v10 v24 : Vec Ideal S512x256 .bf16) (v13 v27 : Vec Ideal S1x256 .f32)
    (v19 : Vec Ideal S128x256 .bf16) (p : Fin 128) (u : Fin 1) :
    Gen.k0_pay3 (F := Ideal) v0 v4 v10 v13 v19 v24 v27 (ix2 p u)
      = Ideal.sqrt (∑ o' : Fin 256, rowVal v0 v4 v10 v24 v13 v27 v19 p o' * rowVal v0 v4 v10 v24 v13 v27 v19 p o') := by
  unfold Gen.k0_pay3
  refine (normCol_apply _ _ _ _ _ p u).trans ?_
  exact congrArg Ideal.sqrt (Finset.sum_congr rfl fun o' _ =>
    congrArg₂ (· * ·) (pay2_apply v0 v4 v10 v24 v13 v27 v19 p o') (pay2_apply v0 v4 v10 v24 v13 v27 v19 p o'))

/-- The division: a block over the larger of two columns spread over the row. -/
theorem divide_apply (v30 : FVec Ideal S128x256 .f32) (v34 v35 : FVec Ideal S128x1 .f32) (p : Fin 128) (q : Fin 256) :
    Gen.k0_pay1 (F := Ideal) v30 v34 v35 (ix2 p q)
      = Ideal.div (v30 (ix2 p q)) (max (v34 (ix2 p (0 : Fin 1))) (v35 (ix2 p (0 : Fin 1)))) := by
  unfold Gen.k0_pay1
  refine (divf_apply _ _ _).trans ?_
  exact congrArg (Ideal.div (v30 (ix2 p q))) (Cert.LibKeepdims.broadcastTo_a1_ac_apply _ _ p q)

/-- The body's result at (p, q) is the specification's kernel row of node p at q. -/
theorem payload_apply (v0 v4 : Vec Ideal S128x32x256 .bf16) (v10 v24 : Vec Ideal S512x256 .bf16) (v13 v27 : Vec Ideal S1x256 .f32)
    (v19 : Vec Ideal S128x256 .bf16) (p : Fin 128) (q : Fin 256) :
    Gen.k0_pay1 (F := Ideal) (Gen.k0_pay2 v0 v4 v10 v13 v19 v24 v27) (Gen.k0_pay3 v0 v4 v10 v13 v19 v24 v27) Gen.k0_pay4 (ValueIdx.ix2 p q)
      = Cert.Agg.kerRow (fun d f => v0 (ValueIdx.ix3 p d f)) (fun d f => v4 (ValueIdx.ix3 p d f)) (fun f => v19 (ValueIdx.ix2 p f))
          (fun o k => v10 (ValueIdx.ix2 k o)) (fun o k => v24 (ValueIdx.ix2 k o))
          (fun o => v13 (ValueIdx.ix2 (0 : Fin 1) o)) (fun o => v27 (ValueIdx.ix2 (0 : Fin 1) o)) q := by
  refine (divide_apply _ _ _ p q).trans ?_
  refine (congrArg₂ Ideal.div (pay2_apply v0 v4 v10 v24 v13 v27 v19 p q)
    (congrArg₂ max (pay3_apply v0 v4 v10 v24 v13 v27 v19 p (0 : Fin 1))
      (rfl : Gen.k0_pay4 (F := Ideal) (ix2 p (0 : Fin 1)) = Ideal.ofBits .f32 0x2B8CBCCC#32))).trans ?_
  unfold Cert.Agg.kerRow Cert.Agg.finish Cert.Agg.normalize rowVal
  rfl

end Cert.KernelIdeal.BlockRow

end
-- ==== Proof.RegionRows.lean ====
/-
  From the body's blocks to the result array.

  The region has 129 grid points. At point t it stages rows 128 t … 128 t + 127 of the two gathered neighbour arrays
  ([16512, 32, 256]) and of the gathered node rows ([16512, 256]), the two weight matrices and the two bias rows
  whole, runs the body, and writes the body's [128, 256] block back to rows 128 t … 128 t + 127 of the [16512, 256]
  result. The body's block at (p, q) is the specification's kernel row of the node whose rows the body was handed at
  p; those are rows 128 t + p of the arrays. So every point writes back the block of ONE function of the arrays as
  the region finds them — row R of the result is the kernel row of the rows R of the three gathered arrays — and
  the 129 blocks cover the 16512 rows: after the run the result array is that function.
-/
import proofs.«111308_j49039936585979_2_alg».proof.Proof.AroundIdeal
import proofs.«111308_j49039936585979_2_alg».proof.Proof.BlockRow
import proofs.«111308_j49039936585979_2_alg».proof.Proof.Spec
import Idealize.ShloMosaic.Lib.Pipeline.Value
import Idealize.ShloMosaic.Lib.ValueIdx

noncomputable section

namespace Cert.KernelIdeal.RegionRows

open Cert.KernelIdeal Cert.KernelIdeal.Gen Cert.KernelIdeal.Around
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- Row R = i 0 of the result, at column i 1: the kernel row of the rows R of the gathered arrays, through the two
    weight matrices and bias rows, as the region finds them. -/
def rowsOut (c : Dev nD) : S16512x256.Idx → EReal := fun i =>
  Cert.Agg.kerRow
    (fun d f => V m c main_v31 (ix3 (⟨(i 0).val, (i 0).isLt⟩ : Fin 16512) d f))
    (fun d f => V m c main_v38 (ix3 (⟨(i 0).val, (i 0).isLt⟩ : Fin 16512) d f))
    (fun f => V m c main_v17 (ix2 (⟨(i 0).val, (i 0).isLt⟩ : Fin 16512) f))
    (fun o k => V m c main_v3 (ix2 k o)) (fun o k => V m c main_v5 (ix2 k o))
    (fun o => V m c main_v6 (ix2 (0 : Fin 1) o)) (fun o => V m c main_v7 (ix2 (0 : Fin 1) o))
    (⟨(i 1).val, (i 1).isLt⟩ : Fin 256)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the output and the three row windows sit at block t on the row
    axis and block 0 elsewhere; the weight and bias windows at block 0. -/
theorem idx_facts : ∀ t : Fin cfg0.N,
    win0_7.index t (0 : Fin 2) = t.val ∧ win0_7.index t (1 : Fin 2) = 0
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem N_eq : cfg0.N = 129 := by decide

/-! ## Each input block, read where its window puts it in its array -/

/-- Block t of the first neighbour array: its row p is row 128 t + p of the array. -/
theorem iblk0_apply (c : Dev nD) (t : Fin cfg0.N) (p : Fin 128) (d : Fin 32) (f : Fin 256) (r : Fin 16512)
    (hr : r.val = t.val * 128 + p.val) :
    (iblk m c 0 t : Vec Ideal S128x32x256 .bf16) (ix3 p d f) = (V m c main_v31 : S16512x32x256.Idx → EReal) (ix3 r d f) := by
  obtain ⟨-, -, e0, e1, e2, -⟩ := idx_facts t
  unfold iblk
  rw [View.read_apply]
  show V m c main_v31 _ = V m c main_v31 _
  congr 1
  funext a; apply Fin.ext
  match a with
  | ⟨0, _⟩ => show win0_0.index t (0 : Fin 3) * 128 + 1 * p.val = r.val; omega
  | ⟨1, _⟩ => show win0_0.index t (1 : Fin 3) * 32 + 1 * d.val = d.val; omega
  | ⟨2, _⟩ => show win0_0.index t (2 : Fin 3) * 256 + 1 * f.val = f.val; omega

/-- Block t of the second neighbour array likewise. -/
theorem iblk1_apply (c : Dev nD) (t : Fin cfg0.N) (p : Fin 128) (d : Fin 32) (f : Fin 256) (r : Fin 16512)
    (hr : r.val = t.val * 128 + p.val) :
    (iblk m c 1 t : Vec Ideal S128x32x256 .bf16) (ix3 p d f) = (V m c main_v38 : S16512x32x256.Idx → EReal) (ix3 r d f) := by
  obtain ⟨-, -, -, -, -, e0, e1, e2, -⟩ := idx_facts t
  unfold iblk
  rw [View.read_apply]
  show V m c main_v38 _ = V m c main_v38 _
  congr 1
  funext a; apply Fin.ext
  match a with
  | ⟨0, _⟩ => show win0_1.index t (0 : Fin 3) * 128 + 1 * p.val = r.val; omega
  | ⟨1, _⟩ => show win0_1.index t (1 : Fin 3) * 32 + 1 * d.val = d.val; omega
  | ⟨2, _⟩ => show win0_1.index t (2 : Fin 3) * 256 + 1 * f.val = f.val; omega

/-- Block t of the nodes' own rows likewise. -/
theorem iblk2_apply (c : Dev nD) (t : Fin cfg0.N) (p : Fin 128) (f : Fin 256) (r : Fin 16512)
    (hr : r.val = t.val * 128 + p.val) :
    (iblk m c 2 t : Vec Ideal S128x256 .bf16) (ix2 p f) = (V m c main_v17 : S16512x256.Idx → EReal) (ix2 r f) := by
  obtain ⟨-, -, -, -, -, -, -, -, e0, e1, -⟩ := idx_facts t
  unfold iblk
  rw [View.read_apply]
  show V m c main_v17 _ = V m c main_v17 _
  congr 1
  funext a; apply Fin.ext
  match a with
  | ⟨0, _⟩ => show win0_2.index t (0 : Fin 2) * 128 + 1 * p.val = r.val; omega
  | ⟨1, _⟩ => show win0_2.index t (1 : Fin 2) * 256 + 1 * f.val = f.val; omega

/-- The first weight matrix is staged whole: its block is the array. -/
theorem iblk3_apply (c : Dev nD) (t : Fin cfg0.N) (k : Fin 512) (o : Fin 256) :
    (iblk m c 3 t : Vec Ideal S512x256 .bf16) (ix2 k o) = (V m c main_v3 : S512x256.Idx → EReal) (ix2 k o) := by
  obtain ⟨-, -, -, -, -, -, -, -, -, -, e0, e1, -⟩ := idx_facts t
  unfold iblk
  rw [View.read_apply]
  show V m c main_v3 _ = V m c main_v3 _
  congr 1
  funext a; apply Fin.ext
  match a with
  | ⟨0, _⟩ => show win0_3.index t (0 : Fin 2) * 512 + 1 * k.val = k.val; omega
  | ⟨1, _⟩ => show win0_3.index t (1 : Fin 2) * 256 + 1 * o.val = o.val; omega

/-- The first bias row likewise. -/
theorem iblk4_apply (c : Dev nD) (t : Fin cfg0.N) (u : Fin 1) (o : Fin 256) :
    (iblk m c 4 t : Vec Ideal S1x256 .f32) (ix2 u o) = (V m c main_v6 : S1x256.Idx → EReal) (ix2 u o) := by
  obtain ⟨-, -, -, -, -, -, -, -, -, -, -, -, e0, e1, -⟩ := idx_facts t
  unfold iblk
  rw [View.read_apply]
  show V m c main_v6 _ = V m c main_v6 _
  congr 1
  funext a; apply Fin.ext
  match a with
  | ⟨0, _⟩ => show win0_4.index t (0 : Fin 2) * 1 + 1 * u.val = u.val; omega
  | ⟨1, _⟩ => show win0_4.index t (1 : Fin 2) * 256 + 1 * o.val = o.val; omega

/-- The second weight matrix likewise. -/
theorem iblk5_apply (c : Dev nD) (t : Fin cfg0.N) (k : Fin 512) (o : Fin 256) :
    (iblk m c 5 t : Vec Ideal S512x256 .bf16) (ix2 k o) = (V m c main_v5 : S512x256.Idx → EReal) (ix2 k o) := by
  obtain ⟨-, -, -, -, -, -, -, -, -, -, -, -, -, -, e0, e1, -⟩ := idx_facts t
  unfold iblk
  rw [View.read_apply]
  show V m c main_v5 _ = V m c main_v5 _
  congr 1
  funext a; apply Fin.ext
  match a with
  | ⟨0, _⟩ => show win0_5.index t (0 : Fin 2) * 512 + 1 * k.val = k.val; omega
  | ⟨1, _⟩ => show win0_5.index t (1 : Fin 2) * 256 + 1 * o.val = o.val; omega

/-- The second bias row likewise. -/
theorem iblk6_apply (c : Dev nD) (t : Fin cfg0.N) (u : Fin 1) (o : Fin 256) :
    (iblk m c 6 t : Vec Ideal S1x256 .f32) (ix2 u o) = (V m c main_v7 : S1x256.Idx → EReal) (ix2 u o) := by
  obtain ⟨-, -, -, -, -, -, -, -, -, -, -, -, -, -, -, -, e0, e1⟩ := idx_facts t
  unfold iblk
  rw [View.read_apply]
  show V m c main_v7 _ = V m c main_v7 _
  congr 1
  funext a; apply Fin.ext
  match a with
  | ⟨0, _⟩ => show win0_6.index t (0 : Fin 2) * 1 + 1 * u.val = u.val; omega
  | ⟨1, _⟩ => show win0_6.index t (1 : Fin 2) * 256 + 1 * o.val = o.val; omega

/-! ## What a point writes back -/

/-- The kernel row depends on its seven arguments only. -/
theorem kerRow_congr {n0 n0' n1 n1' : Fin 32 → Fin 256 → EReal} {own own' : Fin 256 → EReal}
    {w1 w1' w2 w2' : Fin 256 → Fin 512 → EReal} {b1 b1' b2 b2' : Fin 256 → EReal}
    (h0 : n0 = n0') (h1 : n1 = n1') (h2 : own = own') (h3 : w1 = w1') (h4 : w2 = w2') (h5 : b1 = b1') (h6 : b2 = b2') :
    Cert.Agg.kerRow n0 n1 own w1 w2 b1 b2 = Cert.Agg.kerRow n0' n1' own' w1' w2' b1' b2' := by
  subst h0 h1 h2 h3 h4 h5 h6; rfl

/-- Two functions on a [128, 256] block that agree at every (p, q) are equal. -/
theorem ext_ix2 {α : Type} {g g' : S128x256.Idx → α} (h : ∀ (p : Fin 128) (q : Fin 256), g (ix2 p q) = g' (ix2 p q)) : g = g' :=
  funext fun j => by rw [eq_ix2 j]; exact h _ _

/-- The body's block of the input blocks at point t, at (p, q), is the result function at row 128 t + p. -/
theorem block_point (c : Dev nD) (t : Fin cfg0.N) (p : Fin 128) (q : Fin 256) (r : Fin 16512)
    (hr : r.val = t.val * 128 + p.val) :
    k0_pay1 (F := Ideal)
        (k0_pay2 (iblk m c 0 t) (iblk m c 1 t) (iblk m c 3 t) (iblk m c 4 t) (iblk m c 2 t) (iblk m c 5 t) (iblk m c 6 t))
        (k0_pay3 (iblk m c 0 t) (iblk m c 1 t) (iblk m c 3 t) (iblk m c 4 t) (iblk m c 2 t) (iblk m c 5 t) (iblk m c 6 t))
        k0_pay4 (ix2 p q)
      = rowsOut m c (ix2 r q) := by
  refine (BlockRow.payload_apply _ _ _ _ _ _ _ p q).trans ?_
  exact congrFun (kerRow_congr
    (funext fun d => funext fun f => iblk0_apply m c t p d f r hr)
    (funext fun d => funext fun f => iblk1_apply m c t p d f r hr)
    (funext fun f => iblk2_apply m c t p f r hr)
    (funext fun o => funext fun k => iblk3_apply m c t k o)
    (funext fun o => funext fun k => iblk5_apply m c t k o)
    (funext fun o => iblk4_apply m c t 0 o)
    (funext fun o => iblk6_apply m c t 0 o)) q

/-- Any function on the result array read through point t's block: row p of the block is row 128 t + p. -/
theorem read_out (G : S16512x256.Idx → EReal) (t : Fin cfg0.N) (p : Fin 128) (q : Fin 256) (r : Fin 16512)
    (hr : r.val = t.val * 128 + p.val) :
    (((cfg0.win 7).blk t).view.read (Elt Ideal) G : S128x256.Idx → EReal) (ix2 p q) = G (ix2 r q) := by
  obtain ⟨e0, e1, -⟩ := idx_facts t
  rw [View.read_apply]
  show G _ = G _
  congr 1
  funext a; apply Fin.ext
  match a with
  | ⟨0, _⟩ => show win0_7.index t (0 : Fin 2) * 128 + 1 * p.val = r.val; omega
  | ⟨1, _⟩ => show win0_7.index t (1 : Fin 2) * 256 + 1 * q.val = q.val; omega

/-- WHAT POINT t WRITES BACK is block t of the result function. -/
theorem flushed_eq (c : Dev nD) (t : Fin cfg0.N) :
    (dats m 0 c).flushed 7 t = ((cfg0.win 7).blk t).view.read (Elt Ideal) (rowsOut m c) := by
  show (cfg0.win 7).cut (grid0.coords t) ((dats m 0 c).after 7 t) = _
  rw [after_out]
  unfold blockOut
  rw [View.canon_unit_zero hz2]
  simp only [View.ld_unit_zero (S := S128x32x256) hz3, View.ld_unit_zero (S := S512x256) hz2,
    View.ld_unit_zero (S := S1x256) hz2, View.ld_unit_zero (S := S128x256) hz2]
  have hN : t.val < 129 := lt_of_lt_of_eq t.isLt N_eq
  refine ext_ix2 fun p q => ?_
  exact (block_point m c t p q ⟨t.val * 128 + p.val, by have := p.isLt; omega⟩ rfl).trans
    (read_out (rowsOut m c) t p q ⟨t.val * 128 + p.val, by have := p.isLt; omega⟩ rfl).symm

/-! ## The blocks cover the array -/

/-- An index of the array is in point t's block iff each coordinate is in the block's range on its axis. -/
theorem mem_blk (t : Fin cfg0.N) (i : S16512x256.Idx) :
    i ∈ ((cfg0.win 7).blk t).view.set ↔ ∀ a : Fin 2, win0_7.index t a * S128x256.size a ≤ (i a).val
      ∧ (i a).val < win0_7.index t a * S128x256.size a + S128x256.size a := by
  show i ∈ ((View.whole main_v39).slice (win0_7.rect t)).set ↔ _
  rw [View.set_slice_whole, Rect.mem_set_unit]
  exact Iff.rfl

/-- Row R of the array is in the block of point R / 128, and every point writes its block back. -/
theorem covered (i : S16512x256.Idx) :
    ∃ t : Fin cfg0.N, (cfg0.win 7).flush t = true ∧ i ∈ ((cfg0.win 7).blk t).view.set := by
  have hi0 : (i 0).val < 16512 := (i 0).isLt
  have hi1 : (i 1).val < 256 := (i 1).isLt
  obtain ⟨t, ht⟩ : ∃ t : Fin cfg0.N, t.val = (i 0).val / 128 :=
    ⟨⟨(i 0).val / 128, lt_of_lt_of_eq (by omega) N_eq.symm⟩, rfl⟩
  obtain ⟨e0, e1, -⟩ := idx_facts t
  refine ⟨t, flush0_7 t, ?_⟩
  rw [mem_blk]
  intro a
  match a with
  | ⟨0, _⟩ =>
    show win0_7.index t (0 : Fin 2) * 128 ≤ (i 0).val ∧ (i 0).val < win0_7.index t (0 : Fin 2) * 128 + 128
    omega
  | ⟨1, _⟩ =>
    show win0_7.index t (1 : Fin 2) * 256 ≤ (i 1).val ∧ (i 1).val < win0_7.index t (1 : Fin 2) * 256 + 256
    omega

/-- THE ARRAY after the run is the result function of the arrays as the region finds them. -/
theorem final (c : Dev nD) : (dats m 0 c).arrAt 7 cfg0.N = rowsOut m c :=
  (dats m 0 c).arrAt_eq_of_cover 7 (rowsOut m c) (fun t _ => flushed_eq m c t) covered

end Cert.KernelIdeal.RegionRows

end
-- ==== Proof.LibRowGather.lean ====
/-
  `stablehlo.gather` of whole ROWS of a rank-2 table, read at an index, for any extents and element type.

  What `T[idx]` of a table `T : [N, C]` lowers to when `idx` is a vector of `R` row words (the start indices carried
  as a column `[R, 1]`), or an `[R, D]` array of row words (carried as `[R, D, 1]`): offset axis the last one,
  axis 0 collapsed, the start index naming axis 0, slices of one whole row. Result element `(r, f)` — or `(r, d, f)` —
  is the table at row `idx[r, 0]` — or `idx[r, d, 0]` — read as a signed integer and clamped into `[0, N − 1]`, column `f`.
  (The library's `ValueIdx.gather_take_apply` is the same statement for a rank-1 operand.)
-/
import Idealize.ShloMosaic.Lib.ValueIdx

noncomputable section

namespace Cert.LibRowGather

open Idealize.ShloMosaic Idealize.ShloMosaic.ValueIdx

variable {α : Type}

/-- Of the two axes of a table, the ones other than axis 0: axis 1. -/
private theorem kept_zero_two :
    (List.finRange 2).filter (fun a : Fin 2 => decide (a ∉ ([0] ++ [] : List (Fin 2)))) = [1] := by decide

/-- With one kept operand axis `a` and one offset axis `b`, the offset coordinate on `a` is the result's on `b`. -/
private theorem offCoord_single {s si t : Shape} (d : GatherDims s si t) (j : t.Idx) (a : Fin s.rank) (b : Fin t.rank)
    (hk : d.sKept = [a]) (ho : d.offsetDims = [b]) : d.offCoord j a = (j b).val := by
  have ha : a ∈ d.sKept := by rw [hk]; exact List.mem_singleton.mpr rfl
  unfold GatherDims.offCoord
  rw [dif_pos ha]
  exact congrArg (fun c => (j c).val) ((List.getElem_of_eq ho _).trans (List.getElem_singleton _))

/-- The dimension numbers of a row gather by a column of `R` start words. -/
abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section Rows
variable {N C R w : Nat}
  (wf : GatherDims.WF ⟨2, ![N, C]⟩ ⟨2, ![R, 1]⟩ ⟨2, ![R, C]⟩ [1] [0] [] [0] [] 1 ![1, C])
  (idx : IVec ⟨2, ![R, 1]⟩ w) (r : Fin R) (f : Fin C)

/-- On the table's row axis the operand index is the clamped start word. -/
private theorem rows_axis0 :
    (rowsDims N C R wf).start (ix2 r f) idx 0 + (rowsDims N C R wf).batchCoord (ix2 r f) 0
      + (rowsDims N C R wf).offCoord (ix2 r f) 0 = min (idx (ix2 r (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N C R wf).startIndexMap from List.mem_singleton.mpr rfl)]
  have hsi : (rowsDims N C R wf).siIdx (ix2 r f) ⟨List.idxOf (0 : Fin 2) (rowsDims N C R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis it is the result's column. -/
private theorem rows_axis1 :
    (rowsDims N C R wf).start (ix2 r f) idx 1 + (rowsDims N C R wf).batchCoord (ix2 r f) 1
      + (rowsDims N C R wf).offCoord (ix2 r f) 1 = f.val := by
  rw [GatherDims.batchCoord_eq_zero _ _ _ List.not_mem_nil]
  unfold GatherDims.start
  rw [dif_neg (fun h => absurd (congrArg Fin.val (List.mem_singleton.mp h)) Nat.one_ne_zero),
    offCoord_single (rowsDims N C R wf) (ix2 r f) 1 1 kept_zero_two rfl, Nat.zero_add]
  rfl

/-- Row `r`, column `f` of the gathered rows: the table at the clamped start word of row `r`, column `f`. -/
theorem gather_rows_apply (hN : 0 < N) (x : (⟨2, ![N, C]⟩ : Shape).Idx → α) :
    Host.gather (rowsDims N C R wf) x idx (ix2 r f)
      = x (ix2 ⟨min (idx (ix2 r (0 : Fin 1))).toInt.toNat (N - 1), by omega⟩ f) := by
  unfold Host.gather
  congr 1
  funext a
  refine Fin.ext ?_
  match a with
  | ⟨0, _⟩ => exact rows_axis0 wf idx r f
  | ⟨1, _⟩ => exact rows_axis1 wf idx r f

end Rows

/-- The dimension numbers of a row gather by an `[R, D]` array of start words. -/
abbrev rows2Dims (N C R D : Nat)
    (wf : GatherDims.WF ⟨2, ![N, C]⟩ ⟨3, ![R, D, 1]⟩ ⟨3, ![R, D, C]⟩ [2] [0] [] [0] [] 2 ![1, C]) :
    GatherDims ⟨2, ![N, C]⟩ ⟨3, ![R, D, 1]⟩ ⟨3, ![R, D, C]⟩ where
  offsetDims := [2]
  collapsedSliceDims := [0]
  operandBatchingDims := []
  startIndicesBatchingDims := []
  startIndexMap := [0]
  indexVectorDim := 2
  sliceSizes := ![1, C]
  wf := wf

section Rows2
variable {N C R D w : Nat}
  (wf : GatherDims.WF ⟨2, ![N, C]⟩ ⟨3, ![R, D, 1]⟩ ⟨3, ![R, D, C]⟩ [2] [0] [] [0] [] 2 ![1, C])
  (idx : IVec ⟨3, ![R, D, 1]⟩ w) (r : Fin R) (d : Fin D) (f : Fin C)

private theorem rows2_axis0 :
    (rows2Dims N C R D wf).start (ix3 r d f) idx 0 + (rows2Dims N C R D wf).batchCoord (ix3 r d f) 0
      + (rows2Dims N C R D wf).offCoord (ix3 r d f) 0 = min (idx (ix3 r d (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rows2Dims N C R D wf).startIndexMap from List.mem_singleton.mpr rfl)]
  have hsi : (rows2Dims N C R D wf).siIdx (ix3 r d f) ⟨List.idxOf (0 : Fin 2) (rows2Dims N C R D wf).startIndexMap,
      List.idxOf_lt_length_iff.2 (List.mem_singleton.mpr rfl)⟩ = ix3 r d (0 : Fin 1) := by
    funext b; refine Fin.ext ?_
    match b with
    | ⟨0, _⟩ => rfl
    | ⟨1, _⟩ => rfl
    | ⟨2, _⟩ => rfl
  rw [hsi]
  rfl

private theorem rows2_axis1 :
    (rows2Dims N C R D wf).start (ix3 r d f) idx 1 + (rows2Dims N C R D wf).batchCoord (ix3 r d f) 1
      + (rows2Dims N C R D wf).offCoord (ix3 r d f) 1 = f.val := by
  rw [GatherDims.batchCoord_eq_zero _ _ _ List.not_mem_nil]
  unfold GatherDims.start
  rw [dif_neg (fun h => absurd (congrArg Fin.val (List.mem_singleton.mp h)) Nat.one_ne_zero),
    offCoord_single (rows2Dims N C R D wf) (ix3 r d f) 1 2 kept_zero_two rfl, Nat.zero_add]
  rfl

/-- Entry `(r, d, f)` of the gathered rows: the table at the clamped start word `(r, d)`, column `f`. -/
theorem gather_rows2_apply (hN : 0 < N) (x : (⟨2, ![N, C]⟩ : Shape).Idx → α) :
    Host.gather (rows2Dims N C R D wf) x idx (ix3 r d f)
      = x (ix2 ⟨min (idx (ix3 r d (0 : Fin 1))).toInt.toNat (N - 1), by omega⟩ f) := by
  unfold Host.gather
  congr 1
  funext a
  refine Fin.ext ?_
  match a with
  | ⟨0, _⟩ => exact rows2_axis0 wf idx r d f
  | ⟨1, _⟩ => exact rows2_axis1 wf idx r d f

end Rows2

end Cert.LibRowGather

end
-- ==== Proof.HostRows.lean ====
/-
  The kernel program's host lines before its region, as pure functions of the ten argument arrays.

  The node words of the three batches are laid end to end and padded with zero words to 16512 (`comb`). Every
  index array the program gathers with is first wrapped (a negative word counts from the end of the table) and given a
  trailing unit axis; a gather of whole rows then reads the table at the wrapped word, signed and clamped. So the
  gathered node rows (`t17`) are the first table at the row the node word picks, and the two gathered neighbour
  arrays (`t31`, `t38`) are the two tables at the row picked by the word of the adjacency table's picked row.
  The two weight matrices are transposed (`t3`, `t5`) and the two bias vectors become one-row matrices (`t6`, `t7`).
  The narrowing format changes on the tables and the weights are the identity on extended reals.

  Each definition spells the composition of the printed operations, operation by operation; the `_apply` theorems read
  it at an index, at the ideal instance.
-/
import proofs.«111308_j49039936585979_2_alg».proof.KernelIdeal
import proofs.«111308_j49039936585979_2_alg».proof.Proof.Spec
import proofs.«111308_j49039936585979_2_alg».proof.Proof.LibRowGather
import Idealize.ShloMosaic.Lib.ValueIdx
import Idealize.ShloMosaic.Lib.ValueLayout
import Idealize.ShloMosaic.Lib.Pipeline.Value

noncomputable section

namespace Cert.KernelIdeal.HostRows

open Idealize.ShloMosaic Idealize.ShloMosaic.ValueIdx Cert.KernelIdeal Cert.KernelIdeal.Facts₀

variable [Cert.KernelIdeal.Facts]
variable {F : FTy → Type} [FloatOps F]

/-! ## The host lines as functions of the arguments -/

/-- The node words of the three batches end to end, then 118 zero words. -/
def comb (x7 x8 : (⟨S8192, .i32⟩ : BufTy).Contents (Elt F)) (x9 : (⟨S10, .i32⟩ : BufTy).Contents (Elt F)) :
    (⟨S16512, .i32⟩ : BufTy).Contents (Elt F) :=
  concatenate S16512 0
    [⟨S16394, (concatenate S16394 0 [⟨S8192, x7⟩, ⟨S8192, x8⟩, ⟨S10, x9⟩] concatenates_S8192_S8192_S10_S16394_d0 :
        (⟨S16394, .i32⟩ : BufTy).Contents (Elt F))⟩,
      ⟨S118, (broadcastInDim S118 ![] bcast_S_S118 (constantI S_ 32 0#32 : (⟨S_, .i32⟩ : BufTy).Contents (Elt F)) :
        (⟨S118, .i32⟩ : BufTy).Contents (Elt F))⟩]
    concatenates_S16394_S118_S16512_d0

/-- A vector of 16512 words wrapped: where a word is negative, the table length is added. -/
def wrapV (v : (⟨S16512, .i32⟩ : BufTy).Contents (Elt F)) : (⟨S16512, .i32⟩ : BufTy).Contents (Elt F) :=
  select
    (cmpi .slt v (broadcastInDim S16512 ![] bcast_S_S16512 (constantI S_ 32 0#32 : (⟨S_, .i32⟩ : BufTy).Contents (Elt F)) :
      (⟨S16512, .i32⟩ : BufTy).Contents (Elt F)) : (⟨S16512, .i1⟩ : BufTy).Contents (Elt F))
    (addi v (broadcastInDim S16512 ![] bcast_S_S16512 (constantI S_ 32 100000#32 : (⟨S_, .i32⟩ : BufTy).Contents (Elt F)) :
      (⟨S16512, .i32⟩ : BufTy).Contents (Elt F)) : (⟨S16512, .i32⟩ : BufTy).Contents (Elt F))
    v

/-- A 16512 by 32 array of words wrapped the same way. -/
def wrapM (m : (⟨S16512x32, .i32⟩ : BufTy).Contents (Elt F)) : (⟨S16512x32, .i32⟩ : BufTy).Contents (Elt F) :=
  select
    (cmpi .slt m (broadcastInDim S16512x32 ![] bcast_S_S16512x32 (constantI S_ 32 0#32 : (⟨S_, .i32⟩ : BufTy).Contents (Elt F)) :
      (⟨S16512x32, .i32⟩ : BufTy).Contents (Elt F)) : (⟨S16512x32, .i1⟩ : BufTy).Contents (Elt F))
    (addi m (broadcastInDim S16512x32 ![] bcast_S_S16512x32 (constantI S_ 32 100000#32 : (⟨S_, .i32⟩ : BufTy).Contents (Elt F)) :
      (⟨S16512x32, .i32⟩ : BufTy).Contents (Elt F)) : (⟨S16512x32, .i32⟩ : BufTy).Contents (Elt F))
    m

/-- The wrapped node words as a column of start words. -/
def col (x7 x8 : (⟨S8192, .i32⟩ : BufTy).Contents (Elt F)) (x9 : (⟨S10, .i32⟩ : BufTy).Contents (Elt F)) :
    (⟨S16512x1, .i32⟩ : BufTy).Contents (Elt F) :=
  broadcastInDim S16512x1 ![0] bcast_S16512_S16512x1_0 (wrapV (F := F) (comb (F := F) x7 x8 x9))

/-- The gathered node rows: the first table, narrowed, at the wrapped node words. -/
def t17 (x0 : (⟨S100000x256, .f32⟩ : BufTy).Contents (Elt F))
    (x7 x8 : (⟨S8192, .i32⟩ : BufTy).Contents (Elt F)) (x9 : (⟨S10, .i32⟩ : BufTy).Contents (Elt F)) :
    (⟨S16512x256, .bf16⟩ : BufTy).Contents (Elt F) :=
  Host.gather gather_S100000x256_S16512x1_S16512x256_1_0_n_n_0_1_1256
    (truncf .bf16 x0 bitsLt_bf16_f32 : (⟨S100000x256, .bf16⟩ : BufTy).Contents (Elt F))
    (col (F := F) x7 x8 x9)

/-- The adjacency rows of the nodes: the adjacency table at the wrapped node words. -/
def adj (x6 : (⟨S100000x32, .i32⟩ : BufTy).Contents (Elt F))
    (x7 x8 : (⟨S8192, .i32⟩ : BufTy).Contents (Elt F)) (x9 : (⟨S10, .i32⟩ : BufTy).Contents (Elt F)) :
    (⟨S16512x32, .i32⟩ : BufTy).Contents (Elt F) :=
  Host.gather gather_S100000x32_S16512x1_S16512x32_1_0_n_n_0_1_132 x6 (col (F := F) x7 x8 x9)

/-- The wrapped neighbour words with a trailing unit axis: the start words of the neighbour gathers. -/
def nbrIx (x6 : (⟨S100000x32, .i32⟩ : BufTy).Contents (Elt F))
    (x7 x8 : (⟨S8192, .i32⟩ : BufTy).Contents (Elt F)) (x9 : (⟨S10, .i32⟩ : BufTy).Contents (Elt F)) :
    (⟨S16512x32x1, .i32⟩ : BufTy).Contents (Elt F) :=
  broadcastInDim S16512x32x1 ![0, 1] bcast_S16512x32_S16512x32x1_0_1 (wrapM (F := F) (adj (F := F) x6 x7 x8 x9))

/-- The gathered neighbour rows of the first table. -/
def t31 (x0 : (⟨S100000x256, .f32⟩ : BufTy).Contents (Elt F)) (x6 : (⟨S100000x32, .i32⟩ : BufTy).Contents (Elt F))
    (x7 x8 : (⟨S8192, .i32⟩ : BufTy).Contents (Elt F)) (x9 : (⟨S10, .i32⟩ : BufTy).Contents (Elt F)) :
    (⟨S16512x32x256, .bf16⟩ : BufTy).Contents (Elt F) :=
  Host.gather gather_S100000x256_S16512x32x1_S16512x32x256_2_0_n_n_0_2_1256
    (truncf .bf16 x0 bitsLt_bf16_f32 : (⟨S100000x256, .bf16⟩ : BufTy).Contents (Elt F))
    (nbrIx (F := F) x6 x7 x8 x9)

/-- The gathered neighbour rows of the second table. -/
def t38 (x1 : (⟨S100000x256, .f32⟩ : BufTy).Contents (Elt F)) (x6 : (⟨S100000x32, .i32⟩ : BufTy).Contents (Elt F))
    (x7 x8 : (⟨S8192, .i32⟩ : BufTy).Contents (Elt F)) (x9 : (⟨S10, .i32⟩ : BufTy).Contents (Elt F)) :
    (⟨S16512x32x256, .bf16⟩ : BufTy).Contents (Elt F) :=
  Host.gather gather_S100000x256_S16512x32x1_S16512x32x256_2_0_n_n_0_2_1256
    (truncf .bf16 x1 bitsLt_bf16_f32 : (⟨S100000x256, .bf16⟩ : BufTy).Contents (Elt F))
    (nbrIx (F := F) x6 x7 x8 x9)

/-- The first weight matrix transposed and narrowed. -/
def t3 (x2 : (⟨S256x512, .f32⟩ : BufTy).Contents (Elt F)) : (⟨S512x256, .bf16⟩ : BufTy).Contents (Elt F) :=
  truncf .bf16 (transpose S512x256 [1, 0] x2 transposes_S256x512_S512x256_1_0 : (⟨S512x256, .f32⟩ : BufTy).Contents (Elt F))
    bitsLt_bf16_f32

/-- The second weight matrix transposed and narrowed. -/
def t5 (x4 : (⟨S256x512, .f32⟩ : BufTy).Contents (Elt F)) : (⟨S512x256, .bf16⟩ : BufTy).Contents (Elt F) :=
  truncf .bf16 (transpose S512x256 [1, 0] x4 transposes_S256x512_S512x256_1_0 : (⟨S512x256, .f32⟩ : BufTy).Contents (Elt F))
    bitsLt_bf16_f32

/-- The first bias vector as a one-row matrix. -/
def t6 (x3 : (⟨S256, .f32⟩ : BufTy).Contents (Elt F)) : (⟨S1x256, .f32⟩ : BufTy).Contents (Elt F) :=
  shapeCast S1x256 x3 shapeCasts_S256_S1x256

/-- The second bias vector as a one-row matrix. -/
def t7 (x5 : (⟨S256, .f32⟩ : BufTy).Contents (Elt F)) : (⟨S1x256, .f32⟩ : BufTy).Contents (Elt F) :=
  shapeCast S1x256 x5 shapeCasts_S256_S1x256

/-! ## Read at an index -/

/-- The wrapped vector at an index wraps the word there. -/
theorem wrapV_apply (v : (⟨S16512, .i32⟩ : BufTy).Contents (Elt F)) (i : S16512.Idx) :
    wrapV (F := F) v i = Cert.Agg.wrap (v i) := rfl

/-- The wrapped array at an index wraps the word there. -/
theorem wrapM_apply (m : (⟨S16512x32, .i32⟩ : BufTy).Contents (Elt F)) (i : S16512x32.Idx) :
    wrapM (F := F) m i = Cert.Agg.wrap (m i) := rfl

/-- A vector carried as a column reads its entry. -/
theorem bcol_apply (y : (⟨S16512, .i32⟩ : BufTy).Contents (Elt F)) (R : Fin 16512) :
    broadcastInDim S16512x1 ![0] bcast_S16512_S16512x1_0 y (ix2 R (0 : Fin 1)) = y (ix1 R) :=
  broadcastInDim_apply _ bcast_S16512_S16512x1_0 y _ (ix1 R) (fun a => match a with
    | ⟨0, _⟩ => by show R.val = if (16512 : Nat) = 1 then 0 else R.val; rw [if_neg (by decide)])

/-- An array carried with a trailing unit axis reads its entry. -/
theorem btail_apply (y : (⟨S16512x32, .i32⟩ : BufTy).Contents (Elt F)) (R : Fin 16512) (d : Fin 32) :
    broadcastInDim S16512x32x1 ![0, 1] bcast_S16512x32_S16512x32x1_0_1 y (ix3 R d (0 : Fin 1)) = y (ix2 R d) :=
  broadcastInDim_apply _ bcast_S16512x32_S16512x32x1_0_1 y _ (ix2 R d) (fun a => match a with
    | ⟨0, _⟩ => by show R.val = if (16512 : Nat) = 1 then 0 else R.val; rw [if_neg (by decide)]
    | ⟨1, _⟩ => by show d.val = if (32 : Nat) = 1 then 0 else d.val; rw [if_neg (by decide)])

/-- A start word that is a wrapped word, read signed and clamped, is the row the word picks. -/
theorem pick_of_eq {w x : BitVec 32} (h : w = Cert.Agg.wrap x) (hlt : min w.toInt.toNat (100000 - 1) < 100000) :
    (⟨min w.toInt.toNat (100000 - 1), hlt⟩ : Fin 100000) = Cert.Agg.pick x := by
  subst h; rfl

section Words
variable (x6 : (⟨S100000x32, .i32⟩ : BufTy).Contents (Elt F))
  (x7 x8 : (⟨S8192, .i32⟩ : BufTy).Contents (Elt F)) (x9 : (⟨S10, .i32⟩ : BufTy).Contents (Elt F))

/-- The first 8192 words are the first batch's. -/
theorem comb_lo (R : Fin 8192) : comb (F := F) x7 x8 x9 (ix1 ⟨R.val, by omega⟩) = x7 (ix1 R) := by
  unfold comb
  refine (concatenate_pair_apply_left _ _ _ concatenates_S16394_S118_S16512_d0 _ rfl (ix1 ⟨R.val, by omega⟩)
    (fun b => match b with | ⟨0, _⟩ => rfl)).trans ?_
  exact concatenate_apply_piece _ [⟨S8192, x7⟩, ⟨S8192, x8⟩, ⟨S10, x9⟩] concatenates_S8192_S8192_S10_S16394_d0 _
    0 (by show (0 : Nat) < 3; decide) S8192 x7 rfl rfl 0 rfl (ix1 R) (fun b => match b with | ⟨0, _⟩ => fun hb => absurd rfl hb)
    (Nat.zero_add _)

/-- The next 8192 words are the second batch's. -/
theorem comb_mid (R : Fin 8192) : comb (F := F) x7 x8 x9 (ix1 ⟨8192 + R.val, by omega⟩) = x8 (ix1 R) := by
  unfold comb
  refine (concatenate_pair_apply_left _ _ _ concatenates_S16394_S118_S16512_d0 _ rfl (ix1 ⟨8192 + R.val, by omega⟩)
    (fun b => match b with | ⟨0, _⟩ => rfl)).trans ?_
  exact concatenate_apply_piece _ [⟨S8192, x7⟩, ⟨S8192, x8⟩, ⟨S10, x9⟩] concatenates_S8192_S8192_S10_S16394_d0 _
    1 (by show (1 : Nat) < 3; decide) S8192 x8 rfl rfl 8192 rfl (ix1 R) (fun b => match b with | ⟨0, _⟩ => fun hb => absurd rfl hb)
    rfl

/-- The next 10 words are the third batch's. -/
theorem comb_hi (R : Fin 10) : comb (F := F) x7 x8 x9 (ix1 ⟨16384 + R.val, by omega⟩) = x9 (ix1 R) := by
  unfold comb
  refine (concatenate_pair_apply_left _ _ _ concatenates_S16394_S118_S16512_d0 _ rfl (ix1 ⟨16384 + R.val, by omega⟩)
    (fun b => match b with | ⟨0, _⟩ => rfl)).trans ?_
  exact concatenate_apply_piece _ [⟨S8192, x7⟩, ⟨S8192, x8⟩, ⟨S10, x9⟩] concatenates_S8192_S8192_S10_S16394_d0 _
    2 (by show (2 : Nat) < 3; decide) S10 x9 rfl rfl 16384 rfl (ix1 R) (fun b => match b with | ⟨0, _⟩ => fun hb => absurd rfl hb)
    rfl

/-- The last 118 words are zero. -/
theorem comb_pad (R : Fin 118) : comb (F := F) x7 x8 x9 (ix1 ⟨16394 + R.val, by omega⟩) = 0#32 := by
  unfold comb
  refine (concatenate_pair_apply_right _ _ _ concatenates_S16394_S118_S16512_d0 _ rfl rfl (ix1 R)
    (fun b => match b with | ⟨0, _⟩ => fun hb => absurd rfl hb) ?_).trans rfl
  show R.val + 16394 = 16394 + R.val
  exact Nat.add_comm _ _

/-- The column of start words reads the wrapped node word. -/
theorem col_apply (R : Fin 16512) :
    col (F := F) x7 x8 x9 (ix2 R (0 : Fin 1)) = Cert.Agg.wrap (comb (F := F) x7 x8 x9 (ix1 R)) :=
  bcol_apply (F := F) (wrapV (F := F) (comb (F := F) x7 x8 x9)) R

/-- A node's adjacency row is the adjacency table's row the node word picks. -/
theorem adj_apply (R : Fin 16512) (d : Fin 32) :
    adj (F := F) x6 x7 x8 x9 (ix2 R d) = x6 (ix2 (Cert.Agg.pick (comb (F := F) x7 x8 x9 (ix1 R))) d) := by
  unfold adj
  refine (Cert.LibRowGather.gather_rows_apply (N := 100000) (C := 32) (R := 16512)
    gather_S100000x32_S16512x1_S16512x32_1_0_n_n_0_1_132_wf (col (F := F) x7 x8 x9) R d (by decide) x6).trans ?_
  exact congrArg (fun r => x6 (ix2 r d)) (pick_of_eq (col_apply (F := F) x7 x8 x9 R) _)

/-- The start words of the neighbour gathers read the wrapped neighbour word. -/
theorem nbrIx_apply (R : Fin 16512) (d : Fin 32) :
    nbrIx (F := F) x6 x7 x8 x9 (ix3 R d (0 : Fin 1)) = Cert.Agg.wrap (adj (F := F) x6 x7 x8 x9 (ix2 R d)) :=
  btail_apply (F := F) (wrapM (F := F) (adj (F := F) x6 x7 x8 x9)) R d

/-- Rows of any table gathered at the column of start words: the table at the row the node word picks. -/
theorem nodeRows_apply {α : Type} (T : S100000x256.Idx → α) (R : Fin 16512) (f : Fin 256) :
    Host.gather gather_S100000x256_S16512x1_S16512x256_1_0_n_n_0_1_1256 T (col (F := F) x7 x8 x9) (ix2 R f)
      = T (ix2 (Cert.Agg.pick (comb (F := F) x7 x8 x9 (ix1 R))) f) := by
  refine (Cert.LibRowGather.gather_rows_apply (N := 100000) (C := 256) (R := 16512)
    gather_S100000x256_S16512x1_S16512x256_1_0_n_n_0_1_1256_wf (col (F := F) x7 x8 x9) R f (by decide) T).trans ?_
  exact congrArg (fun r => T (ix2 r f)) (pick_of_eq (col_apply (F := F) x7 x8 x9 R) _)

/-- Rows of any table gathered at the neighbour start words: the table at the row the neighbour word picks. -/
theorem nbrRows_apply {α : Type} (T : S100000x256.Idx → α) (R : Fin 16512) (d : Fin 32) (f : Fin 256) :
    Host.gather gather_S100000x256_S16512x32x1_S16512x32x256_2_0_n_n_0_2_1256 T (nbrIx (F := F) x6 x7 x8 x9) (ix3 R d f)
      = T (ix2 (Cert.Agg.nbr x6 (comb (F := F) x7 x8 x9 (ix1 R)) d) f) := by
  refine (Cert.LibRowGather.gather_rows2_apply (N := 100000) (C := 256) (R := 16512) (D := 32)
    gather_S100000x256_S16512x32x1_S16512x32x256_2_0_n_n_0_2_1256_wf (nbrIx (F := F) x6 x7 x8 x9) R d f (by decide) T).trans ?_
  refine (congrArg (fun r => T (ix2 r f)) (pick_of_eq (nbrIx_apply (F := F) x6 x7 x8 x9 R d) _)).trans ?_
  rw [adj_apply]
  rfl

end Words

/-! ## At the ideal instance -/

section AtIdeal
variable (x0 x1 : (⟨S100000x256, .f32⟩ : BufTy).Contents (Elt Ideal))
  (x2 x4 : (⟨S256x512, .f32⟩ : BufTy).Contents (Elt Ideal)) (x3 x5 : (⟨S256, .f32⟩ : BufTy).Contents (Elt Ideal))
  (x6 : (⟨S100000x32, .i32⟩ : BufTy).Contents (Elt Ideal))
  (x7 x8 : (⟨S8192, .i32⟩ : BufTy).Contents (Elt Ideal)) (x9 : (⟨S10, .i32⟩ : BufTy).Contents (Elt Ideal))

/-- The gathered node rows: the first table at the row the node word picks. -/
theorem t17_apply (R : Fin 16512) (f : Fin 256) :
    t17 (F := Ideal) x0 x7 x8 x9 (ix2 R f)
      = x0 (ix2 (Cert.Agg.pick (comb (F := Ideal) x7 x8 x9 (ix1 R))) f) :=
  nodeRows_apply (F := Ideal) x7 x8 x9 (truncf (F := Ideal) (φ := .f32) .bf16 x0 bitsLt_bf16_f32) R f

/-- The gathered neighbour rows of the first table: the table at the row the neighbour word picks. -/
theorem t31_apply (R : Fin 16512) (d : Fin 32) (f : Fin 256) :
    t31 (F := Ideal) x0 x6 x7 x8 x9 (ix3 R d f)
      = x0 (ix2 (Cert.Agg.nbr x6 (comb (F := Ideal) x7 x8 x9 (ix1 R)) d) f) :=
  nbrRows_apply (F := Ideal) x6 x7 x8 x9 (truncf (F := Ideal) (φ := .f32) .bf16 x0 bitsLt_bf16_f32) R d f

/-- The gathered neighbour rows of the second table: the table at the row the neighbour word picks. -/
theorem t38_apply (R : Fin 16512) (d : Fin 32) (f : Fin 256) :
    t38 (F := Ideal) x1 x6 x7 x8 x9 (ix3 R d f)
      = x1 (ix2 (Cert.Agg.nbr x6 (comb (F := Ideal) x7 x8 x9 (ix1 R)) d) f) :=
  nbrRows_apply (F := Ideal) x6 x7 x8 x9 (truncf (F := Ideal) (φ := .f32) .bf16 x1 bitsLt_bf16_f32) R d f

/-- The transposed first weight matrix at `(k, o)` is the matrix at `(o, k)`. -/
theorem t3_apply (k : Fin 512) (o : Fin 256) : t3 (F := Ideal) x2 (ix2 k o) = x2 (ix2 o k) :=
  transpose_ix2_apply x2 transposes_S256x512_S512x256_1_0 k o

/-- The transposed second weight matrix at `(k, o)` is the matrix at `(o, k)`. -/
theorem t5_apply (k : Fin 512) (o : Fin 256) : t5 (F := Ideal) x4 (ix2 k o) = x4 (ix2 o k) :=
  transpose_ix2_apply x4 transposes_S256x512_S512x256_1_0 k o

/-- The first bias row at column `o` is the vector's entry `o`. -/
theorem t6_apply (o : Fin 256) : t6 (F := Ideal) x3 (ix2 (0 : Fin 1) o) = x3 (ix1 o) :=
  shapeCast_a_1a_apply x3 shapeCasts_S256_S1x256 0 o

/-- The second bias row at column `o` is the vector's entry `o`. -/
theorem t7_apply (o : Fin 256) : t7 (F := Ideal) x5 (ix2 (0 : Fin 1) o) = x5 (ix1 o) :=
  shapeCast_a_1a_apply x5 shapeCasts_S256_S1x256 0 o

end AtIdeal

end Cert.KernelIdeal.HostRows

end
-- ==== Proof.HostRun.lean ====
/-
  What running the 48 host lines before the region leaves in the three gathered arrays.

  The lines are cut into five consecutive stretches. The first joins and pads the node words and narrows the two
  tables; each of the other four wraps an index array, gives it a trailing unit axis and gathers rows with it. Each
  stretch is run from ANY contents: its gathered array is the composition of its operations applied to the contents it
  reads, and it leaves every array it does not write as it was. Chained, the three arrays are the functions of the
  arguments that the module of the host lines' pure terms names.
-/
import proofs.«111308_j49039936585979_2_alg».proof.Proof.AroundIdeal
import proofs.«111308_j49039936585979_2_alg».proof.Proof.HostRows
import Idealize.ShloMosaic.Lib.StableHlo.Run
import Idealize.ShloMosaic.PureOps.Ideal

set_option maxRecDepth 16384

noncomputable section

namespace Cert.KernelIdeal.HostRun

open Cert.KernelIdeal Cert.KernelIdeal.Gen Cert.KernelIdeal.Around
open Idealize.ShloMosaic Idealize.ShloMosaic.TcCoe Idealize.SL.Sem Idealize.ShloMosaic.StableHlo

variable {F : FTy → Type} [FloatOps F]

/-! ## The lines in five stretches -/

/-- The first twelve host lines: the format changes, transposes and reshapes of the arguments, and the node words joined and padded. -/
abbrev segA : List (HloOp τ sig (Elt F)) :=
  [ StableHlo.unary main_arg0 main_v0 ((truncf .bf16 · bitsLt_bf16_f32) : (⟨S100000x256, .f32⟩ : BufTy).Contents (Elt F) → (⟨S100000x256, .bf16⟩ : BufTy).Contents (Elt F)),
    StableHlo.unary main_arg1 main_v1 ((truncf .bf16 · bitsLt_bf16_f32) : (⟨S100000x256, .f32⟩ : BufTy).Contents (Elt F) → (⟨S100000x256, .bf16⟩ : BufTy).Contents (Elt F)),
    StableHlo.unary main_arg2 main_v2 ((transpose S512x256 [1, 0] · transposes_S256x512_S512x256_1_0) : (⟨S256x512, .f32⟩ : BufTy).Contents (Elt F) → (⟨S512x256, .f32⟩ : BufTy).Contents (Elt F)),
    StableHlo.unary main_v2 main_v3 ((truncf .bf16 · bitsLt_bf16_f32) : (⟨S512x256, .f32⟩ : BufTy).Contents (Elt F) → (⟨S512x256, .bf16⟩ : BufTy).Contents (Elt F)),
    StableHlo.unary main_arg4 main_v4 ((transpose S512x256 [1, 0] · transposes_S256x512_S512x256_1_0) : (⟨S256x512, .f32⟩ : BufTy).Contents (Elt F) → (⟨S512x256, .f32⟩ : BufTy).Contents (Elt F)),
    StableHlo.unary main_v4 main_v5 ((truncf .bf16 · bitsLt_bf16_f32) : (⟨S512x256, .f32⟩ : BufTy).Contents (Elt F) → (⟨S512x256, .bf16⟩ : BufTy).Contents (Elt F)),
    StableHlo.reshape main_arg3 main_v6 rfl shapeCasts_S256_S1x256,
    StableHlo.reshape main_arg5 main_v7 rfl shapeCasts_S256_S1x256,
    StableHlo.nary ![main_arg7, main_arg8, main_arg9] main_v8 (fun u => concatenate S16394 0 [⟨S8192, u 0⟩, ⟨S8192, u 1⟩, ⟨S10, u 2⟩] concatenates_S8192_S8192_S10_S16394_d0),
    StableHlo.nullary main_c (constantI S_ 32 0#32),
    StableHlo.unary main_c main_v9 (broadcastInDim S118 ![] bcast_S_S118 : (⟨S_, .i32⟩ : BufTy).Contents (Elt F) → (⟨S118, .i32⟩ : BufTy).Contents (Elt F)),
    StableHlo.binary main_v8 main_v9 main_v10 ((fun a b => concatenate S16512 0 [⟨S16394, a⟩, ⟨S118, b⟩] concatenates_S16394_S118_S16512_d0) : (⟨S16394, .i32⟩ : BufTy).Contents (Elt F) → (⟨S118, .i32⟩ : BufTy).Contents (Elt F) → (⟨S16512, .i32⟩ : BufTy).Contents (Elt F)) ]

/-- The next nine: the node words wrapped, carried as a column, and the node rows gathered. -/
abbrev segB : List (HloOp τ sig (Elt F)) :=
  [ StableHlo.nullary main_c_0 (constantI S_ 32 0#32),
    StableHlo.unary main_c_0 main_v11 (broadcastInDim S16512 ![] bcast_S_S16512 : (⟨S_, .i32⟩ : BufTy).Contents (Elt F) → (⟨S16512, .i32⟩ : BufTy).Contents (Elt F)),
    StableHlo.binary main_v10 main_v11 main_v12 (cmpi .slt : (⟨S16512, .i32⟩ : BufTy).Contents (Elt F) → (⟨S16512, .i32⟩ : BufTy).Contents (Elt F) → (⟨S16512, .i1⟩ : BufTy).Contents (Elt F)),
    StableHlo.nullary main_c_1 (constantI S_ 32 100000#32),
    StableHlo.unary main_c_1 main_v13 (broadcastInDim S16512 ![] bcast_S_S16512 : (⟨S_, .i32⟩ : BufTy).Contents (Elt F) → (⟨S16512, .i32⟩ : BufTy).Contents (Elt F)),
    StableHlo.binary main_v10 main_v13 main_v14 (addi : (⟨S16512, .i32⟩ : BufTy).Contents (Elt F) → (⟨S16512, .i32⟩ : BufTy).Contents (Elt F) → (⟨S16512, .i32⟩ : BufTy).Contents (Elt F)),
    StableHlo.ternary main_v12 main_v14 main_v10 main_v15 (select : (⟨S16512, .i1⟩ : BufTy).Contents (Elt F) → (⟨S16512, .i32⟩ : BufTy).Contents (Elt F) → (⟨S16512, .i32⟩ : BufTy).Contents (Elt F) → (⟨S16512, .i32⟩ : BufTy).Contents (Elt F)),
    StableHlo.unary main_v15 main_v16 (broadcastInDim S16512x1 ![0] bcast_S16512_S16512x1_0 : (⟨S16512, .i32⟩ : BufTy).Contents (Elt F) → (⟨S16512x1, .i32⟩ : BufTy).Contents (Elt F)),
    StableHlo.binary main_v0 main_v16 main_v17 ((fun x i => Host.gather gather_S100000x256_S16512x1_S16512x256_1_0_n_n_0_1_1256 x i) : (⟨S100000x256, .bf16⟩ : BufTy).Contents (Elt F) → (⟨S16512x1, .i32⟩ : BufTy).Contents (Elt F) → (⟨S16512x256, .bf16⟩ : BufTy).Contents (Elt F)) ]

/-- The next nine: the node words wrapped again, and the adjacency rows gathered. -/
abbrev segC : List (HloOp τ sig (Elt F)) :=
  [ StableHlo.nullary main_c_2 (constantI S_ 32 0#32),
    StableHlo.unary main_c_2 main_v18 (broadcastInDim S16512 ![] bcast_S_S16512 : (⟨S_, .i32⟩ : BufTy).Contents (Elt F) → (⟨S16512, .i32⟩ : BufTy).Contents (Elt F)),
    StableHlo.binary main_v10 main_v18 main_v19 (cmpi .slt : (⟨S16512, .i32⟩ : BufTy).Contents (Elt F) → (⟨S16512, .i32⟩ : BufTy).Contents (Elt F) → (⟨S16512, .i1⟩ : BufTy).Contents (Elt F)),
    StableHlo.nullary main_c_3 (constantI S_ 32 100000#32),
    StableHlo.unary main_c_3 main_v20 (broadcastInDim S16512 ![] bcast_S_S16512 : (⟨S_, .i32⟩ : BufTy).Contents (Elt F) → (⟨S16512, .i32⟩ : BufTy).Contents (Elt F)),
    StableHlo.binary main_v10 main_v20 main_v21 (addi : (⟨S16512, .i32⟩ : BufTy).Contents (Elt F) → (⟨S16512, .i32⟩ : BufTy).Contents (Elt F) → (⟨S16512, .i32⟩ : BufTy).Contents (Elt F)),
    StableHlo.ternary main_v19 main_v21 main_v10 main_v22 (select : (⟨S16512, .i1⟩ : BufTy).Contents (Elt F) → (⟨S16512, .i32⟩ : BufTy).Contents (Elt F) → (⟨S16512, .i32⟩ : BufTy).Contents (Elt F) → (⟨S16512, .i32⟩ : BufTy).Contents (Elt F)),
    StableHlo.unary main_v22 main_v23 (broadcastInDim S16512x1 ![0] bcast_S16512_S16512x1_0 : (⟨S16512, .i32⟩ : BufTy).Contents (Elt F) → (⟨S16512x1, .i32⟩ : BufTy).Contents (Elt F)),
    StableHlo.binary main_arg6 main_v23 main_v24 ((fun x i => Host.gather gather_S100000x32_S16512x1_S16512x32_1_0_n_n_0_1_132 x i) : (⟨S100000x32, .i32⟩ : BufTy).Contents (Elt F) → (⟨S16512x1, .i32⟩ : BufTy).Contents (Elt F) → (⟨S16512x32, .i32⟩ : BufTy).Contents (Elt F)) ]

/-- The next nine: the neighbour words wrapped, and the first table's neighbour rows gathered. -/
abbrev segD : List (HloOp τ sig (Elt F)) :=
  [ StableHlo.nullary main_c_4 (constantI S_ 32 0#32),
    StableHlo.unary main_c_4 main_v25 (broadcastInDim S16512x32 ![] bcast_S_S16512x32 : (⟨S_, .i32⟩ : BufTy).Contents (Elt F) → (⟨S16512x32, .i32⟩ : BufTy).Contents (Elt F)),
    StableHlo.binary main_v24 main_v25 main_v26 (cmpi .slt : (⟨S16512x32, .i32⟩ : BufTy).Contents (Elt F) → (⟨S16512x32, .i32⟩ : BufTy).Contents (Elt F) → (⟨S16512x32, .i1⟩ : BufTy).Contents (Elt F)),
    StableHlo.nullary main_c_5 (constantI S_ 32 100000#32),
    StableHlo.unary main_c_5 main_v27 (broadcastInDim S16512x32 ![] bcast_S_S16512x32 : (⟨S_, .i32⟩ : BufTy).Contents (Elt F) → (⟨S16512x32, .i32⟩ : BufTy).Contents (Elt F)),
    StableHlo.binary main_v24 main_v27 main_v28 (addi : (⟨S16512x32, .i32⟩ : BufTy).Contents (Elt F) → (⟨S16512x32, .i32⟩ : BufTy).Contents (Elt F) → (⟨S16512x32, .i32⟩ : BufTy).Contents (Elt F)),
    StableHlo.ternary main_v26 main_v28 main_v24 main_v29 (select : (⟨S16512x32, .i1⟩ : BufTy).Contents (Elt F) → (⟨S16512x32, .i32⟩ : BufTy).Contents (Elt F) → (⟨S16512x32, .i32⟩ : BufTy).Contents (Elt F) → (⟨S16512x32, .i32⟩ : BufTy).Contents (Elt F)),
    StableHlo.unary main_v29 main_v30 (broadcastInDim S16512x32x1 ![0, 1] bcast_S16512x32_S16512x32x1_0_1 : (⟨S16512x32, .i32⟩ : BufTy).Contents (Elt F) → (⟨S16512x32x1, .i32⟩ : BufTy).Contents (Elt F)),
    StableHlo.binary main_v0 main_v30 main_v31 ((fun x i => Host.gather gather_S100000x256_S16512x32x1_S16512x32x256_2_0_n_n_0_2_1256 x i) : (⟨S100000x256, .bf16⟩ : BufTy).Contents (Elt F) → (⟨S16512x32x1, .i32⟩ : BufTy).Contents (Elt F) → (⟨S16512x32x256, .bf16⟩ : BufTy).Contents (Elt F)) ]

/-- The last nine: the neighbour words wrapped again, and the second table's neighbour rows gathered. -/
abbrev segE : List (HloOp τ sig (Elt F)) :=
  [ StableHlo.nullary main_c_6 (constantI S_ 32 0#32),
    StableHlo.unary main_c_6 main_v32 (broadcastInDim S16512x32 ![] bcast_S_S16512x32 : (⟨S_, .i32⟩ : BufTy).Contents (Elt F) → (⟨S16512x32, .i32⟩ : BufTy).Contents (Elt F)),
    StableHlo.binary main_v24 main_v32 main_v33 (cmpi .slt : (⟨S16512x32, .i32⟩ : BufTy).Contents (Elt F) → (⟨S16512x32, .i32⟩ : BufTy).Contents (Elt F) → (⟨S16512x32, .i1⟩ : BufTy).Contents (Elt F)),
    StableHlo.nullary main_c_7 (constantI S_ 32 100000#32),
    StableHlo.unary main_c_7 main_v34 (broadcastInDim S16512x32 ![] bcast_S_S16512x32 : (⟨S_, .i32⟩ : BufTy).Contents (Elt F) → (⟨S16512x32, .i32⟩ : BufTy).Contents (Elt F)),
    StableHlo.binary main_v24 main_v34 main_v35 (addi : (⟨S16512x32, .i32⟩ : BufTy).Contents (Elt F) → (⟨S16512x32, .i32⟩ : BufTy).Contents (Elt F) → (⟨S16512x32, .i32⟩ : BufTy).Contents (Elt F)),
    StableHlo.ternary main_v33 main_v35 main_v24 main_v36 (select : (⟨S16512x32, .i1⟩ : BufTy).Contents (Elt F) → (⟨S16512x32, .i32⟩ : BufTy).Contents (Elt F) → (⟨S16512x32, .i32⟩ : BufTy).Contents (Elt F) → (⟨S16512x32, .i32⟩ : BufTy).Contents (Elt F)),
    StableHlo.unary main_v36 main_v37 (broadcastInDim S16512x32x1 ![0, 1] bcast_S16512x32_S16512x32x1_0_1 : (⟨S16512x32, .i32⟩ : BufTy).Contents (Elt F) → (⟨S16512x32x1, .i32⟩ : BufTy).Contents (Elt F)),
    StableHlo.binary main_v1 main_v37 main_v38 ((fun x i => Host.gather gather_S100000x256_S16512x32x1_S16512x32x256_2_0_n_n_0_2_1256 x i) : (⟨S100000x256, .bf16⟩ : BufTy).Contents (Elt F) → (⟨S16512x32x1, .i32⟩ : BufTy).Contents (Elt F) → (⟨S16512x32x256, .bf16⟩ : BufTy).Contents (Elt F)) ]

/-- The 48 lines are the five stretches in order. -/
theorem hostOps0_eq : (hostOps0 : List (HloOp τ sig (Elt F))) = segA ++ (segB ++ (segC ++ (segD ++ segE))) := rfl

/-- Running two stretches one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- A three-operand line's result with each operand's contents at its own reference. -/
theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-! ## Each stretch from any contents -/

section Stretches
variable (W : Valuation τ sig (Elt F))

/-- The first stretch leaves the first table narrowed, -/
theorem segA_v0 : after segA W (Proc.devRef .tc main_v0) = truncf .bf16 (W (Proc.devRef .tc main_arg0)) bitsLt_bf16_f32 := by
  after_results

/-- the second table narrowed, -/
theorem segA_v1 : after segA W (Proc.devRef .tc main_v1) = truncf .bf16 (W (Proc.devRef .tc main_arg1)) bitsLt_bf16_f32 := by
  after_results

/-- the node words joined and padded, -/
theorem segA_v10 :
    after segA W (Proc.devRef .tc main_v10)
      = HostRows.comb (F := F) (W (Proc.devRef .tc main_arg7)) (W (Proc.devRef .tc main_arg8)) (W (Proc.devRef .tc main_arg9)) := by
  simp only [after_cons, after_nil]
  repeat (first
    | rw [nullary_result] | rw [unary_result] | rw [binary_result] | rw [nary3_result]
    | (rw [nullary_result_ne]; rotate_left; decide)
    | (rw [unary_result_ne]; rotate_left; decide)
    | (rw [binary_result_ne]; rotate_left; decide)
    | (rw [reshape_result_ne]; rotate_left; decide)
    | (rw [nary_result_ne]; rotate_left; decide))
  rfl

/-- and the adjacency table as it was. -/
theorem segA_arg6 : after segA W (Proc.devRef .tc main_arg6) = W (Proc.devRef .tc main_arg6) := by
  after_results

/-- The second stretch gathers the node rows -/
theorem segB_v17 :
    after segB W (Proc.devRef .tc main_v17)
      = Host.gather gather_S100000x256_S16512x1_S16512x256_1_0_n_n_0_1_1256 (W (Proc.devRef .tc main_v0)) (broadcastInDim S16512x1 ![0] bcast_S16512_S16512x1_0 (HostRows.wrapV (F := F) (W (Proc.devRef .tc main_v10)))) := by
  after_results
  rfl

/-- and leaves what the later stretches read. -/
theorem segB_v0 : after segB W (Proc.devRef .tc main_v0) = W (Proc.devRef .tc main_v0) := by
  after_results

theorem segB_v1 : after segB W (Proc.devRef .tc main_v1) = W (Proc.devRef .tc main_v1) := by
  after_results

theorem segB_v10 : after segB W (Proc.devRef .tc main_v10) = W (Proc.devRef .tc main_v10) := by
  after_results

theorem segB_arg6 : after segB W (Proc.devRef .tc main_arg6) = W (Proc.devRef .tc main_arg6) := by
  after_results

/-- The third stretch gathers the adjacency rows -/
theorem segC_v24 :
    after segC W (Proc.devRef .tc main_v24)
      = Host.gather gather_S100000x32_S16512x1_S16512x32_1_0_n_n_0_1_132 (W (Proc.devRef .tc main_arg6)) (broadcastInDim S16512x1 ![0] bcast_S16512_S16512x1_0 (HostRows.wrapV (F := F) (W (Proc.devRef .tc main_v10)))) := by
  after_results
  rfl

/-- and leaves the narrowed tables and the gathered node rows. -/
theorem segC_v0 : after segC W (Proc.devRef .tc main_v0) = W (Proc.devRef .tc main_v0) := by
  after_results

theorem segC_v1 : after segC W (Proc.devRef .tc main_v1) = W (Proc.devRef .tc main_v1) := by
  after_results

theorem segC_v17 : after segC W (Proc.devRef .tc main_v17) = W (Proc.devRef .tc main_v17) := by
  after_results

/-- The fourth stretch gathers the first table's neighbour rows -/
theorem segD_v31 :
    after segD W (Proc.devRef .tc main_v31)
      = Host.gather gather_S100000x256_S16512x32x1_S16512x32x256_2_0_n_n_0_2_1256 (W (Proc.devRef .tc main_v0)) (broadcastInDim S16512x32x1 ![0, 1] bcast_S16512x32_S16512x32x1_0_1 (HostRows.wrapM (F := F) (W (Proc.devRef .tc main_v24)))) := by
  after_results
  rfl

/-- and leaves the second narrowed table, the gathered node rows and the adjacency rows. -/
theorem segD_v1 : after segD W (Proc.devRef .tc main_v1) = W (Proc.devRef .tc main_v1) := by
  after_results

theorem segD_v17 : after segD W (Proc.devRef .tc main_v17) = W (Proc.devRef .tc main_v17) := by
  after_results

theorem segD_v24 : after segD W (Proc.devRef .tc main_v24) = W (Proc.devRef .tc main_v24) := by
  after_results

/-- The fifth stretch gathers the second table's neighbour rows -/
theorem segE_v38 :
    after segE W (Proc.devRef .tc main_v38)
      = Host.gather gather_S100000x256_S16512x32x1_S16512x32x256_2_0_n_n_0_2_1256 (W (Proc.devRef .tc main_v1)) (broadcastInDim S16512x32x1 ![0, 1] bcast_S16512x32_S16512x32x1_0_1 (HostRows.wrapM (F := F) (W (Proc.devRef .tc main_v24)))) := by
  after_results
  rfl

/-- and leaves the two arrays gathered before it. -/
theorem segE_v17 : after segE W (Proc.devRef .tc main_v17) = W (Proc.devRef .tc main_v17) := by
  after_results

theorem segE_v31 : after segE W (Proc.devRef .tc main_v31) = W (Proc.devRef .tc main_v31) := by
  after_results

end Stretches

/-! ## The three gathered arrays after the 48 lines -/

section Chained
variable (m : (ℓ : Loc nD τ sig) → Buf (Elt F) ℓ)

/-- The contents the region finds: the five stretches run in order from the launch contents. -/
theorem V0_eq (c : Dev nD) :
    V0 m c = after segE (after segD (after segC (after segB (after segA (fun b => m (c, b)))))) := by
  show after hostOps0 (fun b => m (c, b)) = _
  rw [hostOps0_eq, after_append, after_append, after_append, after_append]

/-- The gathered node rows. -/
theorem V17 (c : Dev nD) :
    V m c main_v17 = HostRows.t17 (F := F) (m ((c.tc : Thread nD τ).loc main_arg0)) (m ((c.tc : Thread nD τ).loc main_arg7))
      (m ((c.tc : Thread nD τ).loc main_arg8)) (m ((c.tc : Thread nD τ).loc main_arg9)) := by
  show V0 m c (Proc.devRef .tc main_v17) = _
  rw [V0_eq, segE_v17, segD_v17, segC_v17, segB_v17, segA_v0, segA_v10]
  rfl

/-- The adjacency rows, midway. -/
theorem adj_eq (c : Dev nD) :
    after segC (after segB (after segA (fun b => m (c, b)))) (Proc.devRef .tc main_v24)
      = HostRows.adj (F := F) (m ((c.tc : Thread nD τ).loc main_arg6)) (m ((c.tc : Thread nD τ).loc main_arg7))
          (m ((c.tc : Thread nD τ).loc main_arg8)) (m ((c.tc : Thread nD τ).loc main_arg9)) := by
  rw [segC_v24, segB_arg6, segB_v10, segA_arg6, segA_v10]
  rfl

/-- The gathered neighbour rows of the first table. -/
theorem V31 (c : Dev nD) :
    V m c main_v31 = HostRows.t31 (F := F) (m ((c.tc : Thread nD τ).loc main_arg0)) (m ((c.tc : Thread nD τ).loc main_arg6))
      (m ((c.tc : Thread nD τ).loc main_arg7)) (m ((c.tc : Thread nD τ).loc main_arg8)) (m ((c.tc : Thread nD τ).loc main_arg9)) := by
  show V0 m c (Proc.devRef .tc main_v31) = _
  rw [V0_eq, segE_v31, segD_v31, adj_eq, segC_v0, segB_v0, segA_v0]
  rfl

/-- The gathered neighbour rows of the second table. -/
theorem V38 (c : Dev nD) :
    V m c main_v38 = HostRows.t38 (F := F) (m ((c.tc : Thread nD τ).loc main_arg1)) (m ((c.tc : Thread nD τ).loc main_arg6))
      (m ((c.tc : Thread nD τ).loc main_arg7)) (m ((c.tc : Thread nD τ).loc main_arg8)) (m ((c.tc : Thread nD τ).loc main_arg9)) := by
  show V0 m c (Proc.devRef .tc main_v38) = _
  rw [V0_eq, segE_v38, segD_v24, segD_v1, adj_eq, segC_v1, segB_v1, segA_v1]
  rfl

end Chained

end Cert.KernelIdeal.HostRun

end
-- ==== Proof.KernelOut.lean ====
/-
  What the kernel's program leaves in its three results, row by row, at the ideal instance.

  After the region its [16512, 256] result holds, in row `R`, the kernel's output row of the node whose index
  word is entry `R` of the joined and padded word array; @main's three results are rows 0 … 8191, 8192 … 16383
  and 16384 … 16393 of it: the rows of the first, the second and the third node array.
-/
import proofs.«111308_j49039936585979_2_alg».proof.Proof.AroundIdeal
import proofs.«111308_j49039936585979_2_alg».proof.Proof.SliceRows
import proofs.«111308_j49039936585979_2_alg».proof.Proof.RegionRows
import proofs.«111308_j49039936585979_2_alg».proof.Proof.HostRows
import proofs.«111308_j49039936585979_2_alg».proof.Proof.HostRun
import proofs.«111308_j49039936585979_2_alg».proof.Proof.Spec
import Idealize.ShloMosaic.Lib.StableHlo.Run
import Idealize.ShloMosaic.Lib.Pipeline.Value
import Idealize.ShloMosaic.PureOps.Ideal

set_option maxRecDepth 16384

noncomputable section

namespace Cert.KernelIdeal.Out

open Cert.KernelIdeal Cert.KernelIdeal.Gen Cert.KernelIdeal.Around
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ)

/-! ## The three slices of the region's result -/

/-- The region's result array after the run, as the three slices find it. -/
theorem tail_reads (c : Dev nD) :
    Pipeline.withArrays (cfgs 0).spec c (V0 m c) (fun w => (dats m 0 c).arrAt w (cfgs 0).N) (Proc.devRef .tc main_v39)
      = (dats m 0 c).arrAt 7 cfg0.N :=
  Pipeline.withArrays_arr spec0 launch0.win.arr_inj c _ _ 7

/-- The first result is rows 0 … 8191 of the region's result, -/
theorem tail40 (c : Dev nD) : Pipeline.afterTail₀ cfgs (dats m) 0 (V0 m) [hostOps1] c main_v40
    = extractStridedSlice S8192x256 ![0, 0] ((dats m 0 c).arrAt 7 cfg0.N) slices_S16512x256_S8192x256_0_0 := by
  unfold Pipeline.afterTail₀
  show StableHlo.after hostOps1 _ (Proc.devRef .tc main_v40) = _
  after_results
  rw [tail_reads]

/-- the second rows 8192 … 16383, -/
theorem tail41 (c : Dev nD) : Pipeline.afterTail₀ cfgs (dats m) 0 (V0 m) [hostOps1] c main_v41
    = extractStridedSlice S8192x256 ![8192, 0] ((dats m 0 c).arrAt 7 cfg0.N) slices_S16512x256_S8192x256_8192_0 := by
  unfold Pipeline.afterTail₀
  show StableHlo.after hostOps1 _ (Proc.devRef .tc main_v41) = _
  after_results
  rw [tail_reads]

/-- the third rows 16384 … 16393. -/
theorem tail42 (c : Dev nD) : Pipeline.afterTail₀ cfgs (dats m) 0 (V0 m) [hostOps1] c main_v42
    = extractStridedSlice S10x256 ![16384, 0] ((dats m 0 c).arrAt 7 cfg0.N) slices_S16512x256_S10x256_16384_0 := by
  unfold Pipeline.afterTail₀
  show StableHlo.after hostOps1 _ (Proc.devRef .tc main_v42) = _
  after_results
  rw [tail_reads]

/-! ## The weights and biases as the host lines leave them -/

theorem V3 (c : Dev nD) : V m c main_v3 = HostRows.t3 (m ((c.tc : Thread nD τ).loc main_arg2)) := by
  show StableHlo.after hostOps0 (fun b => m (c, b)) (Proc.devRef .tc main_v3) = _
  after_results
  rfl
theorem V5 (c : Dev nD) : V m c main_v5 = HostRows.t5 (m ((c.tc : Thread nD τ).loc main_arg4)) := by
  show StableHlo.after hostOps0 (fun b => m (c, b)) (Proc.devRef .tc main_v5) = _
  after_results
  rfl
theorem V6 (c : Dev nD) : V m c main_v6 = HostRows.t6 (m ((c.tc : Thread nD τ).loc main_arg3)) := by
  show StableHlo.after hostOps0 (fun b => m (c, b)) (Proc.devRef .tc main_v6) = _
  after_results
  rfl
theorem V7 (c : Dev nD) : V m c main_v7 = HostRows.t7 (m ((c.tc : Thread nD τ).loc main_arg5)) := by
  show StableHlo.after hostOps0 (fun b => m (c, b)) (Proc.devRef .tc main_v7) = _
  after_results
  rfl

/-! ## A row of the region's result is the kernel's output row of that row's node word -/

theorem rowsOut_apply (c : Dev nD) (R : Fin 16512) (o : Fin 256) :
    RegionRows.rowsOut m c (ix2 R o)
      = Cert.Agg.outKer (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg6))
          (HostRows.comb (m ((c.tc : Thread nD τ).loc main_arg7)) (m ((c.tc : Thread nD τ).loc main_arg8)) (m ((c.tc : Thread nD τ).loc main_arg9)) (ix1 R)) o := by
  unfold RegionRows.rowsOut Cert.Agg.outKer
  simp only [HostRun.V31 m c, HostRun.V38 m c, HostRun.V17 m c, V3 m c, V5 m c, V6 m c, V7 m c]
  have hR : (⟨((ix2 R o : S16512x256.Idx) 0).val, ((ix2 R o : S16512x256.Idx) 0).isLt⟩ : Fin 16512) = R := rfl
  have ho : (⟨((ix2 R o : S16512x256.Idx) 1).val, ((ix2 R o : S16512x256.Idx) 1).isLt⟩ : Fin 256) = o := rfl
  rw [hR, ho]
  simp only [HostRows.t31_apply, HostRows.t38_apply, HostRows.t17_apply, HostRows.t3_apply, HostRows.t5_apply,
    HostRows.t6_apply, HostRows.t7_apply]

/-! ## The three results, row by row -/

/-- Row `r` of the first result is the kernel's output row of the first node array's word `r`. -/
theorem out40_apply (c : Dev nD) (r : Fin 8192) (o : Fin 256) :
    Pipeline.afterTail₀ cfgs (dats m) 0 (V0 m) [hostOps1] c main_v40 (ix2 r o)
      = Cert.Agg.outKer (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg6))
          ((m ((c.tc : Thread nD τ).loc main_arg7)) (ix1 r)) o := by
  rw [tail40, SliceRows.slice_lo, RegionRows.final, rowsOut_apply, HostRows.comb_lo]

/-- Row `r` of the second result, of the second node array's word `r`. -/
theorem out41_apply (c : Dev nD) (r : Fin 8192) (o : Fin 256) :
    Pipeline.afterTail₀ cfgs (dats m) 0 (V0 m) [hostOps1] c main_v41 (ix2 r o)
      = Cert.Agg.outKer (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg6))
          ((m ((c.tc : Thread nD τ).loc main_arg8)) (ix1 r)) o := by
  rw [tail41, SliceRows.slice_mid, RegionRows.final, rowsOut_apply, HostRows.comb_mid]

/-- Row `r` of the third result, of the third node array's word `r`. -/
theorem out42_apply (c : Dev nD) (r : Fin 10) (o : Fin 256) :
    Pipeline.afterTail₀ cfgs (dats m) 0 (V0 m) [hostOps1] c main_v42 (ix2 r o)
      = Cert.Agg.outKer (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg6))
          ((m ((c.tc : Thread nD τ).loc main_arg9)) (ix1 r)) o := by
  rw [tail42, SliceRows.slice_hi, RegionRows.final, rowsOut_apply, HostRows.comb_hi]

end Cert.KernelIdeal.Out

end
-- ==== Proof.RefRun.lean ====
/-
  The reference program's run, read back against the stages of its three result rows.

  The program is a straight line of 177 host operations: three stretches of 59, one per node array, each ending in
  the operation that writes one result. No stretch reads a buffer another stretch writes, and no operation writes an
  argument. So the contents a result buffer ends with are those its own stretch leaves, computed from the arguments
  alone — the stretches before it leave the arguments as they were, the stretches after it do not write it — and that
  composition of the stretch's 59 operations is, definition by definition, the stage the read-at-an-index module
  names `val_main_v44`, `val_main_v89`, `val_main_v134`.
-/
import proofs.«111308_j49039936585979_2_alg».proof.Proof.RefRead
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The first stretch: the 59 operations that compute `main_v44` from the arguments. -/
abbrev ops1 : List (HloOp τ sig (Elt F)) :=
  [ nullary main_c (constantI S_ 32 0#32),
    unary main_c main_v0 (broadcastInDim S8192 ![] bcast_S_S8192 : (⟨S_, .i32⟩ : BufTy).Contents (Elt F) → (⟨S8192, .i32⟩ : BufTy).Contents (Elt F)),
    binary main_arg7 main_v0 main_v1 (cmpi .slt : (⟨S8192, .i32⟩ : BufTy).Contents (Elt F) → (⟨S8192, .i32⟩ : BufTy).Contents (Elt F) → (⟨S8192, .i1⟩ : BufTy).Contents (Elt F)),
    nullary main_c_0 (constantI S_ 32 100000#32),
    unary main_c_0 main_v2 (broadcastInDim S8192 ![] bcast_S_S8192 : (⟨S_, .i32⟩ : BufTy).Contents (Elt F) → (⟨S8192, .i32⟩ : BufTy).Contents (Elt F)),
    binary main_arg7 main_v2 main_v3 (addi : (⟨S8192, .i32⟩ : BufTy).Contents (Elt F) → (⟨S8192, .i32⟩ : BufTy).Contents (Elt F) → (⟨S8192, .i32⟩ : BufTy).Contents (Elt F)),
    ternary main_v1 main_v3 main_arg7 main_v4 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v4 main_v5 (broadcastInDim S8192x1 ![0] bcast_S8192_S8192x1_0 : (⟨S8192, .i32⟩ : BufTy).Contents (Elt F) → (⟨S8192x1, .i32⟩ : BufTy).Contents (Elt F)),
    binary main_arg0 main_v5 main_v6 ((fun x i => Host.gather gather_S100000x256_S8192x1_S8192x256_1_0_n_n_0_1_1256 x i) : (⟨S100000x256, .f32⟩ : BufTy).Contents (Elt F) → (⟨S8192x1, .i32⟩ : BufTy).Contents (Elt F) → (⟨S8192x256, .f32⟩ : BufTy).Contents (Elt F)),
    nullary main_c_1 (constantI S_ 32 0#32),
    unary main_c_1 main_v7 (broadcastInDim S8192 ![] bcast_S_S8192 : (⟨S_, .i32⟩ : BufTy).Contents (Elt F) → (⟨S8192, .i32⟩ : BufTy).Contents (Elt F)),
    binary main_arg7 main_v7 main_v8 (cmpi .slt : (⟨S8192, .i32⟩ : BufTy).Contents (Elt F) → (⟨S8192, .i32⟩ : BufTy).Contents (Elt F) → (⟨S8192, .i1⟩ : BufTy).Contents (Elt F)),
    nullary main_c_2 (constantI S_ 32 100000#32),
    unary main_c_2 main_v9 (broadcastInDim S8192 ![] bcast_S_S8192 : (⟨S_, .i32⟩ : BufTy).Contents (Elt F) → (⟨S8192, .i32⟩ : BufTy).Contents (Elt F)),
    binary main_arg7 main_v9 main_v10 (addi : (⟨S8192, .i32⟩ : BufTy).Contents (Elt F) → (⟨S8192, .i32⟩ : BufTy).Contents (Elt F) → (⟨S8192, .i32⟩ : BufTy).Contents (Elt F)),
    ternary main_v8 main_v10 main_arg7 main_v11 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v11 main_v12 (broadcastInDim S8192x1 ![0] bcast_S8192_S8192x1_0 : (⟨S8192, .i32⟩ : BufTy).Contents (Elt F) → (⟨S8192x1, .i32⟩ : BufTy).Contents (Elt F)),
    binary main_arg6 main_v12 main_v13 ((fun x i => Host.gather gather_S100000x32_S8192x1_S8192x32_1_0_n_n_0_1_132 x i) : (⟨S100000x32, .i32⟩ : BufTy).Contents (Elt F) → (⟨S8192x1, .i32⟩ : BufTy).Contents (Elt F) → (⟨S8192x32, .i32⟩ : BufTy).Contents (Elt F)),
    nullary main_c_3 (constantI S_ 32 0#32),
    unary main_c_3 main_v14 (broadcastInDim S8192x32 ![] bcast_S_S8192x32 : (⟨S_, .i32⟩ : BufTy).Contents (Elt F) → (⟨S8192x32, .i32⟩ : BufTy).Contents (Elt F)),
    binary main_v13 main_v14 main_v15 (cmpi .slt : (⟨S8192x32, .i32⟩ : BufTy).Contents (Elt F) → (⟨S8192x32, .i32⟩ : BufTy).Contents (Elt F) → (⟨S8192x32, .i1⟩ : BufTy).Contents (Elt F)),
    nullary main_c_4 (constantI S_ 32 100000#32),
    unary main_c_4 main_v16 (broadcastInDim S8192x32 ![] bcast_S_S8192x32 : (⟨S_, .i32⟩ : BufTy).Contents (Elt F) → (⟨S8192x32, .i32⟩ : BufTy).Contents (Elt F)),
    binary main_v13 main_v16 main_v17 (addi : (⟨S8192x32, .i32⟩ : BufTy).Contents (Elt F) → (⟨S8192x32, .i32⟩ : BufTy).Contents (Elt F) → (⟨S8192x32, .i32⟩ : BufTy).Contents (Elt F)),
    ternary main_v15 main_v17 main_v13 main_v18 (select : (⟨S8192x32, .i1⟩ : BufTy).Contents (Elt F) → (⟨S8192x32, .i32⟩ : BufTy).Contents (Elt F) → (⟨S8192x32, .i32⟩ : BufTy).Contents (Elt F) → (⟨S8192x32, .i32⟩ : BufTy).Contents (Elt F)),
    unary main_v18 main_v19 (broadcastInDim S8192x32x1 ![0, 1] bcast_S8192x32_S8192x32x1_0_1 : (⟨S8192x32, .i32⟩ : BufTy).Contents (Elt F) → (⟨S8192x32x1, .i32⟩ : BufTy).Contents (Elt F)),
    binary main_arg0 main_v19 main_v20 ((fun x i => Host.gather gather_S100000x256_S8192x32x1_S8192x32x256_2_0_n_n_0_2_1256 x i) : (⟨S100000x256, .f32⟩ : BufTy).Contents (Elt F) → (⟨S8192x32x1, .i32⟩ : BufTy).Contents (Elt F) → (⟨S8192x32x256, .f32⟩ : BufTy).Contents (Elt F)),
    nullary main_c_5 (constantI S_ 32 0#32),
    unary main_c_5 main_v21 (broadcastInDim S8192x32 ![] bcast_S_S8192x32 : (⟨S_, .i32⟩ : BufTy).Contents (Elt F) → (⟨S8192x32, .i32⟩ : BufTy).Contents (Elt F)),
    binary main_v13 main_v21 main_v22 (cmpi .slt : (⟨S8192x32, .i32⟩ : BufTy).Contents (Elt F) → (⟨S8192x32, .i32⟩ : BufTy).Contents (Elt F) → (⟨S8192x32, .i1⟩ : BufTy).Contents (Elt F)),
    nullary main_c_6 (constantI S_ 32 100000#32),
    unary main_c_6 main_v23 (broadcastInDim S8192x32 ![] bcast_S_S8192x32 : (⟨S_, .i32⟩ : BufTy).Contents (Elt F) → (⟨S8192x32, .i32⟩ : BufTy).Contents (Elt F)),
    binary main_v13 main_v23 main_v24 (addi : (⟨S8192x32, .i32⟩ : BufTy).Contents (Elt F) → (⟨S8192x32, .i32⟩ : BufTy).Contents (Elt F) → (⟨S8192x32, .i32⟩ : BufTy).Contents (Elt F)),
    ternary main_v22 main_v24 main_v13 main_v25 (select : (⟨S8192x32, .i1⟩ : BufTy).Contents (Elt F) → (⟨S8192x32, .i32⟩ : BufTy).Contents (Elt F) → (⟨S8192x32, .i32⟩ : BufTy).Contents (Elt F) → (⟨S8192x32, .i32⟩ : BufTy).Contents (Elt F)),
    unary main_v25 main_v26 (broadcastInDim S8192x32x1 ![0, 1] bcast_S8192x32_S8192x32x1_0_1 : (⟨S8192x32, .i32⟩ : BufTy).Contents (Elt F) → (⟨S8192x32x1, .i32⟩ : BufTy).Contents (Elt F)),
    binary main_arg1 main_v26 main_v27 ((fun x i => Host.gather gather_S100000x256_S8192x32x1_S8192x32x256_2_0_n_n_0_2_1256 x i) : (⟨S100000x256, .f32⟩ : BufTy).Contents (Elt F) → (⟨S8192x32x1, .i32⟩ : BufTy).Contents (Elt F) → (⟨S8192x32x256, .f32⟩ : BufTy).Contents (Elt F)),
    binary main_v20 main_v27 main_v28 ((fun a b => concatenate S8192x32x512 2 [⟨S8192x32x256, a⟩, ⟨S8192x32x256, b⟩] concatenates_S8192x32x256_S8192x32x256_S8192x32x512_d2) : (⟨S8192x32x256, .f32⟩ : BufTy).Contents (Elt F) → (⟨S8192x32x256, .f32⟩ : BufTy).Contents (Elt F) → (⟨S8192x32x512, .f32⟩ : BufTy).Contents (Elt F)),
    binary main_v28 main_arg2 main_v29 ((fun l r => Host.dotGeneral dot_S8192x32x512_S256x512_S8192x32x256_2_1_01_0_n_n none l r) : (⟨S8192x32x512, .f32⟩ : BufTy).Contents (Elt F) → (⟨S256x512, .f32⟩ : BufTy).Contents (Elt F) → (⟨S8192x32x256, .f32⟩ : BufTy).Contents (Elt F)),
    unary main_arg3 main_v30 (broadcastInDim S1x1x256 ![2] bcast_S256_S1x1x256_2 : (⟨S256, .f32⟩ : BufTy).Contents (Elt F) → (⟨S1x1x256, .f32⟩ : BufTy).Contents (Elt F)),
    unary main_v30 main_v31 (broadcastInDim S8192x32x256 ![0, 1, 2] bcast_S1x1x256_S8192x32x256_0_1_2 : (⟨S1x1x256, .f32⟩ : BufTy).Contents (Elt F) → (⟨S8192x32x256, .f32⟩ : BufTy).Contents (Elt F)),
    binary main_v29 main_v31 main_v32 (addf : (⟨S8192x32x256, .f32⟩ : BufTy).Contents (Elt F) → (⟨S8192x32x256, .f32⟩ : BufTy).Contents (Elt F) → (⟨S8192x32x256, .f32⟩ : BufTy).Contents (Elt F)),
    nullary main_cst (constant S_ .f32 0x00000000#32),
    binary main_v32 main_cst main_v33 ((fun x v => Host.reduceAdd x v reducesTo_S8192x32x256_S8192x256_d1 h_S_) : (⟨S8192x32x256, .f32⟩ : BufTy).Contents (Elt F) → (⟨S_, .f32⟩ : BufTy).Contents (Elt F) → (⟨S8192x256, .f32⟩ : BufTy).Contents (Elt F)),
    binary main_v6 main_v33 main_v34 ((fun a b => concatenate S8192x512 1 [⟨S8192x256, a⟩, ⟨S8192x256, b⟩] concatenates_S8192x256_S8192x256_S8192x512_d1) : (⟨S8192x256, .f32⟩ : BufTy).Contents (Elt F) → (⟨S8192x256, .f32⟩ : BufTy).Contents (Elt F) → (⟨S8192x512, .f32⟩ : BufTy).Contents (Elt F)),
    unary main_arg4 main_v35 ((transpose S512x256 [1, 0] · transposes_S256x512_S512x256_1_0) : (⟨S256x512, .f32⟩ : BufTy).Contents (Elt F) → (⟨S512x256, .f32⟩ : BufTy).Contents (Elt F)),
    binary main_v34 main_v35 main_v36 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    unary main_arg5 main_v37 (broadcastInDim S1x256 ![1] bcast_S256_S1x256_1 : (⟨S256, .f32⟩ : BufTy).Contents (Elt F) → (⟨S1x256, .f32⟩ : BufTy).Contents (Elt F)),
    unary main_v37 main_v38 (broadcastInDim S8192x256 ![0, 1] bcast_S1x256_S8192x256_0_1 : (⟨S1x256, .f32⟩ : BufTy).Contents (Elt F) → (⟨S8192x256, .f32⟩ : BufTy).Contents (Elt F)),
    binary main_v36 main_v38 main_v39 (addf : (⟨S8192x256, .f32⟩ : BufTy).Contents (Elt F) → (⟨S8192x256, .f32⟩ : BufTy).Contents (Elt F) → (⟨S8192x256, .f32⟩ : BufTy).Contents (Elt F)),
    TRef.binary (TRef.of (T := ⟨S8192x256, .f32⟩) main_v39) (TRef.of (T := ⟨S8192x256, .f32⟩) main_v39) (TRef.of (T := ⟨S8192x256, .f32⟩) main_call0_v0) mulf,
    TRef.nullary (TRef.of (T := ⟨S_, .f32⟩) main_call0_cst) (constant S_ .f32 0x00000000#32),
    TRef.binary (TRef.of (T := ⟨S8192x256, .f32⟩) main_call0_v0) (TRef.of (T := ⟨S_, .f32⟩) main_call0_cst) (TRef.of (T := ⟨S8192, .f32⟩) main_call0_v1) (fun x v => Host.reduceAdd x v reducesTo_S8192x256_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v40) Host.sqrt,
    nullary main_cst_7 (constant S_ .f32 0x2B8CBCCC#32),
    unary main_cst_7 main_v41 (broadcastInDim S8192x1 ![] bcast_S_S8192x1 : (⟨S_, .f32⟩ : BufTy).Contents (Elt F) → (⟨S8192x1, .f32⟩ : BufTy).Contents (Elt F)),
    binary main_v40 main_v41 main_v42 (maximumf : (⟨S8192x1, .f32⟩ : BufTy).Contents (Elt F) → (⟨S8192x1, .f32⟩ : BufTy).Contents (Elt F) → (⟨S8192x1, .f32⟩ : BufTy).Contents (Elt F)),
    unary main_v42 main_v43 (broadcastInDim S8192x256 ![0, 1] bcast_S8192x1_S8192x256_0_1 : (⟨S8192x1, .f32⟩ : BufTy).Contents (Elt F) → (⟨S8192x256, .f32⟩ : BufTy).Contents (Elt F)),
    binary main_v39 main_v43 main_v44 (Host.divf : (⟨S8192x256, .f32⟩ : BufTy).Contents (Elt F) → (⟨S8192x256, .f32⟩ : BufTy).Contents (Elt F) → (⟨S8192x256, .f32⟩ : BufTy).Contents (Elt F)) ]

/-- The buffers the first stretch writes. -/
abbrev W1 : List (Ref sig .tc) := [main_c, main_v0, main_v1, main_c_0, main_v2, main_v3, main_v4, main_v5, main_v6, main_c_1, main_v7, main_v8, main_c_2, main_v9, main_v10, main_v11, main_v12, main_v13, main_c_3, main_v14, main_v15, main_c_4, main_v16, main_v17, main_v18, main_v19, main_v20, main_c_5, main_v21, main_v22, main_c_6, main_v23, main_v24, main_v25, main_v26, main_v27, main_v28, main_v29, main_v30, main_v31, main_v32, main_cst, main_v33, main_v34, main_v35, main_v36, main_v37, main_v38, main_v39, main_call0_v0, main_call0_cst, main_call0_v1, main_call0_v2, main_v40, main_cst_7, main_v41, main_v42, main_v43, main_v44]

theorem ops1_writes : (ops1 : List (HloOp τ sig (Elt F))).Forall fun op =>
    op.writes ⊆ (W1.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., binary_bufs_sub .., binary_bufs_sub .., unary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem ops1_fresh : ∀ op ∈ (ops1 : List (HloOp τ sig (Elt F))), op.fresh = ∅ := by
  intro _ h; (repeat (cases h with | head => rfl | tail _ h => ?_)); exact nomatch h

/-- A buffer the first stretch does not write keeps its contents through it. -/
theorem keep1 (V : Valuation τ sig (Elt F)) (r : Ref sig .tc) (h : r ∉ W1) :
    after ops1 V (Proc.devRef .tc r) = V (Proc.devRef .tc r) :=
  after_of_writes_sub ops1 V ops1_writes h

set_option maxRecDepth 8192 in
set_option maxHeartbeats 4000000 in
/-- What the first stretch leaves in `main_v44`, from any contents: the stage of the arguments. -/
theorem leg1 (V : Valuation τ sig (Elt F)) :
    after ops1 V (Proc.devRef .tc main_v44)
      = ReadP.val_main_v44 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  simp only [ops1]
  after_results_simp
  rfl

/-- The second stretch: the 59 operations that compute `main_v89` from the arguments. -/
abbrev ops2 : List (HloOp τ sig (Elt F)) :=
  [ nullary main_c_8 (constantI S_ 32 0#32),
    unary main_c_8 main_v45 (broadcastInDim S8192 ![] bcast_S_S8192 : (⟨S_, .i32⟩ : BufTy).Contents (Elt F) → (⟨S8192, .i32⟩ : BufTy).Contents (Elt F)),
    binary main_arg8 main_v45 main_v46 (cmpi .slt : (⟨S8192, .i32⟩ : BufTy).Contents (Elt F) → (⟨S8192, .i32⟩ : BufTy).Contents (Elt F) → (⟨S8192, .i1⟩ : BufTy).Contents (Elt F)),
    nullary main_c_9 (constantI S_ 32 100000#32),
    unary main_c_9 main_v47 (broadcastInDim S8192 ![] bcast_S_S8192 : (⟨S_, .i32⟩ : BufTy).Contents (Elt F) → (⟨S8192, .i32⟩ : BufTy).Contents (Elt F)),
    binary main_arg8 main_v47 main_v48 (addi : (⟨S8192, .i32⟩ : BufTy).Contents (Elt F) → (⟨S8192, .i32⟩ : BufTy).Contents (Elt F) → (⟨S8192, .i32⟩ : BufTy).Contents (Elt F)),
    ternary main_v46 main_v48 main_arg8 main_v49 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v49 main_v50 (broadcastInDim S8192x1 ![0] bcast_S8192_S8192x1_0 : (⟨S8192, .i32⟩ : BufTy).Contents (Elt F) → (⟨S8192x1, .i32⟩ : BufTy).Contents (Elt F)),
    binary main_arg0 main_v50 main_v51 ((fun x i => Host.gather gather_S100000x256_S8192x1_S8192x256_1_0_n_n_0_1_1256 x i) : (⟨S100000x256, .f32⟩ : BufTy).Contents (Elt F) → (⟨S8192x1, .i32⟩ : BufTy).Contents (Elt F) → (⟨S8192x256, .f32⟩ : BufTy).Contents (Elt F)),
    nullary main_c_10 (constantI S_ 32 0#32),
    unary main_c_10 main_v52 (broadcastInDim S8192 ![] bcast_S_S8192 : (⟨S_, .i32⟩ : BufTy).Contents (Elt F) → (⟨S8192, .i32⟩ : BufTy).Contents (Elt F)),
    binary main_arg8 main_v52 main_v53 (cmpi .slt : (⟨S8192, .i32⟩ : BufTy).Contents (Elt F) → (⟨S8192, .i32⟩ : BufTy).Contents (Elt F) → (⟨S8192, .i1⟩ : BufTy).Contents (Elt F)),
    nullary main_c_11 (constantI S_ 32 100000#32),
    unary main_c_11 main_v54 (broadcastInDim S8192 ![] bcast_S_S8192 : (⟨S_, .i32⟩ : BufTy).Contents (Elt F) → (⟨S8192, .i32⟩ : BufTy).Contents (Elt F)),
    binary main_arg8 main_v54 main_v55 (addi : (⟨S8192, .i32⟩ : BufTy).Contents (Elt F) → (⟨S8192, .i32⟩ : BufTy).Contents (Elt F) → (⟨S8192, .i32⟩ : BufTy).Contents (Elt F)),
    ternary main_v53 main_v55 main_arg8 main_v56 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v56 main_v57 (broadcastInDim S8192x1 ![0] bcast_S8192_S8192x1_0 : (⟨S8192, .i32⟩ : BufTy).Contents (Elt F) → (⟨S8192x1, .i32⟩ : BufTy).Contents (Elt F)),
    binary main_arg6 main_v57 main_v58 ((fun x i => Host.gather gather_S100000x32_S8192x1_S8192x32_1_0_n_n_0_1_132 x i) : (⟨S100000x32, .i32⟩ : BufTy).Contents (Elt F) → (⟨S8192x1, .i32⟩ : BufTy).Contents (Elt F) → (⟨S8192x32, .i32⟩ : BufTy).Contents (Elt F)),
    nullary main_c_12 (constantI S_ 32 0#32),
    unary main_c_12 main_v59 (broadcastInDim S8192x32 ![] bcast_S_S8192x32 : (⟨S_, .i32⟩ : BufTy).Contents (Elt F) → (⟨S8192x32, .i32⟩ : BufTy).Contents (Elt F)),
    binary main_v58 main_v59 main_v60 (cmpi .slt : (⟨S8192x32, .i32⟩ : BufTy).Contents (Elt F) → (⟨S8192x32, .i32⟩ : BufTy).Contents (Elt F) → (⟨S8192x32, .i1⟩ : BufTy).Contents (Elt F)),
    nullary main_c_13 (constantI S_ 32 100000#32),
    unary main_c_13 main_v61 (broadcastInDim S8192x32 ![] bcast_S_S8192x32 : (⟨S_, .i32⟩ : BufTy).Contents (Elt F) → (⟨S8192x32, .i32⟩ : BufTy).Contents (Elt F)),
    binary main_v58 main_v61 main_v62 (addi : (⟨S8192x32, .i32⟩ : BufTy).Contents (Elt F) → (⟨S8192x32, .i32⟩ : BufTy).Contents (Elt F) → (⟨S8192x32, .i32⟩ : BufTy).Contents (Elt F)),
    ternary main_v60 main_v62 main_v58 main_v63 (select : (⟨S8192x32, .i1⟩ : BufTy).Contents (Elt F) → (⟨S8192x32, .i32⟩ : BufTy).Contents (Elt F) → (⟨S8192x32, .i32⟩ : BufTy).Contents (Elt F) → (⟨S8192x32, .i32⟩ : BufTy).Contents (Elt F)),
    unary main_v63 main_v64 (broadcastInDim S8192x32x1 ![0, 1] bcast_S8192x32_S8192x32x1_0_1 : (⟨S8192x32, .i32⟩ : BufTy).Contents (Elt F) → (⟨S8192x32x1, .i32⟩ : BufTy).Contents (Elt F)),
    binary main_arg0 main_v64 main_v65 ((fun x i => Host.gather gather_S100000x256_S8192x32x1_S8192x32x256_2_0_n_n_0_2_1256 x i) : (⟨S100000x256, .f32⟩ : BufTy).Contents (Elt F) → (⟨S8192x32x1, .i32⟩ : BufTy).Contents (Elt F) → (⟨S8192x32x256, .f32⟩ : BufTy).Contents (Elt F)),
    nullary main_c_14 (constantI S_ 32 0#32),
    unary main_c_14 main_v66 (broadcastInDim S8192x32 ![] bcast_S_S8192x32 : (⟨S_, .i32⟩ : BufTy).Contents (Elt F) → (⟨S8192x32, .i32⟩ : BufTy).Contents (Elt F)),
    binary main_v58 main_v66 main_v67 (cmpi .slt : (⟨S8192x32, .i32⟩ : BufTy).Contents (Elt F) → (⟨S8192x32, .i32⟩ : BufTy).Contents (Elt F) → (⟨S8192x32, .i1⟩ : BufTy).Contents (Elt F)),
    nullary main_c_15 (constantI S_ 32 100000#32),
    unary main_c_15 main_v68 (broadcastInDim S8192x32 ![] bcast_S_S8192x32 : (⟨S_, .i32⟩ : BufTy).Contents (Elt F) → (⟨S8192x32, .i32⟩ : BufTy).Contents (Elt F)),
    binary main_v58 main_v68 main_v69 (addi : (⟨S8192x32, .i32⟩ : BufTy).Contents (Elt F) → (⟨S8192x32, .i32⟩ : BufTy).Contents (Elt F) → (⟨S8192x32, .i32⟩ : BufTy).Contents (Elt F)),
    ternary main_v67 main_v69 main_v58 main_v70 (select : (⟨S8192x32, .i1⟩ : BufTy).Contents (Elt F) → (⟨S8192x32, .i32⟩ : BufTy).Contents (Elt F) → (⟨S8192x32, .i32⟩ : BufTy).Contents (Elt F) → (⟨S8192x32, .i32⟩ : BufTy).Contents (Elt F)),
    unary main_v70 main_v71 (broadcastInDim S8192x32x1 ![0, 1] bcast_S8192x32_S8192x32x1_0_1 : (⟨S8192x32, .i32⟩ : BufTy).Contents (Elt F) → (⟨S8192x32x1, .i32⟩ : BufTy).Contents (Elt F)),
    binary main_arg1 main_v71 main_v72 ((fun x i => Host.gather gather_S100000x256_S8192x32x1_S8192x32x256_2_0_n_n_0_2_1256 x i) : (⟨S100000x256, .f32⟩ : BufTy).Contents (Elt F) → (⟨S8192x32x1, .i32⟩ : BufTy).Contents (Elt F) → (⟨S8192x32x256, .f32⟩ : BufTy).Contents (Elt F)),
    binary main_v65 main_v72 main_v73 ((fun a b => concatenate S8192x32x512 2 [⟨S8192x32x256, a⟩, ⟨S8192x32x256, b⟩] concatenates_S8192x32x256_S8192x32x256_S8192x32x512_d2) : (⟨S8192x32x256, .f32⟩ : BufTy).Contents (Elt F) → (⟨S8192x32x256, .f32⟩ : BufTy).Contents (Elt F) → (⟨S8192x32x512, .f32⟩ : BufTy).Contents (Elt F)),
    binary main_v73 main_arg2 main_v74 ((fun l r => Host.dotGeneral dot_S8192x32x512_S256x512_S8192x32x256_2_1_01_0_n_n none l r) : (⟨S8192x32x512, .f32⟩ : BufTy).Contents (Elt F) → (⟨S256x512, .f32⟩ : BufTy).Contents (Elt F) → (⟨S8192x32x256, .f32⟩ : BufTy).Contents (Elt F)),
    unary main_arg3 main_v75 (broadcastInDim S1x1x256 ![2] bcast_S256_S1x1x256_2 : (⟨S256, .f32⟩ : BufTy).Contents (Elt F) → (⟨S1x1x256, .f32⟩ : BufTy).Contents (Elt F)),
    unary main_v75 main_v76 (broadcastInDim S8192x32x256 ![0, 1, 2] bcast_S1x1x256_S8192x32x256_0_1_2 : (⟨S1x1x256, .f32⟩ : BufTy).Contents (Elt F) → (⟨S8192x32x256, .f32⟩ : BufTy).Contents (Elt F)),
    binary main_v74 main_v76 main_v77 (addf : (⟨S8192x32x256, .f32⟩ : BufTy).Contents (Elt F) → (⟨S8192x32x256, .f32⟩ : BufTy).Contents (Elt F) → (⟨S8192x32x256, .f32⟩ : BufTy).Contents (Elt F)),
    nullary main_cst_16 (constant S_ .f32 0x00000000#32),
    binary main_v77 main_cst_16 main_v78 ((fun x v => Host.reduceAdd x v reducesTo_S8192x32x256_S8192x256_d1 h_S_) : (⟨S8192x32x256, .f32⟩ : BufTy).Contents (Elt F) → (⟨S_, .f32⟩ : BufTy).Contents (Elt F) → (⟨S8192x256, .f32⟩ : BufTy).Contents (Elt F)),
    binary main_v51 main_v78 main_v79 ((fun a b => concatenate S8192x512 1 [⟨S8192x256, a⟩, ⟨S8192x256, b⟩] concatenates_S8192x256_S8192x256_S8192x512_d1) : (⟨S8192x256, .f32⟩ : BufTy).Contents (Elt F) → (⟨S8192x256, .f32⟩ : BufTy).Contents (Elt F) → (⟨S8192x512, .f32⟩ : BufTy).Contents (Elt F)),
    unary main_arg4 main_v80 ((transpose S512x256 [1, 0] · transposes_S256x512_S512x256_1_0) : (⟨S256x512, .f32⟩ : BufTy).Contents (Elt F) → (⟨S512x256, .f32⟩ : BufTy).Contents (Elt F)),
    binary main_v79 main_v80 main_v81 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    unary main_arg5 main_v82 (broadcastInDim S1x256 ![1] bcast_S256_S1x256_1 : (⟨S256, .f32⟩ : BufTy).Contents (Elt F) → (⟨S1x256, .f32⟩ : BufTy).Contents (Elt F)),
    unary main_v82 main_v83 (broadcastInDim S8192x256 ![0, 1] bcast_S1x256_S8192x256_0_1 : (⟨S1x256, .f32⟩ : BufTy).Contents (Elt F) → (⟨S8192x256, .f32⟩ : BufTy).Contents (Elt F)),
    binary main_v81 main_v83 main_v84 (addf : (⟨S8192x256, .f32⟩ : BufTy).Contents (Elt F) → (⟨S8192x256, .f32⟩ : BufTy).Contents (Elt F) → (⟨S8192x256, .f32⟩ : BufTy).Contents (Elt F)),
    TRef.binary (TRef.of (T := ⟨S8192x256, .f32⟩) main_v84) (TRef.of (T := ⟨S8192x256, .f32⟩) main_v84) (TRef.of (T := ⟨S8192x256, .f32⟩) main_call1_v0) mulf,
    TRef.nullary (TRef.of (T := ⟨S_, .f32⟩) main_call1_cst) (constant S_ .f32 0x00000000#32),
    TRef.binary (TRef.of (T := ⟨S8192x256, .f32⟩) main_call1_v0) (TRef.of (T := ⟨S_, .f32⟩) main_call1_cst) (TRef.of (T := ⟨S8192, .f32⟩) main_call1_v1) (fun x v => Host.reduceAdd x v reducesTo_S8192x256_S8192_d1 h_S_),
    TRef.unary (TRef.of (T := ⟨S8192, .f32⟩) main_call1_v1) (TRef.of (T := ⟨S8192x1, .f32⟩) main_call1_v2) (broadcastInDim S8192x1 ![0] bcast_S8192_S8192x1_0),
    TRef.unary (TRef.of (T := ⟨S8192x1, .f32⟩) main_call1_v2) (TRef.of (T := ⟨S8192x1, .f32⟩) main_v85) Host.sqrt,
    nullary main_cst_17 (constant S_ .f32 0x2B8CBCCC#32),
    unary main_cst_17 main_v86 (broadcastInDim S8192x1 ![] bcast_S_S8192x1 : (⟨S_, .f32⟩ : BufTy).Contents (Elt F) → (⟨S8192x1, .f32⟩ : BufTy).Contents (Elt F)),
    binary main_v85 main_v86 main_v87 (maximumf : (⟨S8192x1, .f32⟩ : BufTy).Contents (Elt F) → (⟨S8192x1, .f32⟩ : BufTy).Contents (Elt F) → (⟨S8192x1, .f32⟩ : BufTy).Contents (Elt F)),
    unary main_v87 main_v88 (broadcastInDim S8192x256 ![0, 1] bcast_S8192x1_S8192x256_0_1 : (⟨S8192x1, .f32⟩ : BufTy).Contents (Elt F) → (⟨S8192x256, .f32⟩ : BufTy).Contents (Elt F)),
    binary main_v84 main_v88 main_v89 (Host.divf : (⟨S8192x256, .f32⟩ : BufTy).Contents (Elt F) → (⟨S8192x256, .f32⟩ : BufTy).Contents (Elt F) → (⟨S8192x256, .f32⟩ : BufTy).Contents (Elt F)) ]

/-- The buffers the second stretch writes. -/
abbrev W2 : List (Ref sig .tc) := [main_c_8, main_v45, main_v46, main_c_9, main_v47, main_v48, main_v49, main_v50, main_v51, main_c_10, main_v52, main_v53, main_c_11, main_v54, main_v55, main_v56, main_v57, main_v58, main_c_12, main_v59, main_v60, main_c_13, main_v61, main_v62, main_v63, main_v64, main_v65, main_c_14, main_v66, main_v67, main_c_15, main_v68, main_v69, main_v70, main_v71, main_v72, main_v73, main_v74, main_v75, main_v76, main_v77, main_cst_16, main_v78, main_v79, main_v80, main_v81, main_v82, main_v83, main_v84, main_call1_v0, main_call1_cst, main_call1_v1, main_call1_v2, main_v85, main_cst_17, main_v86, main_v87, main_v88, main_v89]

theorem ops2_writes : (ops2 : List (HloOp τ sig (Elt F))).Forall fun op =>
    op.writes ⊆ (W2.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., binary_bufs_sub .., binary_bufs_sub .., unary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem ops2_fresh : ∀ op ∈ (ops2 : List (HloOp τ sig (Elt F))), op.fresh = ∅ := by
  intro _ h; (repeat (cases h with | head => rfl | tail _ h => ?_)); exact nomatch h

/-- A buffer the second stretch does not write keeps its contents through it. -/
theorem keep2 (V : Valuation τ sig (Elt F)) (r : Ref sig .tc) (h : r ∉ W2) :
    after ops2 V (Proc.devRef .tc r) = V (Proc.devRef .tc r) :=
  after_of_writes_sub ops2 V ops2_writes h

set_option maxRecDepth 8192 in
set_option maxHeartbeats 4000000 in
/-- What the second stretch leaves in `main_v89`, from any contents: the stage of the arguments. -/
theorem leg2 (V : Valuation τ sig (Elt F)) :
    after ops2 V (Proc.devRef .tc main_v89)
      = ReadP.val_main_v89 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg8)) := by
  simp only [ops2]
  after_results_simp
  rfl

/-- The third stretch: the 59 operations that compute `main_v134` from the arguments. -/
abbrev ops3 : List (HloOp τ sig (Elt F)) :=
  [ nullary main_c_18 (constantI S_ 32 0#32),
    unary main_c_18 main_v90 (broadcastInDim S10 ![] bcast_S_S10 : (⟨S_, .i32⟩ : BufTy).Contents (Elt F) → (⟨S10, .i32⟩ : BufTy).Contents (Elt F)),
    binary main_arg9 main_v90 main_v91 (cmpi .slt : (⟨S10, .i32⟩ : BufTy).Contents (Elt F) → (⟨S10, .i32⟩ : BufTy).Contents (Elt F) → (⟨S10, .i1⟩ : BufTy).Contents (Elt F)),
    nullary main_c_19 (constantI S_ 32 100000#32),
    unary main_c_19 main_v92 (broadcastInDim S10 ![] bcast_S_S10 : (⟨S_, .i32⟩ : BufTy).Contents (Elt F) → (⟨S10, .i32⟩ : BufTy).Contents (Elt F)),
    binary main_arg9 main_v92 main_v93 (addi : (⟨S10, .i32⟩ : BufTy).Contents (Elt F) → (⟨S10, .i32⟩ : BufTy).Contents (Elt F) → (⟨S10, .i32⟩ : BufTy).Contents (Elt F)),
    ternary main_v91 main_v93 main_arg9 main_v94 (select : (⟨S10, .i1⟩ : BufTy).Contents (Elt F) → (⟨S10, .i32⟩ : BufTy).Contents (Elt F) → (⟨S10, .i32⟩ : BufTy).Contents (Elt F) → (⟨S10, .i32⟩ : BufTy).Contents (Elt F)),
    unary main_v94 main_v95 (broadcastInDim S10x1 ![0] bcast_S10_S10x1_0 : (⟨S10, .i32⟩ : BufTy).Contents (Elt F) → (⟨S10x1, .i32⟩ : BufTy).Contents (Elt F)),
    binary main_arg0 main_v95 main_v96 ((fun x i => Host.gather gather_S100000x256_S10x1_S10x256_1_0_n_n_0_1_1256 x i) : (⟨S100000x256, .f32⟩ : BufTy).Contents (Elt F) → (⟨S10x1, .i32⟩ : BufTy).Contents (Elt F) → (⟨S10x256, .f32⟩ : BufTy).Contents (Elt F)),
    nullary main_c_20 (constantI S_ 32 0#32),
    unary main_c_20 main_v97 (broadcastInDim S10 ![] bcast_S_S10 : (⟨S_, .i32⟩ : BufTy).Contents (Elt F) → (⟨S10, .i32⟩ : BufTy).Contents (Elt F)),
    binary main_arg9 main_v97 main_v98 (cmpi .slt : (⟨S10, .i32⟩ : BufTy).Contents (Elt F) → (⟨S10, .i32⟩ : BufTy).Contents (Elt F) → (⟨S10, .i1⟩ : BufTy).Contents (Elt F)),
    nullary main_c_21 (constantI S_ 32 100000#32),
    unary main_c_21 main_v99 (broadcastInDim S10 ![] bcast_S_S10 : (⟨S_, .i32⟩ : BufTy).Contents (Elt F) → (⟨S10, .i32⟩ : BufTy).Contents (Elt F)),
    binary main_arg9 main_v99 main_v100 (addi : (⟨S10, .i32⟩ : BufTy).Contents (Elt F) → (⟨S10, .i32⟩ : BufTy).Contents (Elt F) → (⟨S10, .i32⟩ : BufTy).Contents (Elt F)),
    ternary main_v98 main_v100 main_arg9 main_v101 (select : (⟨S10, .i1⟩ : BufTy).Contents (Elt F) → (⟨S10, .i32⟩ : BufTy).Contents (Elt F) → (⟨S10, .i32⟩ : BufTy).Contents (Elt F) → (⟨S10, .i32⟩ : BufTy).Contents (Elt F)),
    unary main_v101 main_v102 (broadcastInDim S10x1 ![0] bcast_S10_S10x1_0 : (⟨S10, .i32⟩ : BufTy).Contents (Elt F) → (⟨S10x1, .i32⟩ : BufTy).Contents (Elt F)),
    binary main_arg6 main_v102 main_v103 ((fun x i => Host.gather gather_S100000x32_S10x1_S10x32_1_0_n_n_0_1_132 x i) : (⟨S100000x32, .i32⟩ : BufTy).Contents (Elt F) → (⟨S10x1, .i32⟩ : BufTy).Contents (Elt F) → (⟨S10x32, .i32⟩ : BufTy).Contents (Elt F)),
    nullary main_c_22 (constantI S_ 32 0#32),
    unary main_c_22 main_v104 (broadcastInDim S10x32 ![] bcast_S_S10x32 : (⟨S_, .i32⟩ : BufTy).Contents (Elt F) → (⟨S10x32, .i32⟩ : BufTy).Contents (Elt F)),
    binary main_v103 main_v104 main_v105 (cmpi .slt : (⟨S10x32, .i32⟩ : BufTy).Contents (Elt F) → (⟨S10x32, .i32⟩ : BufTy).Contents (Elt F) → (⟨S10x32, .i1⟩ : BufTy).Contents (Elt F)),
    nullary main_c_23 (constantI S_ 32 100000#32),
    unary main_c_23 main_v106 (broadcastInDim S10x32 ![] bcast_S_S10x32 : (⟨S_, .i32⟩ : BufTy).Contents (Elt F) → (⟨S10x32, .i32⟩ : BufTy).Contents (Elt F)),
    binary main_v103 main_v106 main_v107 (addi : (⟨S10x32, .i32⟩ : BufTy).Contents (Elt F) → (⟨S10x32, .i32⟩ : BufTy).Contents (Elt F) → (⟨S10x32, .i32⟩ : BufTy).Contents (Elt F)),
    ternary main_v105 main_v107 main_v103 main_v108 (select : (⟨S10x32, .i1⟩ : BufTy).Contents (Elt F) → (⟨S10x32, .i32⟩ : BufTy).Contents (Elt F) → (⟨S10x32, .i32⟩ : BufTy).Contents (Elt F) → (⟨S10x32, .i32⟩ : BufTy).Contents (Elt F)),
    unary main_v108 main_v109 (broadcastInDim S10x32x1 ![0, 1] bcast_S10x32_S10x32x1_0_1 : (⟨S10x32, .i32⟩ : BufTy).Contents (Elt F) → (⟨S10x32x1, .i32⟩ : BufTy).Contents (Elt F)),
    binary main_arg0 main_v109 main_v110 ((fun x i => Host.gather gather_S100000x256_S10x32x1_S10x32x256_2_0_n_n_0_2_1256 x i) : (⟨S100000x256, .f32⟩ : BufTy).Contents (Elt F) → (⟨S10x32x1, .i32⟩ : BufTy).Contents (Elt F) → (⟨S10x32x256, .f32⟩ : BufTy).Contents (Elt F)),
    nullary main_c_24 (constantI S_ 32 0#32),
    unary main_c_24 main_v111 (broadcastInDim S10x32 ![] bcast_S_S10x32 : (⟨S_, .i32⟩ : BufTy).Contents (Elt F) → (⟨S10x32, .i32⟩ : BufTy).Contents (Elt F)),
    binary main_v103 main_v111 main_v112 (cmpi .slt : (⟨S10x32, .i32⟩ : BufTy).Contents (Elt F) → (⟨S10x32, .i32⟩ : BufTy).Contents (Elt F) → (⟨S10x32, .i1⟩ : BufTy).Contents (Elt F)),
    nullary main_c_25 (constantI S_ 32 100000#32),
    unary main_c_25 main_v113 (broadcastInDim S10x32 ![] bcast_S_S10x32 : (⟨S_, .i32⟩ : BufTy).Contents (Elt F) → (⟨S10x32, .i32⟩ : BufTy).Contents (Elt F)),
    binary main_v103 main_v113 main_v114 (addi : (⟨S10x32, .i32⟩ : BufTy).Contents (Elt F) → (⟨S10x32, .i32⟩ : BufTy).Contents (Elt F) → (⟨S10x32, .i32⟩ : BufTy).Contents (Elt F)),
    ternary main_v112 main_v114 main_v103 main_v115 (select : (⟨S10x32, .i1⟩ : BufTy).Contents (Elt F) → (⟨S10x32, .i32⟩ : BufTy).Contents (Elt F) → (⟨S10x32, .i32⟩ : BufTy).Contents (Elt F) → (⟨S10x32, .i32⟩ : BufTy).Contents (Elt F)),
    unary main_v115 main_v116 (broadcastInDim S10x32x1 ![0, 1] bcast_S10x32_S10x32x1_0_1 : (⟨S10x32, .i32⟩ : BufTy).Contents (Elt F) → (⟨S10x32x1, .i32⟩ : BufTy).Contents (Elt F)),
    binary main_arg1 main_v116 main_v117 ((fun x i => Host.gather gather_S100000x256_S10x32x1_S10x32x256_2_0_n_n_0_2_1256 x i) : (⟨S100000x256, .f32⟩ : BufTy).Contents (Elt F) → (⟨S10x32x1, .i32⟩ : BufTy).Contents (Elt F) → (⟨S10x32x256, .f32⟩ : BufTy).Contents (Elt F)),
    binary main_v110 main_v117 main_v118 ((fun a b => concatenate S10x32x512 2 [⟨S10x32x256, a⟩, ⟨S10x32x256, b⟩] concatenates_S10x32x256_S10x32x256_S10x32x512_d2) : (⟨S10x32x256, .f32⟩ : BufTy).Contents (Elt F) → (⟨S10x32x256, .f32⟩ : BufTy).Contents (Elt F) → (⟨S10x32x512, .f32⟩ : BufTy).Contents (Elt F)),
    binary main_v118 main_arg2 main_v119 ((fun l r => Host.dotGeneral dot_S10x32x512_S256x512_S10x32x256_2_1_01_0_n_n none l r) : (⟨S10x32x512, .f32⟩ : BufTy).Contents (Elt F) → (⟨S256x512, .f32⟩ : BufTy).Contents (Elt F) → (⟨S10x32x256, .f32⟩ : BufTy).Contents (Elt F)),
    unary main_arg3 main_v120 (broadcastInDim S1x1x256 ![2] bcast_S256_S1x1x256_2 : (⟨S256, .f32⟩ : BufTy).Contents (Elt F) → (⟨S1x1x256, .f32⟩ : BufTy).Contents (Elt F)),
    unary main_v120 main_v121 (broadcastInDim S10x32x256 ![0, 1, 2] bcast_S1x1x256_S10x32x256_0_1_2 : (⟨S1x1x256, .f32⟩ : BufTy).Contents (Elt F) → (⟨S10x32x256, .f32⟩ : BufTy).Contents (Elt F)),
    binary main_v119 main_v121 main_v122 (addf : (⟨S10x32x256, .f32⟩ : BufTy).Contents (Elt F) → (⟨S10x32x256, .f32⟩ : BufTy).Contents (Elt F) → (⟨S10x32x256, .f32⟩ : BufTy).Contents (Elt F)),
    nullary main_cst_26 (constant S_ .f32 0x00000000#32),
    binary main_v122 main_cst_26 main_v123 ((fun x v => Host.reduceAdd x v reducesTo_S10x32x256_S10x256_d1 h_S_) : (⟨S10x32x256, .f32⟩ : BufTy).Contents (Elt F) → (⟨S_, .f32⟩ : BufTy).Contents (Elt F) → (⟨S10x256, .f32⟩ : BufTy).Contents (Elt F)),
    binary main_v96 main_v123 main_v124 ((fun a b => concatenate S10x512 1 [⟨S10x256, a⟩, ⟨S10x256, b⟩] concatenates_S10x256_S10x256_S10x512_d1) : (⟨S10x256, .f32⟩ : BufTy).Contents (Elt F) → (⟨S10x256, .f32⟩ : BufTy).Contents (Elt F) → (⟨S10x512, .f32⟩ : BufTy).Contents (Elt F)),
    unary main_arg4 main_v125 ((transpose S512x256 [1, 0] · transposes_S256x512_S512x256_1_0) : (⟨S256x512, .f32⟩ : BufTy).Contents (Elt F) → (⟨S512x256, .f32⟩ : BufTy).Contents (Elt F)),
    binary main_v124 main_v125 main_v126 ((fun l r => Host.dotGeneral dot_S10x512_S512x256_S10x256_1_0_0_1_n_n none l r) : (⟨S10x512, .f32⟩ : BufTy).Contents (Elt F) → (⟨S512x256, .f32⟩ : BufTy).Contents (Elt F) → (⟨S10x256, .f32⟩ : BufTy).Contents (Elt F)),
    unary main_arg5 main_v127 (broadcastInDim S1x256 ![1] bcast_S256_S1x256_1 : (⟨S256, .f32⟩ : BufTy).Contents (Elt F) → (⟨S1x256, .f32⟩ : BufTy).Contents (Elt F)),
    unary main_v127 main_v128 (broadcastInDim S10x256 ![0, 1] bcast_S1x256_S10x256_0_1 : (⟨S1x256, .f32⟩ : BufTy).Contents (Elt F) → (⟨S10x256, .f32⟩ : BufTy).Contents (Elt F)),
    binary main_v126 main_v128 main_v129 (addf : (⟨S10x256, .f32⟩ : BufTy).Contents (Elt F) → (⟨S10x256, .f32⟩ : BufTy).Contents (Elt F) → (⟨S10x256, .f32⟩ : BufTy).Contents (Elt F)),
    TRef.binary (TRef.of (T := ⟨S10x256, .f32⟩) main_v129) (TRef.of (T := ⟨S10x256, .f32⟩) main_v129) (TRef.of (T := ⟨S10x256, .f32⟩) main_call2_v0) mulf,
    TRef.nullary (TRef.of (T := ⟨S_, .f32⟩) main_call2_cst) (constant S_ .f32 0x00000000#32),
    TRef.binary (TRef.of (T := ⟨S10x256, .f32⟩) main_call2_v0) (TRef.of (T := ⟨S_, .f32⟩) main_call2_cst) (TRef.of (T := ⟨S10, .f32⟩) main_call2_v1) (fun x v => Host.reduceAdd x v reducesTo_S10x256_S10_d1 h_S_),
    TRef.unary (TRef.of (T := ⟨S10, .f32⟩) main_call2_v1) (TRef.of (T := ⟨S10x1, .f32⟩) main_call2_v2) (broadcastInDim S10x1 ![0] bcast_S10_S10x1_0),
    TRef.unary (TRef.of (T := ⟨S10x1, .f32⟩) main_call2_v2) (TRef.of (T := ⟨S10x1, .f32⟩) main_v130) Host.sqrt,
    nullary main_cst_27 (constant S_ .f32 0x2B8CBCCC#32),
    unary main_cst_27 main_v131 (broadcastInDim S10x1 ![] bcast_S_S10x1 : (⟨S_, .f32⟩ : BufTy).Contents (Elt F) → (⟨S10x1, .f32⟩ : BufTy).Contents (Elt F)),
    binary main_v130 main_v131 main_v132 (maximumf : (⟨S10x1, .f32⟩ : BufTy).Contents (Elt F) → (⟨S10x1, .f32⟩ : BufTy).Contents (Elt F) → (⟨S10x1, .f32⟩ : BufTy).Contents (Elt F)),
    unary main_v132 main_v133 (broadcastInDim S10x256 ![0, 1] bcast_S10x1_S10x256_0_1 : (⟨S10x1, .f32⟩ : BufTy).Contents (Elt F) → (⟨S10x256, .f32⟩ : BufTy).Contents (Elt F)),
    binary main_v129 main_v133 main_v134 (Host.divf : (⟨S10x256, .f32⟩ : BufTy).Contents (Elt F) → (⟨S10x256, .f32⟩ : BufTy).Contents (Elt F) → (⟨S10x256, .f32⟩ : BufTy).Contents (Elt F)) ]

/-- The buffers the third stretch writes. -/
abbrev W3 : List (Ref sig .tc) := [main_c_18, main_v90, main_v91, main_c_19, main_v92, main_v93, main_v94, main_v95, main_v96, main_c_20, main_v97, main_v98, main_c_21, main_v99, main_v100, main_v101, main_v102, main_v103, main_c_22, main_v104, main_v105, main_c_23, main_v106, main_v107, main_v108, main_v109, main_v110, main_c_24, main_v111, main_v112, main_c_25, main_v113, main_v114, main_v115, main_v116, main_v117, main_v118, main_v119, main_v120, main_v121, main_v122, main_cst_26, main_v123, main_v124, main_v125, main_v126, main_v127, main_v128, main_v129, main_call2_v0, main_call2_cst, main_call2_v1, main_call2_v2, main_v130, main_cst_27, main_v131, main_v132, main_v133, main_v134]

theorem ops3_writes : (ops3 : List (HloOp τ sig (Elt F))).Forall fun op =>
    op.writes ⊆ (W3.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., binary_bufs_sub .., binary_bufs_sub .., unary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem ops3_fresh : ∀ op ∈ (ops3 : List (HloOp τ sig (Elt F))), op.fresh = ∅ := by
  intro _ h; (repeat (cases h with | head => rfl | tail _ h => ?_)); exact nomatch h

/-- A buffer the third stretch does not write keeps its contents through it. -/
theorem keep3 (V : Valuation τ sig (Elt F)) (r : Ref sig .tc) (h : r ∉ W3) :
    after ops3 V (Proc.devRef .tc r) = V (Proc.devRef .tc r) :=
  after_of_writes_sub ops3 V ops3_writes h

set_option maxRecDepth 8192 in
set_option maxHeartbeats 4000000 in
/-- What the third stretch leaves in `main_v134`, from any contents: the stage of the arguments. -/
theorem leg3 (V : Valuation τ sig (Elt F)) :
    after ops3 V (Proc.devRef .tc main_v134)
      = ReadP.val_main_v134 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg9)) := by
  simp only [ops3]
  after_results_simp
  rfl

/-! ## The whole line -/

set_option maxRecDepth 8192 in
set_option maxHeartbeats 4000000 in
theorem main_eq (c : Dev nD) : main (F := F) c = seq (ops1 ++ ops2 ++ ops3) := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops1 ++ ops2 ++ ops3 : List (HloOp τ sig (Elt F))).Forall fun op => op.bufs ⊆ tcRefs τ sig :=
  List.forall_append.mpr ⟨List.forall_append.mpr ⟨ops1_sub, ops2_sub⟩, ops3_sub⟩

theorem ops_fresh : ∀ op ∈ (ops1 ++ ops2 ++ ops3 : List (HloOp τ sig (Elt F))), op.fresh = ∅ := fun op h => by
  rcases List.mem_append.mp h with h | h
  · rcases List.mem_append.mp h with h | h
    · exact ops1_fresh op h
    · exact ops2_fresh op h
  · exact ops3_fresh op h

/-- A buffer no stretch writes (an argument) keeps its contents through the whole line. -/
theorem keep (V : Valuation τ sig (Elt F)) (r : Ref sig .tc) (h1 : r ∉ W1) (h2 : r ∉ W2) (h3 : r ∉ W3) :
    after (ops1 ++ ops2 ++ ops3) V (Proc.devRef .tc r) = V (Proc.devRef .tc r) := by
  rw [after_app, after_app, keep3 _ r h3, keep2 _ r h2, keep1 _ r h1]

/-- The first result: the later stretches do not write it. -/
theorem res1 (V : Valuation τ sig (Elt F)) :
    after (ops1 ++ ops2 ++ ops3) V (Proc.devRef .tc main_v44)
      = ReadP.val_main_v44 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [after_app, after_app, keep3 _ main_v44 (by decide), keep2 _ main_v44 (by decide)]
  exact leg1 V

/-- The second result: the last stretch does not write it, the first leaves the arguments. -/
theorem res2 (V : Valuation τ sig (Elt F)) :
    after (ops1 ++ ops2 ++ ops3) V (Proc.devRef .tc main_v89)
      = ReadP.val_main_v89 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg8)) := by
  rw [after_app, after_app, keep3 _ main_v89 (by decide), leg2,
    keep1 V main_arg0 (by decide), keep1 V main_arg1 (by decide), keep1 V main_arg2 (by decide), keep1 V main_arg3 (by decide), keep1 V main_arg4 (by decide), keep1 V main_arg5 (by decide), keep1 V main_arg6 (by decide), keep1 V main_arg8 (by decide)]

/-- The third result: the first two stretches leave the arguments. -/
theorem res3 (V : Valuation τ sig (Elt F)) :
    after (ops1 ++ ops2 ++ ops3) V (Proc.devRef .tc main_v134)
      = ReadP.val_main_v134 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg9)) := by
  rw [after_app, after_app, leg3,
    keep2 _ main_arg0 (by decide), keep1 V main_arg0 (by decide), keep2 _ main_arg1 (by decide), keep1 V main_arg1 (by decide), keep2 _ main_arg2 (by decide), keep1 V main_arg2 (by decide), keep2 _ main_arg3 (by decide), keep1 V main_arg3 (by decide), keep2 _ main_arg4 (by decide), keep1 V main_arg4 (by decide), keep2 _ main_arg5 (by decide), keep1 V main_arg5 (by decide), keep2 _ main_arg6 (by decide), keep1 V main_arg6 (by decide), keep2 _ main_arg9 (by decide), keep1 V main_arg9 (by decide)]

/-- On every device, for any float values, from any memory with zero counters: every weakly fair execution of
    @main terminates with each result at its stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44) = ReadP.val_main_v44 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v89) = ReadP.val_main_v89 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8))
      ∧ r.2.mem ((c.tc : Thread nD τ).loc main_v134) = ReadP.val_main_v134 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v44).trans (res1 _), (h c main_v89).trans (res2 _), (h c main_v134).trans (res3 _),
      (h c main_arg0).trans (keep _ main_arg0 (by decide) (by decide) (by decide)),
      (h c main_arg1).trans (keep _ main_arg1 (by decide) (by decide) (by decide)),
      (h c main_arg2).trans (keep _ main_arg2 (by decide) (by decide) (by decide)),
      (h c main_arg3).trans (keep _ main_arg3 (by decide) (by decide) (by decide)),
      (h c main_arg4).trans (keep _ main_arg4 (by decide) (by decide) (by decide)),
      (h c main_arg5).trans (keep _ main_arg5 (by decide) (by decide) (by decide)),
      (h c main_arg6).trans (keep _ main_arg6 (by decide) (by decide) (by decide)),
      (h c main_arg7).trans (keep _ main_arg7 (by decide) (by decide) (by decide)),
      (h c main_arg8).trans (keep _ main_arg8 (by decide) (by decide) (by decide)),
      (h c main_arg9).trans (keep _ main_arg9 (by decide) (by decide) (by decide))⟩)
    (run_seq scopedRefs_eq scopedSems_eq defs main (fun _ => ops1 ++ ops2 ++ ops3) main_eq (fun _ => ops_sub) m ρ (fun _ => ops_fresh))

end Cert.ReferenceIdeal.RunP

end
-- ==== Proof.RefRows.lean ====
/-
  The reference program's three results, read at an index.

  Each result row is computed from one node word by the same chain of operations: wrap the word and read the
  node's own feature row and its adjacency row (two row gathers); wrap each of the 32 neighbour words and read the
  neighbour's row of both feature tables (two gathers of a row per node and neighbour); put a neighbour's two rows
  side by side, apply the first layer with its bias, and sum over the neighbours; put the node's own row beside that
  aggregate, apply the second layer with its bias; divide by the Euclidean norm of the row, floored at a constant.
  Read index by index this is `Cert.Agg.outRef` of the node word: the gathers read the table at the clamped wrapped
  word, the joins are `Agg.cat`, the contractions are `Agg.layer`, and the sums start from zero.

  The generated module reads every operation at an index except the gathers and the joins; those are read here
  (`gather_feat`, `gather_adj`, `gather_feat2`, `cat3_at`, `cat2_at`, for any number of rows), and each of the three
  copies of the chain (8192, 8192 and 10 rows) is then a sequence of one-step lemmas.
-/
import proofs.«111308_j49039936585979_2_alg».proof.Proof.RefRead
import proofs.«111308_j49039936585979_2_alg».proof.Proof.Spec
import proofs.«111308_j49039936585979_2_alg».proof.Proof.LibRowGather

noncomputable section

open scoped BigOperators

namespace Cert.ReferenceIdeal.Rows

open Cert.ReferenceIdeal Cert.ReferenceIdeal.Gen Idealize.ShloMosaic Idealize.ShloMosaic.ValueIdx

/-! ## The operations the generated module does not read, over any number of rows -/

section Ops
variable {R : Nat}

/-- Rows of a feature table gathered by a column of start words: row `r` is the table's row at the clamped word. -/
theorem gather_feat (wf : GatherDims.WF ⟨2, ![100000, 256]⟩ ⟨2, ![R, 1]⟩ ⟨2, ![R, 256]⟩ [1] [0] [] [0] [] 1 ![1, 256])
    (x : Agg.Feat) (idx : IVec ⟨2, ![R, 1]⟩ 32) (r : Fin R) (f : Fin 256) (w : BitVec 32)
    (h : idx (ix2 r (0 : Fin 1)) = w) :
    Host.gather (LibRowGather.rowsDims 100000 256 R wf) x idx (ix2 r f) = x (ix2 (Agg.rowIx w) f) := by
  subst h
  exact LibRowGather.gather_rows_apply wf idx r f (by decide) x

/-- Rows of the adjacency table gathered by a column of start words. -/
theorem gather_adj (wf : GatherDims.WF ⟨2, ![100000, 32]⟩ ⟨2, ![R, 1]⟩ ⟨2, ![R, 32]⟩ [1] [0] [] [0] [] 1 ![1, 32])
    (x : Agg.Adj) (idx : IVec ⟨2, ![R, 1]⟩ 32) (r : Fin R) (d : Fin 32) (w : BitVec 32)
    (h : idx (ix2 r (0 : Fin 1)) = w) :
    Host.gather (LibRowGather.rowsDims 100000 32 R wf) x idx (ix2 r d) = x (ix2 (Agg.rowIx w) d) := by
  subst h
  exact LibRowGather.gather_rows_apply wf idx r d (by decide) x

/-- Rows of a feature table gathered by an array of start words, one per node and neighbour. -/
theorem gather_feat2 (wf : GatherDims.WF ⟨2, ![100000, 256]⟩ ⟨3, ![R, 32, 1]⟩ ⟨3, ![R, 32, 256]⟩ [2] [0] [] [0] [] 2 ![1, 256])
    (x : Agg.Feat) (idx : IVec ⟨3, ![R, 32, 1]⟩ 32) (r : Fin R) (d : Fin 32) (f : Fin 256) (w : BitVec 32)
    (h : idx (ix3 r d (0 : Fin 1)) = w) :
    Host.gather (LibRowGather.rows2Dims 100000 256 R 32 wf) x idx (ix3 r d f) = x (ix2 (Agg.rowIx w) f) := by
  subst h
  exact LibRowGather.gather_rows2_apply wf idx r d f (by decide) x

/-- Two `[R, 32, 256]` arrays joined along the last axis, at `(r, d, k)`: the two rows side by side. -/
theorem cat3_at (A B : (⟨3, ![R, 32, 256]⟩ : Shape).Idx → EReal)
    (h : Shape.Concatenates [(⟨3, ![R, 32, 256]⟩ : Shape), ⟨3, ![R, 32, 256]⟩] ⟨3, ![R, 32, 512]⟩ 2)
    (r : Fin R) (d : Fin 32) (k : Fin 512) :
    concatenate (⟨3, ![R, 32, 512]⟩ : Shape) 2 [⟨⟨3, ![R, 32, 256]⟩, A⟩, ⟨⟨3, ![R, 32, 256]⟩, B⟩] h (ix3 r d k)
      = Agg.cat (fun f => A (ix3 r d f)) (fun f => B (ix3 r d f)) k := by
  unfold Agg.cat
  by_cases hk : k.val < 256
  · rw [dif_pos hk]
    exact concatenate_pair_apply_left _ A B h (ix3 r d k) rfl (ix3 r d ⟨k.val, hk⟩)
      (fun b => by match b with | ⟨0, _⟩ => rfl | ⟨1, _⟩ => rfl | ⟨2, _⟩ => rfl)
  · rw [dif_neg hk]
    exact concatenate_pair_apply_right _ A B h (ix3 r d k) rfl rfl (ix3 r d ⟨k.val - 256, by omega⟩)
      (fun b hb => by
        match b, hb with
        | ⟨0, _⟩, _ => rfl
        | ⟨1, _⟩, _ => rfl
        | ⟨2, _⟩, hb => exact absurd rfl hb)
      (by show (k.val - 256) + 256 = k.val; omega)

/-- Two `[R, 256]` arrays joined along the last axis, at `(r, k)`: the two rows side by side. -/
theorem cat2_at (A B : (⟨2, ![R, 256]⟩ : Shape).Idx → EReal)
    (h : Shape.Concatenates [(⟨2, ![R, 256]⟩ : Shape), ⟨2, ![R, 256]⟩] ⟨2, ![R, 512]⟩ 1)
    (r : Fin R) (k : Fin 512) :
    concatenate (⟨2, ![R, 512]⟩ : Shape) 1 [⟨⟨2, ![R, 256]⟩, A⟩, ⟨⟨2, ![R, 256]⟩, B⟩] h (ix2 r k)
      = Agg.cat (fun f => A (ix2 r f)) (fun f => B (ix2 r f)) k := by
  unfold Agg.cat
  by_cases hk : k.val < 256
  · rw [dif_pos hk]
    exact concatenate_pair_apply_left _ A B h (ix2 r k) rfl (ix2 r ⟨k.val, hk⟩)
      (fun b => by match b with | ⟨0, _⟩ => rfl | ⟨1, _⟩ => rfl)
  · rw [dif_neg hk]
    exact concatenate_pair_apply_right _ A B h (ix2 r k) rfl rfl (ix2 r ⟨k.val - 256, by omega⟩)
      (fun b hb => by
        match b, hb with
        | ⟨0, _⟩, _ => rfl
        | ⟨1, _⟩, hb => exact absurd rfl hb)
      (by show (k.val - 256) + 256 = k.val; omega)

end Ops

/-! ## The specification, stage by stage -/

section Stages
variable (x0 x1 : Agg.Feat) (x2 : Agg.Wt) (x3 : Agg.Bias) (x4 : Agg.Wt) (x5 : Agg.Bias) (x6 : Agg.Adj) (x : BitVec 32)

/-- The aggregate over the neighbours of the node word `x`: the first layer with its bias on every neighbour, summed. -/
def agg (o : Fin 256) : EReal :=
  Agg.aggRef (fun d f => x0 (ix2 (Agg.nbr x6 x d) f)) (fun d f => x1 (ix2 (Agg.nbr x6 x d) f))
    (fun o k => x2 (ix2 o k)) (fun o => x3 (ix1 o)) o

/-- The node's row before it is normalized: the second layer on its own row beside the aggregate. -/
def pre (o : Fin 256) : EReal :=
  Agg.layer (fun o k => x4 (ix2 o k)) (Agg.cat (fun f => x0 (ix2 (Agg.pick x) f)) (agg x0 x1 x2 x3 x6 x)) o
    + x5 (ix1 o)

/-- The reference's output row is the row `pre` divided by its floored Euclidean norm. -/
theorem outRef_eq (o : Fin 256) :
    Agg.outRef x0 x1 x2 x4 x3 x5 x6 x o
      = Ideal.div (pre x0 x1 x2 x3 x4 x5 x6 x o)
          (max (Ideal.sqrt (∑ o' : Fin 256, pre x0 x1 x2 x3 x4 x5 x6 x o' * pre x0 x1 x2 x3 x4 x5 x6 x o'))
            (Ideal.ofBits .f32 0x2B8CBCCC#32)) := rfl

end Stages

/-! ## The first node array -/

namespace P1

section
variable (x0 x1 : (⟨S100000x256, .f32⟩ : BufTy).Contents (Elt Ideal)) (x2 : (⟨S256x512, .f32⟩ : BufTy).Contents (Elt Ideal))
  (x3 : (⟨S256, .f32⟩ : BufTy).Contents (Elt Ideal)) (x4 : (⟨S256x512, .f32⟩ : BufTy).Contents (Elt Ideal))
  (x5 : (⟨S256, .f32⟩ : BufTy).Contents (Elt Ideal)) (x6 : (⟨S100000x32, .i32⟩ : BufTy).Contents (Elt Ideal))
  (x7 : (⟨S8192, .i32⟩ : BufTy).Contents (Elt Ideal))
  (r : Fin 8192) (d : Fin 32) (f o : Fin 256) (k : Fin 512)

/-! The composed index functions of the generated module, at coordinates. -/

theorem e5 : ReadP.idx_main_v5 (ix2 r (0 : Fin 1)) = ix1 r :=
  funext fun a => Fin.ext (by match a with | ⟨0, _⟩ => rfl)
theorem e12 : ReadP.idx_main_v12 (ix2 r (0 : Fin 1)) = ix1 r :=
  funext fun a => Fin.ext (by match a with | ⟨0, _⟩ => rfl)
theorem e19 : ReadP.idx_main_v19 (ix3 r d (0 : Fin 1)) = ix2 r d :=
  funext fun a => Fin.ext (by match a with | ⟨0, _⟩ => rfl | ⟨1, _⟩ => rfl)
theorem e26 : ReadP.idx_main_v26 (ix3 r d (0 : Fin 1)) = ix2 r d :=
  funext fun a => Fin.ext (by match a with | ⟨0, _⟩ => rfl | ⟨1, _⟩ => rfl)
theorem el29 : ReadP.lidx_main_v29 (ix3 r d o) k = ix3 r d k :=
  funext fun a => Fin.ext (by match a with | ⟨0, _⟩ => rfl | ⟨1, _⟩ => rfl | ⟨2, _⟩ => rfl)
theorem er29 : ReadP.ridx_main_v29 (ix3 r d o) k = ix2 o k :=
  funext fun a => Fin.ext (by match a with | ⟨0, _⟩ => rfl | ⟨1, _⟩ => rfl)
theorem e31 : ReadP.idx_main_v30 (ReadP.idx_main_v31 (ix3 r d o)) = ix1 o :=
  funext fun a => Fin.ext (by match a with | ⟨0, _⟩ => rfl)
theorem e33 : ReadP.idx_main_v33 (ix2 r o) d = ix3 r d o :=
  funext fun a => Fin.ext (by match a with | ⟨0, _⟩ => rfl | ⟨1, _⟩ => rfl | ⟨2, _⟩ => rfl)
theorem el36 : ReadP.lidx_main_v36 (ix2 r o) k = ix2 r k :=
  funext fun a => Fin.ext (by match a with | ⟨0, _⟩ => rfl | ⟨1, _⟩ => rfl)
theorem er36 : ReadP.idx_main_v35 (ReadP.ridx_main_v36 (ix2 r o) k) = ix2 o k :=
  funext fun a => Fin.ext (by match a with | ⟨0, _⟩ => rfl | ⟨1, _⟩ => rfl)
theorem e38 : ReadP.idx_main_v37 (ReadP.idx_main_v38 (ix2 r o)) = ix1 o :=
  funext fun a => Fin.ext (by match a with | ⟨0, _⟩ => rfl)
theorem ec1 : ReadP.idx_main_call0_v1 (ix1 r) o = ix2 r o :=
  funext fun a => Fin.ext (by match a with | ⟨0, _⟩ => rfl | ⟨1, _⟩ => rfl)
theorem ec2 : ReadP.idx_main_call0_v2 (ix2 r (0 : Fin 1)) = ix1 r :=
  funext fun a => Fin.ext (by match a with | ⟨0, _⟩ => rfl)
theorem e43 : ReadP.idx_main_v43 (ix2 r o) = ix2 r (0 : Fin 1) :=
  funext fun a => Fin.ext (by match a with | ⟨0, _⟩ => rfl | ⟨1, _⟩ => rfl)

/-! The node's own word, wrapped (computed twice: once for its feature row, once for its adjacency row). -/

theorem w4 : ReadP.val_main_v4 (F := Ideal) x7 (ix1 r) = Agg.wrap (x7 (ix1 r)) := by
  rw [ReadP.val_main_v4_apply, ReadP.val_main_v1_apply, ReadP.val_main_v3_apply, ReadP.val_main_v0_apply,
    ReadP.val_main_v2_apply, ReadP.val_main_c_apply, ReadP.val_main_c_0_apply]
  rfl

theorem w5 : ReadP.val_main_v5 (F := Ideal) x7 (ix2 r (0 : Fin 1)) = Agg.wrap (x7 (ix1 r)) := by
  rw [ReadP.val_main_v5_apply, e5, w4]

theorem w11 : ReadP.val_main_v11 (F := Ideal) x7 (ix1 r) = Agg.wrap (x7 (ix1 r)) := by
  rw [ReadP.val_main_v11_apply, ReadP.val_main_v8_apply, ReadP.val_main_v10_apply, ReadP.val_main_v7_apply,
    ReadP.val_main_v9_apply, ReadP.val_main_c_1_apply, ReadP.val_main_c_2_apply]
  rfl

theorem w12 : ReadP.val_main_v12 (F := Ideal) x7 (ix2 r (0 : Fin 1)) = Agg.wrap (x7 (ix1 r)) := by
  rw [ReadP.val_main_v12_apply, e12, w11]

/-- The node's own feature row. -/
theorem own : ReadP.val_main_v6 (F := Ideal) x0 x7 (ix2 r f) = x0 (ix2 (Agg.pick (x7 (ix1 r))) f) := by
  unfold ReadP.val_main_v6
  exact gather_feat Facts₀.gather_S100000x256_S8192x1_S8192x256_1_0_n_n_0_1_1256_wf x0
    (ReadP.val_main_v5 (F := Ideal) x7) r f _ (w5 x7 r)

/-- The node's adjacency row: its 32 neighbour words. -/
theorem adj : ReadP.val_main_v13 (F := Ideal) x6 x7 (ix2 r d) = x6 (ix2 (Agg.pick (x7 (ix1 r))) d) := by
  unfold ReadP.val_main_v13
  exact gather_adj Facts₀.gather_S100000x32_S8192x1_S8192x32_1_0_n_n_0_1_132_wf x6
    (ReadP.val_main_v12 (F := Ideal) x7) r d _ (w12 x7 r)

/-! A neighbour word, wrapped (computed twice: once per feature table). -/

theorem w18 : ReadP.val_main_v18 (F := Ideal) x6 x7 (ix2 r d)
    = Agg.wrap (x6 (ix2 (Agg.pick (x7 (ix1 r))) d)) := by
  rw [ReadP.val_main_v18_apply, ReadP.val_main_v15_apply, ReadP.val_main_v17_apply, ReadP.val_main_v14_apply,
    ReadP.val_main_v16_apply, ReadP.val_main_c_3_apply, ReadP.val_main_c_4_apply, adj]
  rfl

theorem w19 : ReadP.val_main_v19 (F := Ideal) x6 x7 (ix3 r d (0 : Fin 1))
    = Agg.wrap (x6 (ix2 (Agg.pick (x7 (ix1 r))) d)) := by
  rw [ReadP.val_main_v19_apply, e19, w18]

theorem w25 : ReadP.val_main_v25 (F := Ideal) x6 x7 (ix2 r d)
    = Agg.wrap (x6 (ix2 (Agg.pick (x7 (ix1 r))) d)) := by
  rw [ReadP.val_main_v25_apply, ReadP.val_main_v22_apply, ReadP.val_main_v24_apply, ReadP.val_main_v21_apply,
    ReadP.val_main_v23_apply, ReadP.val_main_c_5_apply, ReadP.val_main_c_6_apply, adj]
  rfl

theorem w26 : ReadP.val_main_v26 (F := Ideal) x6 x7 (ix3 r d (0 : Fin 1))
    = Agg.wrap (x6 (ix2 (Agg.pick (x7 (ix1 r))) d)) := by
  rw [ReadP.val_main_v26_apply, e26, w25]

/-- A neighbour's row of the first feature table. -/
theorem nb0 : ReadP.val_main_v20 (F := Ideal) x0 x6 x7 (ix3 r d f) = x0 (ix2 (Agg.nbr x6 (x7 (ix1 r)) d) f) := by
  unfold ReadP.val_main_v20
  exact gather_feat2 Facts₀.gather_S100000x256_S8192x32x1_S8192x32x256_2_0_n_n_0_2_1256_wf x0
    (ReadP.val_main_v19 (F := Ideal) x6 x7) r d f _ (w19 x6 x7 r d)

/-- A neighbour's row of the second feature table. -/
theorem nb1 : ReadP.val_main_v27 (F := Ideal) x1 x6 x7 (ix3 r d f) = x1 (ix2 (Agg.nbr x6 (x7 (ix1 r)) d) f) := by
  unfold ReadP.val_main_v27
  exact gather_feat2 Facts₀.gather_S100000x256_S8192x32x1_S8192x32x256_2_0_n_n_0_2_1256_wf x1
    (ReadP.val_main_v26 (F := Ideal) x6 x7) r d f _ (w26 x6 x7 r d)

/-- A neighbour's two rows side by side. -/
theorem c28 : ReadP.val_main_v28 (F := Ideal) x0 x1 x6 x7 (ix3 r d k)
    = Agg.cat (fun f => x0 (ix2 (Agg.nbr x6 (x7 (ix1 r)) d) f)) (fun f => x1 (ix2 (Agg.nbr x6 (x7 (ix1 r)) d) f)) k := by
  unfold ReadP.val_main_v28
  refine (cat3_at _ _ _ r d k).trans ?_
  exact congrArg₂ (fun u v => Agg.cat u v k) (funext fun f => nb0 x0 x6 x7 r d f) (funext fun f => nb1 x1 x6 x7 r d f)

/-- The first layer on a neighbour. -/
theorem d29 : ReadP.val_main_v29 (F := Ideal) x0 x1 x2 x6 x7 (ix3 r d o)
    = Agg.layer (fun o k => x2 (ix2 o k))
        (Agg.cat (fun f => x0 (ix2 (Agg.nbr x6 (x7 (ix1 r)) d) f)) (fun f => x1 (ix2 (Agg.nbr x6 (x7 (ix1 r)) d) f))) o := by
  rw [ReadP.val_main_v29_apply]
  unfold Agg.layer
  refine Finset.sum_congr rfl fun k _ => ?_
  rw [el29, er29, c28]

/-- … with its bias. -/
theorem a32 : ReadP.val_main_v32 (F := Ideal) x0 x1 x2 x3 x6 x7 (ix3 r d o)
    = Agg.layer (fun o k => x2 (ix2 o k))
        (Agg.cat (fun f => x0 (ix2 (Agg.nbr x6 (x7 (ix1 r)) d) f)) (fun f => x1 (ix2 (Agg.nbr x6 (x7 (ix1 r)) d) f))) o
      + x3 (ix1 o) := by
  rw [ReadP.val_main_v32_apply, d29, ReadP.val_main_v31_apply, ReadP.val_main_v30_apply, e31]
  rfl

/-- The sum over the neighbours: the aggregate. -/
theorem s33 : ReadP.val_main_v33 (F := Ideal) x0 x1 x2 x3 x6 x7 (ix2 r o) = agg x0 x1 x2 x3 x6 (x7 (ix1 r)) o := by
  rw [ReadP.val_main_v33_apply, ReadP.val_main_cst_apply, Ideal.ofBits_def, Ideal.ofBits_zero_f32, zero_add]
  unfold agg Agg.aggRef
  refine Finset.sum_congr rfl fun d _ => ?_
  rw [e33, a32]

/-- The node's own row beside the aggregate. -/
theorem c34 : ReadP.val_main_v34 (F := Ideal) x0 x1 x2 x3 x6 x7 (ix2 r k)
    = Agg.cat (fun f => x0 (ix2 (Agg.pick (x7 (ix1 r))) f)) (agg x0 x1 x2 x3 x6 (x7 (ix1 r))) k := by
  unfold ReadP.val_main_v34
  refine (cat2_at _ _ _ r k).trans ?_
  exact congrArg₂ (fun u v => Agg.cat u v k) (funext fun f => own x0 x7 r f)
    (funext fun f => s33 x0 x1 x2 x3 x6 x7 r f)

/-- The second layer. -/
theorem d36 : ReadP.val_main_v36 (F := Ideal) x0 x1 x2 x3 x4 x6 x7 (ix2 r o)
    = Agg.layer (fun o k => x4 (ix2 o k))
        (Agg.cat (fun f => x0 (ix2 (Agg.pick (x7 (ix1 r))) f)) (agg x0 x1 x2 x3 x6 (x7 (ix1 r)))) o := by
  rw [ReadP.val_main_v36_apply]
  unfold Agg.layer
  refine Finset.sum_congr rfl fun k _ => ?_
  rw [el36, c34, ReadP.val_main_v35_apply, er36]

/-- … with its bias: the row before normalization. -/
theorem a39 : ReadP.val_main_v39 (F := Ideal) x0 x1 x2 x3 x4 x5 x6 x7 (ix2 r o)
    = pre x0 x1 x2 x3 x4 x5 x6 (x7 (ix1 r)) o := by
  rw [ReadP.val_main_v39_apply, d36, ReadP.val_main_v38_apply, ReadP.val_main_v37_apply, e38]
  rfl

/-- The sum of squares of the row. -/
theorem q1 : ReadP.val_main_call0_v1 (F := Ideal) x0 x1 x2 x3 x4 x5 x6 x7 (ix1 r)
    = ∑ o' : Fin 256, pre x0 x1 x2 x3 x4 x5 x6 (x7 (ix1 r)) o' * pre x0 x1 x2 x3 x4 x5 x6 (x7 (ix1 r)) o' := by
  rw [ReadP.val_main_call0_v1_apply, ReadP.val_main_call0_cst_apply, Ideal.ofBits_def, Ideal.ofBits_zero_f32, zero_add]
  refine Finset.sum_congr rfl fun o' _ => ?_
  rw [ec1, ReadP.val_main_call0_v0_apply, a39]
  rfl

/-- The floored norm. -/
theorem m42 : ReadP.val_main_v42 (F := Ideal) x0 x1 x2 x3 x4 x5 x6 x7 (ix2 r (0 : Fin 1))
    = max (Ideal.sqrt (∑ o' : Fin 256, pre x0 x1 x2 x3 x4 x5 x6 (x7 (ix1 r)) o' * pre x0 x1 x2 x3 x4 x5 x6 (x7 (ix1 r)) o'))
        (Ideal.ofBits .f32 0x2B8CBCCC#32) := by
  rw [ReadP.val_main_v42_apply, ReadP.val_main_v40_apply, ReadP.val_main_call0_v2_apply, ec2, q1,
    ReadP.val_main_v41_apply, ReadP.val_main_cst_7_apply]
  rfl

end

end P1

/-- The reference's first result at `(r, o)`: the output row of the node word `inputs1[r]`. -/
theorem out1_apply (x0 x1 : (⟨S100000x256, .f32⟩ : BufTy).Contents (Elt Ideal)) (x2 : (⟨S256x512, .f32⟩ : BufTy).Contents (Elt Ideal)) (x3 : (⟨S256, .f32⟩ : BufTy).Contents (Elt Ideal)) (x4 : (⟨S256x512, .f32⟩ : BufTy).Contents (Elt Ideal)) (x5 : (⟨S256, .f32⟩ : BufTy).Contents (Elt Ideal)) (x6 : (⟨S100000x32, .i32⟩ : BufTy).Contents (Elt Ideal)) (x7 : (⟨S8192, .i32⟩ : BufTy).Contents (Elt Ideal)) (r : Fin 8192) (o : Fin 256) :
    ReadP.val_main_v44 (F := Ideal) x0 x1 x2 x3 x4 x5 x6 x7 (ValueIdx.ix2 r o) = Cert.Agg.outRef x0 x1 x2 x4 x3 x5 x6 (x7 (ValueIdx.ix1 r)) o := by
  rw [ReadP.val_main_v44_apply, ReadP.val_main_v43_apply, P1.e43, P1.m42, P1.a39, outRef_eq]
  rfl

/-! ## The second node array -/

namespace P2

section
variable (x0 x1 : (⟨S100000x256, .f32⟩ : BufTy).Contents (Elt Ideal)) (x2 : (⟨S256x512, .f32⟩ : BufTy).Contents (Elt Ideal))
  (x3 : (⟨S256, .f32⟩ : BufTy).Contents (Elt Ideal)) (x4 : (⟨S256x512, .f32⟩ : BufTy).Contents (Elt Ideal))
  (x5 : (⟨S256, .f32⟩ : BufTy).Contents (Elt Ideal)) (x6 : (⟨S100000x32, .i32⟩ : BufTy).Contents (Elt Ideal))
  (x8 : (⟨S8192, .i32⟩ : BufTy).Contents (Elt Ideal))
  (r : Fin 8192) (d : Fin 32) (f o : Fin 256) (k : Fin 512)

/-! The composed index functions of the generated module, at coordinates. -/

theorem e5 : ReadP.idx_main_v50 (ix2 r (0 : Fin 1)) = ix1 r :=
  funext fun a => Fin.ext (by match a with | ⟨0, _⟩ => rfl)
theorem e12 : ReadP.idx_main_v57 (ix2 r (0 : Fin 1)) = ix1 r :=
  funext fun a => Fin.ext (by match a with | ⟨0, _⟩ => rfl)
theorem e19 : ReadP.idx_main_v64 (ix3 r d (0 : Fin 1)) = ix2 r d :=
  funext fun a => Fin.ext (by match a with | ⟨0, _⟩ => rfl | ⟨1, _⟩ => rfl)
theorem e26 : ReadP.idx_main_v71 (ix3 r d (0 : Fin 1)) = ix2 r d :=
  funext fun a => Fin.ext (by match a with | ⟨0, _⟩ => rfl | ⟨1, _⟩ => rfl)
theorem el29 : ReadP.lidx_main_v74 (ix3 r d o) k = ix3 r d k :=
  funext fun a => Fin.ext (by match a with | ⟨0, _⟩ => rfl | ⟨1, _⟩ => rfl | ⟨2, _⟩ => rfl)
theorem er29 : ReadP.ridx_main_v74 (ix3 r d o) k = ix2 o k :=
  funext fun a => Fin.ext (by match a with | ⟨0, _⟩ => rfl | ⟨1, _⟩ => rfl)
theorem e31 : ReadP.idx_main_v75 (ReadP.idx_main_v76 (ix3 r d o)) = ix1 o :=
  funext fun a => Fin.ext (by match a with | ⟨0, _⟩ => rfl)
theorem e33 : ReadP.idx_main_v78 (ix2 r o) d = ix3 r d o :=
  funext fun a => Fin.ext (by match a with | ⟨0, _⟩ => rfl | ⟨1, _⟩ => rfl | ⟨2, _⟩ => rfl)
theorem el36 : ReadP.lidx_main_v81 (ix2 r o) k = ix2 r k :=
  funext fun a => Fin.ext (by match a with | ⟨0, _⟩ => rfl | ⟨1, _⟩ => rfl)
theorem er36 : ReadP.idx_main_v80 (ReadP.ridx_main_v81 (ix2 r o) k) = ix2 o k :=
  funext fun a => Fin.ext (by match a with | ⟨0, _⟩ => rfl | ⟨1, _⟩ => rfl)
theorem e38 : ReadP.idx_main_v82 (ReadP.idx_main_v83 (ix2 r o)) = ix1 o :=
  funext fun a => Fin.ext (by match a with | ⟨0, _⟩ => rfl)
theorem ec1 : ReadP.idx_main_call1_v1 (ix1 r) o = ix2 r o :=
  funext fun a => Fin.ext (by match a with | ⟨0, _⟩ => rfl | ⟨1, _⟩ => rfl)
theorem ec2 : ReadP.idx_main_call1_v2 (ix2 r (0 : Fin 1)) = ix1 r :=
  funext fun a => Fin.ext (by match a with | ⟨0, _⟩ => rfl)
theorem e43 : ReadP.idx_main_v88 (ix2 r o) = ix2 r (0 : Fin 1) :=
  funext fun a => Fin.ext (by match a with | ⟨0, _⟩ => rfl | ⟨1, _⟩ => rfl)

/-! The node's own word, wrapped (computed twice: once for its feature row, once for its adjacency row). -/

theorem w4 : ReadP.val_main_v49 (F := Ideal) x8 (ix1 r) = Agg.wrap (x8 (ix1 r)) := by
  rw [ReadP.val_main_v49_apply, ReadP.val_main_v46_apply, ReadP.val_main_v48_apply, ReadP.val_main_v45_apply,
    ReadP.val_main_v47_apply, ReadP.val_main_c_8_apply, ReadP.val_main_c_9_apply]
  rfl

theorem w5 : ReadP.val_main_v50 (F := Ideal) x8 (ix2 r (0 : Fin 1)) = Agg.wrap (x8 (ix1 r)) := by
  rw [ReadP.val_main_v50_apply, e5, w4]

theorem w11 : ReadP.val_main_v56 (F := Ideal) x8 (ix1 r) = Agg.wrap (x8 (ix1 r)) := by
  rw [ReadP.val_main_v56_apply, ReadP.val_main_v53_apply, ReadP.val_main_v55_apply, ReadP.val_main_v52_apply,
    ReadP.val_main_v54_apply, ReadP.val_main_c_10_apply, ReadP.val_main_c_11_apply]
  rfl

theorem w12 : ReadP.val_main_v57 (F := Ideal) x8 (ix2 r (0 : Fin 1)) = Agg.wrap (x8 (ix1 r)) := by
  rw [ReadP.val_main_v57_apply, e12, w11]

/-- The node's own feature row. -/
theorem own : ReadP.val_main_v51 (F := Ideal) x0 x8 (ix2 r f) = x0 (ix2 (Agg.pick (x8 (ix1 r))) f) := by
  unfold ReadP.val_main_v51
  exact gather_feat Facts₀.gather_S100000x256_S8192x1_S8192x256_1_0_n_n_0_1_1256_wf x0
    (ReadP.val_main_v50 (F := Ideal) x8) r f _ (w5 x8 r)

/-- The node's adjacency row: its 32 neighbour words. -/
theorem adj : ReadP.val_main_v58 (F := Ideal) x6 x8 (ix2 r d) = x6 (ix2 (Agg.pick (x8 (ix1 r))) d) := by
  unfold ReadP.val_main_v58
  exact gather_adj Facts₀.gather_S100000x32_S8192x1_S8192x32_1_0_n_n_0_1_132_wf x6
    (ReadP.val_main_v57 (F := Ideal) x8) r d _ (w12 x8 r)

/-! A neighbour word, wrapped (computed twice: once per feature table). -/

theorem w18 : ReadP.val_main_v63 (F := Ideal) x6 x8 (ix2 r d)
    = Agg.wrap (x6 (ix2 (Agg.pick (x8 (ix1 r))) d)) := by
  rw [ReadP.val_main_v63_apply, ReadP.val_main_v60_apply, ReadP.val_main_v62_apply, ReadP.val_main_v59_apply,
    ReadP.val_main_v61_apply, ReadP.val_main_c_12_apply, ReadP.val_main_c_13_apply, adj]
  rfl

theorem w19 : ReadP.val_main_v64 (F := Ideal) x6 x8 (ix3 r d (0 : Fin 1))
    = Agg.wrap (x6 (ix2 (Agg.pick (x8 (ix1 r))) d)) := by
  rw [ReadP.val_main_v64_apply, e19, w18]

theorem w25 : ReadP.val_main_v70 (F := Ideal) x6 x8 (ix2 r d)
    = Agg.wrap (x6 (ix2 (Agg.pick (x8 (ix1 r))) d)) := by
  rw [ReadP.val_main_v70_apply, ReadP.val_main_v67_apply, ReadP.val_main_v69_apply, ReadP.val_main_v66_apply,
    ReadP.val_main_v68_apply, ReadP.val_main_c_14_apply, ReadP.val_main_c_15_apply, adj]
  rfl

theorem w26 : ReadP.val_main_v71 (F := Ideal) x6 x8 (ix3 r d (0 : Fin 1))
    = Agg.wrap (x6 (ix2 (Agg.pick (x8 (ix1 r))) d)) := by
  rw [ReadP.val_main_v71_apply, e26, w25]

/-- A neighbour's row of the first feature table. -/
theorem nb0 : ReadP.val_main_v65 (F := Ideal) x0 x6 x8 (ix3 r d f) = x0 (ix2 (Agg.nbr x6 (x8 (ix1 r)) d) f) := by
  unfold ReadP.val_main_v65
  exact gather_feat2 Facts₀.gather_S100000x256_S8192x32x1_S8192x32x256_2_0_n_n_0_2_1256_wf x0
    (ReadP.val_main_v64 (F := Ideal) x6 x8) r d f _ (w19 x6 x8 r d)

/-- A neighbour's row of the second feature table. -/
theorem nb1 : ReadP.val_main_v72 (F := Ideal) x1 x6 x8 (ix3 r d f) = x1 (ix2 (Agg.nbr x6 (x8 (ix1 r)) d) f) := by
  unfold ReadP.val_main_v72
  exact gather_feat2 Facts₀.gather_S100000x256_S8192x32x1_S8192x32x256_2_0_n_n_0_2_1256_wf x1
    (ReadP.val_main_v71 (F := Ideal) x6 x8) r d f _ (w26 x6 x8 r d)

/-- A neighbour's two rows side by side. -/
theorem c28 : ReadP.val_main_v73 (F := Ideal) x0 x1 x6 x8 (ix3 r d k)
    = Agg.cat (fun f => x0 (ix2 (Agg.nbr x6 (x8 (ix1 r)) d) f)) (fun f => x1 (ix2 (Agg.nbr x6 (x8 (ix1 r)) d) f)) k := by
  unfold ReadP.val_main_v73
  refine (cat3_at _ _ _ r d k).trans ?_
  exact congrArg₂ (fun u v => Agg.cat u v k) (funext fun f => nb0 x0 x6 x8 r d f) (funext fun f => nb1 x1 x6 x8 r d f)

/-- The first layer on a neighbour. -/
theorem d29 : ReadP.val_main_v74 (F := Ideal) x0 x1 x2 x6 x8 (ix3 r d o)
    = Agg.layer (fun o k => x2 (ix2 o k))
        (Agg.cat (fun f => x0 (ix2 (Agg.nbr x6 (x8 (ix1 r)) d) f)) (fun f => x1 (ix2 (Agg.nbr x6 (x8 (ix1 r)) d) f))) o := by
  rw [ReadP.val_main_v74_apply]
  unfold Agg.layer
  refine Finset.sum_congr rfl fun k _ => ?_
  rw [el29, er29, c28]

/-- … with its bias. -/
theorem a32 : ReadP.val_main_v77 (F := Ideal) x0 x1 x2 x3 x6 x8 (ix3 r d o)
    = Agg.layer (fun o k => x2 (ix2 o k))
        (Agg.cat (fun f => x0 (ix2 (Agg.nbr x6 (x8 (ix1 r)) d) f)) (fun f => x1 (ix2 (Agg.nbr x6 (x8 (ix1 r)) d) f))) o
      + x3 (ix1 o) := by
  rw [ReadP.val_main_v77_apply, d29, ReadP.val_main_v76_apply, ReadP.val_main_v75_apply, e31]
  rfl

/-- The sum over the neighbours: the aggregate. -/
theorem s33 : ReadP.val_main_v78 (F := Ideal) x0 x1 x2 x3 x6 x8 (ix2 r o) = agg x0 x1 x2 x3 x6 (x8 (ix1 r)) o := by
  rw [ReadP.val_main_v78_apply, ReadP.val_main_cst_16_apply, Ideal.ofBits_def, Ideal.ofBits_zero_f32, zero_add]
  unfold agg Agg.aggRef
  refine Finset.sum_congr rfl fun d _ => ?_
  rw [e33, a32]

/-- The node's own row beside the aggregate. -/
theorem c34 : ReadP.val_main_v79 (F := Ideal) x0 x1 x2 x3 x6 x8 (ix2 r k)
    = Agg.cat (fun f => x0 (ix2 (Agg.pick (x8 (ix1 r))) f)) (agg x0 x1 x2 x3 x6 (x8 (ix1 r))) k := by
  unfold ReadP.val_main_v79
  refine (cat2_at _ _ _ r k).trans ?_
  exact congrArg₂ (fun u v => Agg.cat u v k) (funext fun f => own x0 x8 r f)
    (funext fun f => s33 x0 x1 x2 x3 x6 x8 r f)

/-- The second layer. -/
theorem d36 : ReadP.val_main_v81 (F := Ideal) x0 x1 x2 x3 x4 x6 x8 (ix2 r o)
    = Agg.layer (fun o k => x4 (ix2 o k))
        (Agg.cat (fun f => x0 (ix2 (Agg.pick (x8 (ix1 r))) f)) (agg x0 x1 x2 x3 x6 (x8 (ix1 r)))) o := by
  rw [ReadP.val_main_v81_apply]
  unfold Agg.layer
  refine Finset.sum_congr rfl fun k _ => ?_
  rw [el36, c34, ReadP.val_main_v80_apply, er36]

/-- … with its bias: the row before normalization. -/
theorem a39 : ReadP.val_main_v84 (F := Ideal) x0 x1 x2 x3 x4 x5 x6 x8 (ix2 r o)
    = pre x0 x1 x2 x3 x4 x5 x6 (x8 (ix1 r)) o := by
  rw [ReadP.val_main_v84_apply, d36, ReadP.val_main_v83_apply, ReadP.val_main_v82_apply, e38]
  rfl

/-- The sum of squares of the row. -/
theorem q1 : ReadP.val_main_call1_v1 (F := Ideal) x0 x1 x2 x3 x4 x5 x6 x8 (ix1 r)
    = ∑ o' : Fin 256, pre x0 x1 x2 x3 x4 x5 x6 (x8 (ix1 r)) o' * pre x0 x1 x2 x3 x4 x5 x6 (x8 (ix1 r)) o' := by
  rw [ReadP.val_main_call1_v1_apply, ReadP.val_main_call1_cst_apply, Ideal.ofBits_def, Ideal.ofBits_zero_f32, zero_add]
  refine Finset.sum_congr rfl fun o' _ => ?_
  rw [ec1, ReadP.val_main_call1_v0_apply, a39]
  rfl

/-- The floored norm. -/
theorem m42 : ReadP.val_main_v87 (F := Ideal) x0 x1 x2 x3 x4 x5 x6 x8 (ix2 r (0 : Fin 1))
    = max (Ideal.sqrt (∑ o' : Fin 256, pre x0 x1 x2 x3 x4 x5 x6 (x8 (ix1 r)) o' * pre x0 x1 x2 x3 x4 x5 x6 (x8 (ix1 r)) o'))
        (Ideal.ofBits .f32 0x2B8CBCCC#32) := by
  rw [ReadP.val_main_v87_apply, ReadP.val_main_v85_apply, ReadP.val_main_call1_v2_apply, ec2, q1,
    ReadP.val_main_v86_apply, ReadP.val_main_cst_17_apply]
  rfl

end

end P2

/-- The reference's second result at `(r, o)`: the output row of the node word `inputs2[r]`. -/
theorem out2_apply (x0 x1 : (⟨S100000x256, .f32⟩ : BufTy).Contents (Elt Ideal)) (x2 : (⟨S256x512, .f32⟩ : BufTy).Contents (Elt Ideal)) (x3 : (⟨S256, .f32⟩ : BufTy).Contents (Elt Ideal)) (x4 : (⟨S256x512, .f32⟩ : BufTy).Contents (Elt Ideal)) (x5 : (⟨S256, .f32⟩ : BufTy).Contents (Elt Ideal)) (x6 : (⟨S100000x32, .i32⟩ : BufTy).Contents (Elt Ideal)) (x8 : (⟨S8192, .i32⟩ : BufTy).Contents (Elt Ideal)) (r : Fin 8192) (o : Fin 256) :
    ReadP.val_main_v89 (F := Ideal) x0 x1 x2 x3 x4 x5 x6 x8 (ValueIdx.ix2 r o) = Cert.Agg.outRef x0 x1 x2 x4 x3 x5 x6 (x8 (ValueIdx.ix1 r)) o := by
  rw [ReadP.val_main_v89_apply, ReadP.val_main_v88_apply, P2.e43, P2.m42, P2.a39, outRef_eq]
  rfl

/-! ## The third node array (ten rows) -/

namespace P3

section
variable (x0 x1 : (⟨S100000x256, .f32⟩ : BufTy).Contents (Elt Ideal)) (x2 : (⟨S256x512, .f32⟩ : BufTy).Contents (Elt Ideal))
  (x3 : (⟨S256, .f32⟩ : BufTy).Contents (Elt Ideal)) (x4 : (⟨S256x512, .f32⟩ : BufTy).Contents (Elt Ideal))
  (x5 : (⟨S256, .f32⟩ : BufTy).Contents (Elt Ideal)) (x6 : (⟨S100000x32, .i32⟩ : BufTy).Contents (Elt Ideal))
  (x9 : (⟨S10, .i32⟩ : BufTy).Contents (Elt Ideal))
  (r : Fin 10) (d : Fin 32) (f o : Fin 256) (k : Fin 512)

/-! The composed index functions of the generated module, at coordinates. -/

theorem e5 : ReadP.idx_main_v95 (ix2 r (0 : Fin 1)) = ix1 r :=
  funext fun a => Fin.ext (by match a with | ⟨0, _⟩ => rfl)
theorem e12 : ReadP.idx_main_v102 (ix2 r (0 : Fin 1)) = ix1 r :=
  funext fun a => Fin.ext (by match a with | ⟨0, _⟩ => rfl)
theorem e19 : ReadP.idx_main_v109 (ix3 r d (0 : Fin 1)) = ix2 r d :=
  funext fun a => Fin.ext (by match a with | ⟨0, _⟩ => rfl | ⟨1, _⟩ => rfl)
theorem e26 : ReadP.idx_main_v116 (ix3 r d (0 : Fin 1)) = ix2 r d :=
  funext fun a => Fin.ext (by match a with | ⟨0, _⟩ => rfl | ⟨1, _⟩ => rfl)
theorem el29 : ReadP.lidx_main_v119 (ix3 r d o) k = ix3 r d k :=
  funext fun a => Fin.ext (by match a with | ⟨0, _⟩ => rfl | ⟨1, _⟩ => rfl | ⟨2, _⟩ => rfl)
theorem er29 : ReadP.ridx_main_v119 (ix3 r d o) k = ix2 o k :=
  funext fun a => Fin.ext (by match a with | ⟨0, _⟩ => rfl | ⟨1, _⟩ => rfl)
theorem e31 : ReadP.idx_main_v120 (ReadP.idx_main_v121 (ix3 r d o)) = ix1 o :=
  funext fun a => Fin.ext (by match a with | ⟨0, _⟩ => rfl)
theorem e33 : ReadP.idx_main_v123 (ix2 r o) d = ix3 r d o :=
  funext fun a => Fin.ext (by match a with | ⟨0, _⟩ => rfl | ⟨1, _⟩ => rfl | ⟨2, _⟩ => rfl)
theorem el36 : ReadP.lidx_main_v126 (ix2 r o) k = ix2 r k :=
  funext fun a => Fin.ext (by match a with | ⟨0, _⟩ => rfl | ⟨1, _⟩ => rfl)
theorem er36 : ReadP.idx_main_v125 (ReadP.ridx_main_v126 (ix2 r o) k) = ix2 o k :=
  funext fun a => Fin.ext (by match a with | ⟨0, _⟩ => rfl | ⟨1, _⟩ => rfl)
theorem e38 : ReadP.idx_main_v127 (ReadP.idx_main_v128 (ix2 r o)) = ix1 o :=
  funext fun a => Fin.ext (by match a with | ⟨0, _⟩ => rfl)
theorem ec1 : ReadP.idx_main_call2_v1 (ix1 r) o = ix2 r o :=
  funext fun a => Fin.ext (by match a with | ⟨0, _⟩ => rfl | ⟨1, _⟩ => rfl)
theorem ec2 : ReadP.idx_main_call2_v2 (ix2 r (0 : Fin 1)) = ix1 r :=
  funext fun a => Fin.ext (by match a with | ⟨0, _⟩ => rfl)
theorem e43 : ReadP.idx_main_v133 (ix2 r o) = ix2 r (0 : Fin 1) :=
  funext fun a => Fin.ext (by match a with | ⟨0, _⟩ => rfl | ⟨1, _⟩ => rfl)

/-! The node's own word, wrapped (computed twice: once for its feature row, once for its adjacency row). -/

theorem w4 : ReadP.val_main_v94 (F := Ideal) x9 (ix1 r) = Agg.wrap (x9 (ix1 r)) := by
  rw [ReadP.val_main_v94_apply, ReadP.val_main_v91_apply, ReadP.val_main_v93_apply, ReadP.val_main_v90_apply,
    ReadP.val_main_v92_apply, ReadP.val_main_c_18_apply, ReadP.val_main_c_19_apply]
  rfl

theorem w5 : ReadP.val_main_v95 (F := Ideal) x9 (ix2 r (0 : Fin 1)) = Agg.wrap (x9 (ix1 r)) := by
  rw [ReadP.val_main_v95_apply, e5, w4]

theorem w11 : ReadP.val_main_v101 (F := Ideal) x9 (ix1 r) = Agg.wrap (x9 (ix1 r)) := by
  rw [ReadP.val_main_v101_apply, ReadP.val_main_v98_apply, ReadP.val_main_v100_apply, ReadP.val_main_v97_apply,
    ReadP.val_main_v99_apply, ReadP.val_main_c_20_apply, ReadP.val_main_c_21_apply]
  rfl

theorem w12 : ReadP.val_main_v102 (F := Ideal) x9 (ix2 r (0 : Fin 1)) = Agg.wrap (x9 (ix1 r)) := by
  rw [ReadP.val_main_v102_apply, e12, w11]

/-- The node's own feature row. -/
theorem own : ReadP.val_main_v96 (F := Ideal) x0 x9 (ix2 r f) = x0 (ix2 (Agg.pick (x9 (ix1 r))) f) := by
  unfold ReadP.val_main_v96
  exact gather_feat Facts₀.gather_S100000x256_S10x1_S10x256_1_0_n_n_0_1_1256_wf x0
    (ReadP.val_main_v95 (F := Ideal) x9) r f _ (w5 x9 r)

/-- The node's adjacency row: its 32 neighbour words. -/
theorem adj : ReadP.val_main_v103 (F := Ideal) x6 x9 (ix2 r d) = x6 (ix2 (Agg.pick (x9 (ix1 r))) d) := by
  unfold ReadP.val_main_v103
  exact gather_adj Facts₀.gather_S100000x32_S10x1_S10x32_1_0_n_n_0_1_132_wf x6
    (ReadP.val_main_v102 (F := Ideal) x9) r d _ (w12 x9 r)

/-! A neighbour word, wrapped (computed twice: once per feature table). -/

theorem w18 : ReadP.val_main_v108 (F := Ideal) x6 x9 (ix2 r d)
    = Agg.wrap (x6 (ix2 (Agg.pick (x9 (ix1 r))) d)) := by
  rw [ReadP.val_main_v108_apply, ReadP.val_main_v105_apply, ReadP.val_main_v107_apply, ReadP.val_main_v104_apply,
    ReadP.val_main_v106_apply, ReadP.val_main_c_22_apply, ReadP.val_main_c_23_apply, adj]
  rfl

theorem w19 : ReadP.val_main_v109 (F := Ideal) x6 x9 (ix3 r d (0 : Fin 1))
    = Agg.wrap (x6 (ix2 (Agg.pick (x9 (ix1 r))) d)) := by
  rw [ReadP.val_main_v109_apply, e19, w18]

theorem w25 : ReadP.val_main_v115 (F := Ideal) x6 x9 (ix2 r d)
    = Agg.wrap (x6 (ix2 (Agg.pick (x9 (ix1 r))) d)) := by
  rw [ReadP.val_main_v115_apply, ReadP.val_main_v112_apply, ReadP.val_main_v114_apply, ReadP.val_main_v111_apply,
    ReadP.val_main_v113_apply, ReadP.val_main_c_24_apply, ReadP.val_main_c_25_apply, adj]
  rfl

theorem w26 : ReadP.val_main_v116 (F := Ideal) x6 x9 (ix3 r d (0 : Fin 1))
    = Agg.wrap (x6 (ix2 (Agg.pick (x9 (ix1 r))) d)) := by
  rw [ReadP.val_main_v116_apply, e26, w25]

/-- A neighbour's row of the first feature table. -/
theorem nb0 : ReadP.val_main_v110 (F := Ideal) x0 x6 x9 (ix3 r d f) = x0 (ix2 (Agg.nbr x6 (x9 (ix1 r)) d) f) := by
  unfold ReadP.val_main_v110
  exact gather_feat2 Facts₀.gather_S100000x256_S10x32x1_S10x32x256_2_0_n_n_0_2_1256_wf x0
    (ReadP.val_main_v109 (F := Ideal) x6 x9) r d f _ (w19 x6 x9 r d)

/-- A neighbour's row of the second feature table. -/
theorem nb1 : ReadP.val_main_v117 (F := Ideal) x1 x6 x9 (ix3 r d f) = x1 (ix2 (Agg.nbr x6 (x9 (ix1 r)) d) f) := by
  unfold ReadP.val_main_v117
  exact gather_feat2 Facts₀.gather_S100000x256_S10x32x1_S10x32x256_2_0_n_n_0_2_1256_wf x1
    (ReadP.val_main_v116 (F := Ideal) x6 x9) r d f _ (w26 x6 x9 r d)

/-- A neighbour's two rows side by side. -/
theorem c28 : ReadP.val_main_v118 (F := Ideal) x0 x1 x6 x9 (ix3 r d k)
    = Agg.cat (fun f => x0 (ix2 (Agg.nbr x6 (x9 (ix1 r)) d) f)) (fun f => x1 (ix2 (Agg.nbr x6 (x9 (ix1 r)) d) f)) k := by
  unfold ReadP.val_main_v118
  refine (cat3_at _ _ _ r d k).trans ?_
  exact congrArg₂ (fun u v => Agg.cat u v k) (funext fun f => nb0 x0 x6 x9 r d f) (funext fun f => nb1 x1 x6 x9 r d f)

/-- The first layer on a neighbour. -/
theorem d29 : ReadP.val_main_v119 (F := Ideal) x0 x1 x2 x6 x9 (ix3 r d o)
    = Agg.layer (fun o k => x2 (ix2 o k))
        (Agg.cat (fun f => x0 (ix2 (Agg.nbr x6 (x9 (ix1 r)) d) f)) (fun f => x1 (ix2 (Agg.nbr x6 (x9 (ix1 r)) d) f))) o := by
  rw [ReadP.val_main_v119_apply]
  unfold Agg.layer
  refine Finset.sum_congr rfl fun k _ => ?_
  rw [el29, er29, c28]

/-- … with its bias. -/
theorem a32 : ReadP.val_main_v122 (F := Ideal) x0 x1 x2 x3 x6 x9 (ix3 r d o)
    = Agg.layer (fun o k => x2 (ix2 o k))
        (Agg.cat (fun f => x0 (ix2 (Agg.nbr x6 (x9 (ix1 r)) d) f)) (fun f => x1 (ix2 (Agg.nbr x6 (x9 (ix1 r)) d) f))) o
      + x3 (ix1 o) := by
  rw [ReadP.val_main_v122_apply, d29, ReadP.val_main_v121_apply, ReadP.val_main_v120_apply, e31]
  rfl

/-- The sum over the neighbours: the aggregate. -/
theorem s33 : ReadP.val_main_v123 (F := Ideal) x0 x1 x2 x3 x6 x9 (ix2 r o) = agg x0 x1 x2 x3 x6 (x9 (ix1 r)) o := by
  rw [ReadP.val_main_v123_apply, ReadP.val_main_cst_26_apply, Ideal.ofBits_def, Ideal.ofBits_zero_f32, zero_add]
  unfold agg Agg.aggRef
  refine Finset.sum_congr rfl fun d _ => ?_
  rw [e33, a32]

/-- The node's own row beside the aggregate. -/
theorem c34 : ReadP.val_main_v124 (F := Ideal) x0 x1 x2 x3 x6 x9 (ix2 r k)
    = Agg.cat (fun f => x0 (ix2 (Agg.pick (x9 (ix1 r))) f)) (agg x0 x1 x2 x3 x6 (x9 (ix1 r))) k := by
  unfold ReadP.val_main_v124
  refine (cat2_at _ _ _ r k).trans ?_
  exact congrArg₂ (fun u v => Agg.cat u v k) (funext fun f => own x0 x9 r f)
    (funext fun f => s33 x0 x1 x2 x3 x6 x9 r f)

/-- The second layer. -/
theorem d36 : ReadP.val_main_v126 (F := Ideal) x0 x1 x2 x3 x4 x6 x9 (ix2 r o)
    = Agg.layer (fun o k => x4 (ix2 o k))
        (Agg.cat (fun f => x0 (ix2 (Agg.pick (x9 (ix1 r))) f)) (agg x0 x1 x2 x3 x6 (x9 (ix1 r)))) o := by
  rw [ReadP.val_main_v126_apply]
  unfold Agg.layer
  refine Finset.sum_congr rfl fun k _ => ?_
  rw [el36, c34, ReadP.val_main_v125_apply, er36]

/-- … with its bias: the row before normalization. -/
theorem a39 : ReadP.val_main_v129 (F := Ideal) x0 x1 x2 x3 x4 x5 x6 x9 (ix2 r o)
    = pre x0 x1 x2 x3 x4 x5 x6 (x9 (ix1 r)) o := by
  rw [ReadP.val_main_v129_apply, d36, ReadP.val_main_v128_apply, ReadP.val_main_v127_apply, e38]
  rfl

/-- The sum of squares of the row. -/
theorem q1 : ReadP.val_main_call2_v1 (F := Ideal) x0 x1 x2 x3 x4 x5 x6 x9 (ix1 r)
    = ∑ o' : Fin 256, pre x0 x1 x2 x3 x4 x5 x6 (x9 (ix1 r)) o' * pre x0 x1 x2 x3 x4 x5 x6 (x9 (ix1 r)) o' := by
  rw [ReadP.val_main_call2_v1_apply, ReadP.val_main_call2_cst_apply, Ideal.ofBits_def, Ideal.ofBits_zero_f32, zero_add]
  refine Finset.sum_congr rfl fun o' _ => ?_
  rw [ec1, ReadP.val_main_call2_v0_apply, a39]
  rfl

/-- The floored norm. -/
theorem m42 : ReadP.val_main_v132 (F := Ideal) x0 x1 x2 x3 x4 x5 x6 x9 (ix2 r (0 : Fin 1))
    = max (Ideal.sqrt (∑ o' : Fin 256, pre x0 x1 x2 x3 x4 x5 x6 (x9 (ix1 r)) o' * pre x0 x1 x2 x3 x4 x5 x6 (x9 (ix1 r)) o'))
        (Ideal.ofBits .f32 0x2B8CBCCC#32) := by
  rw [ReadP.val_main_v132_apply, ReadP.val_main_v130_apply, ReadP.val_main_call2_v2_apply, ec2, q1,
    ReadP.val_main_v131_apply, ReadP.val_main_cst_27_apply]
  rfl

end

end P3

/-- The reference's third result at `(r, o)`: the output row of the node word `neg[r]`. -/
theorem out3_apply (x0 x1 : (⟨S100000x256, .f32⟩ : BufTy).Contents (Elt Ideal)) (x2 : (⟨S256x512, .f32⟩ : BufTy).Contents (Elt Ideal)) (x3 : (⟨S256, .f32⟩ : BufTy).Contents (Elt Ideal)) (x4 : (⟨S256x512, .f32⟩ : BufTy).Contents (Elt Ideal)) (x5 : (⟨S256, .f32⟩ : BufTy).Contents (Elt Ideal)) (x6 : (⟨S100000x32, .i32⟩ : BufTy).Contents (Elt Ideal)) (x9 : (⟨S10, .i32⟩ : BufTy).Contents (Elt Ideal)) (r : Fin 10) (o : Fin 256) :
    ReadP.val_main_v134 (F := Ideal) x0 x1 x2 x3 x4 x5 x6 x9 (ValueIdx.ix2 r o) = Cert.Agg.outRef x0 x1 x2 x4 x3 x5 x6 (x9 (ValueIdx.ix1 r)) o := by
  rw [ReadP.val_main_v134_apply, ReadP.val_main_v133_apply, P3.e43, P3.m42, P3.a39, outRef_eq]
  rfl

end Cert.ReferenceIdeal.Rows

end
-- ==== Proof.AggLaw.lean ====
/-
  The aggregation law on the extended reals: summing the first layer (with its bias) over the 32 neighbours equals
  the first layer once on the summed rows plus 32 times the bias — when every entry is a real number.

  On the extended reals multiplication does not distribute over addition at the infinities, so the law is proved where
  it holds: every entry is the coercion of a real, the coercion is pushed outward through products and finite sums,
  and the identity is finished in the field of real numbers.
-/
import proofs.«111308_j49039936585979_2_alg».proof.Proof.Spec
import Mathlib

noncomputable section

open scoped BigOperators

namespace Cert.Agg

open Idealize.ShloMosaic

/-! ## The constant -/

/-- The single-precision word `0x42000000` (sign 0, exponent 132, fraction 0) denotes `2 ^ 5 = 32`. -/
theorem ofBits_thirtytwo : Ideal.ofBits .f32 0x42000000#32 = ((32 : ℝ) : EReal) := by
  simp [Ideal.ofBits, Ideal.ieee, -EReal.coe_mul]; norm_num

/-! ## The coercion of a finite sum -/

/-- The coercion `ℝ → EReal` commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## The real-valued counterparts -/

/-- Two real 256-vectors side by side. -/
def catR (u v : Fin 256 → ℝ) (k : Fin 512) : ℝ :=
  if h : k.val < 256 then u ⟨k.val, h⟩ else v ⟨k.val - 256, by omega⟩

/-- `cat` of coerced real vectors is the coercion of the real `catR`. -/
theorem cat_coe (u v : Fin 256 → ℝ) (k : Fin 512) :
    cat (fun f => ((u f : ℝ) : EReal)) (fun f => ((v f : ℝ) : EReal)) k = ((catR u v k : ℝ) : EReal) := by
  unfold cat catR
  split <;> rfl

/-- `catR` of two sums of vectors is the sum of the `catR`s. -/
theorem catR_sum (r0 r1 : Fin 32 → Fin 256 → ℝ) (k : Fin 512) :
    catR (fun f => ∑ d : Fin 32, r0 d f) (fun f => ∑ d : Fin 32, r1 d f) k = ∑ d : Fin 32, catR (r0 d) (r1 d) k := by
  unfold catR
  split <;> rfl

/-- The layer on coerced real data is the coercion of the real sum of products. -/
theorem layer_coe (w : Fin 256 → Fin 512 → ℝ) (row : Fin 512 → ℝ) (o : Fin 256) :
    layer (fun o k => ((w o k : ℝ) : EReal)) (fun k => ((row k : ℝ) : EReal)) o
      = ((∑ k : Fin 512, row k * w o k : ℝ) : EReal) := by
  unfold layer
  rw [coe_sum]
  exact Finset.sum_congr rfl fun k _ => (EReal.coe_mul _ _).symm

/-- The law in the real numbers: sum over the neighbours of (products summed over the columns, plus the bias) equals
    the column sums of the neighbour-summed entries times the weights, plus 32 times the bias. -/
theorem real_law (c : Fin 32 → Fin 512 → ℝ) (w : Fin 512 → ℝ) (b : ℝ) :
    ∑ d : Fin 32, (∑ k : Fin 512, c d k * w k + b) = ∑ k : Fin 512, (∑ d : Fin 32, c d k) * w k + 32 * b := by
  rw [Finset.sum_add_distrib, Finset.sum_comm]
  congr 1
  · exact Finset.sum_congr rfl fun k _ => (Finset.sum_mul _ _ _).symm
  · simp [Finset.sum_const]

/-! ## The law on the extended reals -/

/-- The reference's aggregate on coerced real data, as the coercion of a real number. -/
theorem aggRef_coe (r0 r1 : Fin 32 → Fin 256 → ℝ) (w : Fin 256 → Fin 512 → ℝ) (b : Fin 256 → ℝ) (o : Fin 256) :
    aggRef (fun d f => ((r0 d f : ℝ) : EReal)) (fun d f => ((r1 d f : ℝ) : EReal))
        (fun o k => ((w o k : ℝ) : EReal)) (fun o => ((b o : ℝ) : EReal)) o
      = ((∑ d : Fin 32, (∑ k : Fin 512, catR (r0 d) (r1 d) k * w o k + b o) : ℝ) : EReal) := by
  unfold aggRef
  rw [coe_sum]
  refine Finset.sum_congr rfl fun d _ => ?_
  have hc : cat (fun f => ((r0 d f : ℝ) : EReal)) (fun f => ((r1 d f : ℝ) : EReal))
      = fun k => ((catR (r0 d) (r1 d) k : ℝ) : EReal) := funext fun k => cat_coe _ _ k
  rw [hc, layer_coe, EReal.coe_add]

/-- The kernel's aggregate on coerced real data, as the coercion of a real number. -/
theorem aggKer_coe (r0 r1 : Fin 32 → Fin 256 → ℝ) (w : Fin 256 → Fin 512 → ℝ) (b : Fin 256 → ℝ) (o : Fin 256) :
    aggKer (fun d f => ((r0 d f : ℝ) : EReal)) (fun d f => ((r1 d f : ℝ) : EReal))
        (fun o k => ((w o k : ℝ) : EReal)) (fun o => ((b o : ℝ) : EReal)) o
      = ((∑ k : Fin 512, (∑ d : Fin 32, catR (r0 d) (r1 d) k) * w o k + 32 * b o : ℝ) : EReal) := by
  unfold aggKer
  have h0 : (fun f => ∑ d : Fin 32, ((r0 d f : ℝ) : EReal)) = fun f => ((∑ d : Fin 32, r0 d f : ℝ) : EReal) :=
    funext fun f => (coe_sum _ _).symm
  have h1 : (fun f => ∑ d : Fin 32, ((r1 d f : ℝ) : EReal)) = fun f => ((∑ d : Fin 32, r1 d f : ℝ) : EReal) :=
    funext fun f => (coe_sum _ _).symm
  have hc : cat (fun f => ((∑ d : Fin 32, r0 d f : ℝ) : EReal)) (fun f => ((∑ d : Fin 32, r1 d f : ℝ) : EReal))
      = fun k => ((∑ d : Fin 32, catR (r0 d) (r1 d) k : ℝ) : EReal) :=
    funext fun k => by rw [cat_coe, catR_sum]
  rw [h0, h1, hc, layer_coe, ofBits_thirtytwo, ← EReal.coe_mul, ← EReal.coe_add]

/-- **The aggregation law.** With every entry real, the kernel's aggregate (layer once on the summed rows, plus 32
    times the bias) equals the reference's (layer plus bias on every neighbour, summed). -/
theorem aggKer_eq_aggRef (n0 n1 : Fin 32 → Fin 256 → EReal) (w1 : Fin 256 → Fin 512 → EReal) (b1 : Fin 256 → EReal)
    (h0 : ∀ d f, ∃ r : ℝ, n0 d f = (r : EReal)) (h1 : ∀ d f, ∃ r : ℝ, n1 d f = (r : EReal))
    (hw : ∀ o k, ∃ r : ℝ, w1 o k = (r : EReal)) (hb : ∀ o, ∃ r : ℝ, b1 o = (r : EReal)) :
    aggKer n0 n1 w1 b1 = aggRef n0 n1 w1 b1 := by
  choose r0 hr0 using h0
  choose r1 hr1 using h1
  choose w hw' using hw
  choose b hb' using hb
  obtain rfl : n0 = fun d f => ((r0 d f : ℝ) : EReal) := funext fun d => funext fun f => hr0 d f
  obtain rfl : n1 = fun d f => ((r1 d f : ℝ) : EReal) := funext fun d => funext fun f => hr1 d f
  obtain rfl : w1 = fun o k => ((w o k : ℝ) : EReal) := funext fun o => funext fun k => hw' o k
  obtain rfl : b1 = fun o => ((b o : ℝ) : EReal) := funext fun o => hb' o
  funext o
  rw [aggKer_coe, aggRef_coe, real_law]

/-- The output rows agree: both are the same second layer and normalization of the (equal) aggregates. -/
theorem kerRow_eq_refRow (n0 n1 : Fin 32 → Fin 256 → EReal) (own : Fin 256 → EReal)
    (w1 w2 : Fin 256 → Fin 512 → EReal) (b1 b2 : Fin 256 → EReal)
    (h0 : ∀ d f, ∃ r : ℝ, n0 d f = (r : EReal)) (h1 : ∀ d f, ∃ r : ℝ, n1 d f = (r : EReal))
    (hw : ∀ o k, ∃ r : ℝ, w1 o k = (r : EReal)) (hb : ∀ o, ∃ r : ℝ, b1 o = (r : EReal)) :
    kerRow n0 n1 own w1 w2 b1 b2 = refRow n0 n1 own w1 w2 b1 b2 := by
  unfold kerRow refRow
  rw [aggKer_eq_aggRef n0 n1 w1 b1 h0 h1 hw hb]

/-- **The node's output rows agree.** With every entry of the two feature tables, the first weight matrix and the first
    bias real, the kernel's output row of the node a word selects equals the reference's: the rows the word selects
    are entries of those tables. -/
theorem outKer_eq_outRef (X0 X1 : Feat) (W1 W2 : Wt) (b1 b2 : Bias) (A : Adj) (x : BitVec 32)
    (h0 : ∀ i, ∃ r : ℝ, X0 i = (r : EReal)) (h1 : ∀ i, ∃ r : ℝ, X1 i = (r : EReal))
    (hw : ∀ i, ∃ r : ℝ, W1 i = (r : EReal)) (hb : ∀ i, ∃ r : ℝ, b1 i = (r : EReal)) :
    outKer X0 X1 W1 W2 b1 b2 A x = outRef X0 X1 W1 W2 b1 b2 A x := by
  unfold outKer outRef
  exact kerRow_eq_refRow _ _ _ _ _ _ _ (fun _ _ => h0 _) (fun _ _ => h1 _) (fun _ _ => hw _) (fun _ => hb _)

end Cert.Agg

end
-- ==== Proof.FiniteArgs.lean ====
/-
  Finiteness of the float inputs, read off the certificate's precondition.

  The precondition evaluates, on the six float argument arrays, the conjunction of six tests "every entry has absolute
  value below +∞". On the extended reals the absolute value of `x` is `max x (-x)`, which is `⊤` at both infinities and a
  real otherwise; so each test passing says every entry of that array is (the coercion of) a real number.
-/
import proofs.«111308_j49039936585979_2_alg».proof.Defs
import Idealize.ShloMosaic.Lib.ReduceAll

noncomputable section

namespace Cert.KernelIdeal.Fin

open Idealize.ShloMosaic Idealize.SL.Sem

/-- The single-precision word `0x7F800000` (exponent all ones, fraction zero) denotes `+∞`. -/
theorem ofBits_inf : Ideal.ofBits .f32 0x7F800000#32 = (⊤ : EReal) := by
  simp [Ideal.ofBits, Ideal.ieee]

/-- An extended real whose absolute value `max x (-x)` is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The scalar test: the comparison "absolute value below the word of `+∞`" answering 1 says the entry is real. -/
theorem real_of_cmp (x : EReal)
    (h : Ideal.cmp .olt (max x (-x)) (Ideal.ofBits .f32 0x7F800000#32) = 1#1) : ∃ r : ℝ, x = (r : EReal) := by
  rw [ofBits_inf] at h
  refine real_of_abs_lt_top x ?_
  by_contra hn
  simp [Ideal.cmp, hn] at h

/-- The array test at an index: where the elementwise comparison of `|x|` with the broadcast `+∞` word is 1, the
    entry is real. -/
theorem real_of_test {s : Shape} (x : FVec Ideal s .f32) (hb : Cert.Pre_finite_inputs.S_.BroadcastsInDim s (![] : Fin 0 → Fin s.rank))
    (i : s.Idx)
    (e : cmpf .olt (Host.absf x)
        (broadcastInDim s ![] hb (constant (F := Ideal) Cert.Pre_finite_inputs.S_ .f32 0x7F800000#32)) i = 1#1) :
    ∃ r : ℝ, x i = (r : EReal) :=
  real_of_cmp (x i) e

instance : Subsingleton Cert.Pre_finite_inputs.S_.Idx := ⟨fun a b => funext fun d => d.elim0⟩

/-- `jnp.all(|x| < +∞)` answering 1 says every entry of `x` is real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi (cmpf .olt (Host.absf x)
        (broadcastInDim s ![] hb (constant (F := Ideal) Cert.Pre_finite_inputs.S_ .f32 0x7F800000#32))) init hr hu j = 1#1)
    (i : s.Idx) : ∃ r : ℝ, x i = (r : EReal) :=
  real_of_test x hb i (Host.reduce_andi_all _ init hr hu j e i)

open Cert.Pre_finite_inputs in
/-- The precondition's conjunction, split: each of the six float arrays passes its test. -/
theorem fn_eq_one [hP : Cert.Pre_finite_inputs.Facts]
    (a0 a1 : FVec Ideal S100000x256 .f32) (a2 : FVec Ideal S256x512 .f32) (a3 : FVec Ideal S256 .f32)
    (a4 : FVec Ideal S256x512 .f32) (a5 : FVec Ideal S256 .f32) (a6 : IVec S100000x32 32) (a7 a8 : IVec S8192 32)
    (a9 : IVec S10 32) (j : S_.Idx)
    (h : Cert.Pre_finite_inputs.fn (F := Ideal) a0 a1 a2 a3 a4 a5 a6 a7 a8 a9 j = 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  dsimp only [Cert.Pre_finite_inputs.fn, Cert.Pre_finite_inputs.fn_part1, andi] at h
  simp only [IntOp.andi_eq_one] at h
  obtain ⟨⟨⟨⟨⟨e0, e1⟩, e2⟩, e3⟩, e4⟩, e5⟩ := h
  exact ⟨real_of_all a0 _ _ _ _ j e0, real_of_all a1 _ _ _ _ j e1, real_of_all a2 _ _ _ _ j e2,
    real_of_all a3 _ _ _ _ j e3, real_of_all a4 _ _ _ _ j e4, real_of_all a5 _ _ _ _ j e5⟩

/-- **Every float input is real.** Under the certificate's precondition every entry of the six float argument arrays
    is the coercion of a real number, on every device. -/
theorem real_of_pre (m : (ℓ : Loc Cert.KernelIdeal.nD Cert.KernelIdeal.τ Cert.KernelIdeal.sig) → Buf (Elt Ideal) ℓ)
    [hP : Cert.Pre_finite_inputs.Facts] (h : Cert.Pre_KernelIdeal m) (c : Dev Cert.KernelIdeal.nD) :
    (∀ i, ∃ r : ℝ, (m ((c.tc : Thread Cert.KernelIdeal.nD Cert.KernelIdeal.τ).loc Cert.KernelIdeal.main_arg0)
        : FVec Ideal Cert.Pre_finite_inputs.S100000x256 .f32) i = (r : EReal))
    ∧ (∀ i, ∃ r : ℝ, (m ((c.tc : Thread Cert.KernelIdeal.nD Cert.KernelIdeal.τ).loc Cert.KernelIdeal.main_arg1)
        : FVec Ideal Cert.Pre_finite_inputs.S100000x256 .f32) i = (r : EReal))
    ∧ (∀ i, ∃ r : ℝ, (m ((c.tc : Thread Cert.KernelIdeal.nD Cert.KernelIdeal.τ).loc Cert.KernelIdeal.main_arg2)
        : FVec Ideal Cert.Pre_finite_inputs.S256x512 .f32) i = (r : EReal))
    ∧ (∀ i, ∃ r : ℝ, (m ((c.tc : Thread Cert.KernelIdeal.nD Cert.KernelIdeal.τ).loc Cert.KernelIdeal.main_arg3)
        : FVec Ideal Cert.Pre_finite_inputs.S256 .f32) i = (r : EReal))
    ∧ (∀ i, ∃ r : ℝ, (m ((c.tc : Thread Cert.KernelIdeal.nD Cert.KernelIdeal.τ).loc Cert.KernelIdeal.main_arg4)
        : FVec Ideal Cert.Pre_finite_inputs.S256x512 .f32) i = (r : EReal))
    ∧ (∀ i, ∃ r : ℝ, (m ((c.tc : Thread Cert.KernelIdeal.nD Cert.KernelIdeal.τ).loc Cert.KernelIdeal.main_arg5)
        : FVec Ideal Cert.Pre_finite_inputs.S256 .f32) i = (r : EReal)) :=
  fn_eq_one _ _ _ _ _ _ _ _ _ _ (fun a => a.elim0) (congrFun (h c) (fun a => a.elim0))

end Cert.KernelIdeal.Fin

end
-- ==== Proof.lean ====
/-
  The certificate of one graph-aggregation kernel against its jnp reference, over the extended reals.

  Both programs take two feature tables [100000, 256], two weight matrices [256, 512] with their biases, an
  adjacency table [100000, 32] of neighbour words and three arrays of node words, and return one normalized
  256-vector per node word. For a node the reference gathers its 32 neighbours' rows of both tables, sends every
  neighbour's 512-vector through the first layer with its bias, and sums the 32 results; the kernel sums the
  neighbours' rows first, applies the first layer once and adds 32 times the bias. The two aggregates agree wherever
  every table, weight and bias entry is a real number — the precondition — because a finite sum of reals
  distributes over the products (on the extended reals it would not at the infinities). The second layer on the
  node's own row beside the aggregate and the division by the floored Euclidean norm are the same function on both
  sides, and so are the wrapping and clamping of the index words.

  The kernel's program joins the three node arrays, pads them to 129 blocks of 128 words, gathers on the host, runs
  one region of 129 grid points (the frame and the region's result row by row: AroundIdeal / AroundBits, RegionRows,
  KernelOut) and slices the three results out; the reference runs three copies of one host pipeline (RefRun, RefRows).
  `preserves` has no conjunct: the ideal pass rewrote nothing.
-/
import proofs.«111308_j49039936585979_2_alg».proof.Defs
import proofs.«111308_j49039936585979_2_alg».proof.Proof.Gen.Kernel
import proofs.«111308_j49039936585979_2_alg».proof.Proof.Gen.KernelIdeal
import proofs.«111308_j49039936585979_2_alg».proof.Proof.Gen.ReferenceIdeal
import proofs.«111308_j49039936585979_2_alg».proof.Proof.Gen.Pre_finite_inputs
import proofs.«111308_j49039936585979_2_alg».proof.Proof.AroundIdeal
import proofs.«111308_j49039936585979_2_alg».proof.Proof.AroundBits
import proofs.«111308_j49039936585979_2_alg».proof.Proof.KernelOut
import proofs.«111308_j49039936585979_2_alg».proof.Proof.RefRun
import proofs.«111308_j49039936585979_2_alg».proof.Proof.RefRows
import proofs.«111308_j49039936585979_2_alg».proof.Proof.AggLaw
import proofs.«111308_j49039936585979_2_alg».proof.Proof.FiniteArgs
import Idealize.ShloMosaic.Adequacy
import Idealize.ShloMosaic.Init

set_option maxRecDepth 16384

noncomputable section

namespace Cert.Proof

open Idealize.ShloMosaic Idealize.ShloMosaic.TcCoe Idealize.SL.Sem

/-! ## The frames -/

theorem frame_k : Cert.frame_Kernel := fun m ρ _ => Cert.Kernel.Around.frame m ρ
theorem frame_ki : Cert.frame_KernelIdeal := fun m ρ _ => Cert.KernelIdeal.Around.frame m ρ
/-- The reference is host lines only: its frame is its run with the results dropped. -/
theorem frame_ri : Cert.frame_ReferenceIdeal := fun m ρ _ =>
  (θ_run Cert.ReferenceIdeal.defs _ _).mono (fun _ h c => (h c).2.2.2) (Cert.ReferenceIdeal.RunP.run (F := Ideal) m ρ)

theorem preserves : Cert.preserves_Kernel_KernelIdeal := trivial

/-! ## The kernel's run, its three results named -/

open Cert.KernelIdeal Cert.KernelIdeal.Gen Cert.KernelIdeal.Around in
theorem kernel_leg (m : (ℓ : Loc nD τ sig) → Buf (Elt Ideal) ℓ) (ρ : Dev nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc main_v40) = Pipeline.afterTail₀ cfgs (dats m) 0 (V0 m) [hostOps1] c main_v40
      ∧ r.2.mem ((c.tc : Thread nD τ).loc main_v41) = Pipeline.afterTail₀ cfgs (dats m) 0 (V0 m) [hostOps1] c main_v41
      ∧ r.2.mem ((c.tc : Thread nD τ).loc main_v42) = Pipeline.afterTail₀ cfgs (dats m) 0 (V0 m) [hostOps1] c main_v42
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).2 main_v40 (Pipeline.mem_restRefs_of main_v40 (by decide) (by decide)),
    (h c).2 main_v41 (Pipeline.mem_restRefs_of main_v41 (by decide) (by decide)),
    (h c).2 main_v42 (Pipeline.mem_restRefs_of main_v42 (by decide) (by decide)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c)⟩) (run_main m ρ)

/-! ## The reference's results are the kernel's -/

open Cert.KernelIdeal Cert.KernelIdeal.Gen Cert.KernelIdeal.Around in
/-- Under the precondition the reference's 1 result, read off the kernel's memory, is the kernel's: row by row both are the
    output row of the same node word, the kernel's aggregate being the reference's where every table entry is real. -/
theorem rows1 (m : (ℓ : Loc nD τ sig) → Buf (Elt Ideal) ℓ) (hpre : Cert.Pre_KernelIdeal m) (c : Dev nD) :
    Cert.ReferenceIdeal.ReadP.val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      = Pipeline.afterTail₀ cfgs (dats m) 0 (V0 m) [hostOps1] c main_v40 := by
  funext i
  obtain ⟨r, o, rfl⟩ : ∃ (r : Fin 8192) (o : Fin 256), i = ValueIdx.ix2 r o := ⟨i 0, i 1, ValueIdx.eq_ix2 i⟩
  obtain ⟨h0, h1, h2, h3, -, -⟩ := Cert.KernelIdeal.Fin.real_of_pre m hpre c
  rw [Cert.ReferenceIdeal.Rows.out1_apply, Cert.KernelIdeal.Out.out40_apply, Cert.Agg.outKer_eq_outRef _ _ _ _ _ _ _ _ h0 h1 h2 h3]

open Cert.KernelIdeal Cert.KernelIdeal.Gen Cert.KernelIdeal.Around in
/-- Under the precondition the reference's 2 result, read off the kernel's memory, is the kernel's: row by row both are the
    output row of the same node word, the kernel's aggregate being the reference's where every table entry is real. -/
theorem rows2 (m : (ℓ : Loc nD τ sig) → Buf (Elt Ideal) ℓ) (hpre : Cert.Pre_KernelIdeal m) (c : Dev nD) :
    Cert.ReferenceIdeal.ReadP.val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8))
      = Pipeline.afterTail₀ cfgs (dats m) 0 (V0 m) [hostOps1] c main_v41 := by
  funext i
  obtain ⟨r, o, rfl⟩ : ∃ (r : Fin 8192) (o : Fin 256), i = ValueIdx.ix2 r o := ⟨i 0, i 1, ValueIdx.eq_ix2 i⟩
  obtain ⟨h0, h1, h2, h3, -, -⟩ := Cert.KernelIdeal.Fin.real_of_pre m hpre c
  rw [Cert.ReferenceIdeal.Rows.out2_apply, Cert.KernelIdeal.Out.out41_apply, Cert.Agg.outKer_eq_outRef _ _ _ _ _ _ _ _ h0 h1 h2 h3]

open Cert.KernelIdeal Cert.KernelIdeal.Gen Cert.KernelIdeal.Around in
/-- Under the precondition the reference's 3 result, read off the kernel's memory, is the kernel's: row by row both are the
    output row of the same node word, the kernel's aggregate being the reference's where every table entry is real. -/
theorem rows3 (m : (ℓ : Loc nD τ sig) → Buf (Elt Ideal) ℓ) (hpre : Cert.Pre_KernelIdeal m) (c : Dev nD) :
    Cert.ReferenceIdeal.ReadP.val_main_v134 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9))
      = Pipeline.afterTail₀ cfgs (dats m) 0 (V0 m) [hostOps1] c main_v42 := by
  funext i
  obtain ⟨r, o, rfl⟩ : ∃ (r : Fin 10) (o : Fin 256), i = ValueIdx.ix2 r o := ⟨i 0, i 1, ValueIdx.eq_ix2 i⟩
  obtain ⟨h0, h1, h2, h3, -, -⟩ := Cert.KernelIdeal.Fin.real_of_pre m hpre c
  rw [Cert.ReferenceIdeal.Rows.out3_apply, Cert.KernelIdeal.Out.out42_apply, Cert.Agg.outKer_eq_outRef _ _ _ _ _ _ _ _ h0 h1 h2 h3]

open Cert.KernelIdeal Cert.KernelIdeal.Gen Cert.KernelIdeal.Around in
/-- From memories agreeing on the arguments both programs run to the end with equal results. -/
theorem algebraic : Cert.algebraic_KernelIdeal_ReferenceIdeal := by
  intro m ρ m' ρ' hpre hagree
  refine ⟨fun c => Pipeline.afterTail₀ cfgs (dats m) 0 (V0 m) [hostOps1] c main_v40,
    fun c => Pipeline.afterTail₀ cfgs (dats m) 0 (V0 m) [hostOps1] c main_v41,
    fun c => Pipeline.afterTail₀ cfgs (dats m) 0 (V0 m) [hostOps1] c main_v42, kernel_leg m ρ, ?_⟩
  refine (θ_run Cert.ReferenceIdeal.defs _ _).mono (fun _ h c => ?_) (Cert.ReferenceIdeal.RunP.run (F := Ideal) m' ρ')
  obtain ⟨e0, e1, e2, eargs⟩ := h c
  obtain ⟨a0, a1, a2, a3, a4, a5, a6, a7, a8, a9⟩ := hagree c
  refine ⟨e0.trans ?_, e1.trans ?_, e2.trans ?_, eargs⟩
  · rw [a0, a1, a2, a3, a4, a5, a6, a7]; exact rows1 m hpre c
  · rw [a0, a1, a2, a3, a4, a5, a6, a8]; exact rows2 m hpre c
  · rw [a0, a1, a2, a3, a4, a5, a6, a9]; exact rows3 m hpre c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
